-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v373)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v373) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v451) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024x2 : Shape := ⟨4, ![8, 1024, 1024, 2]⟩
abbrev S1x1x1024x1024 : Shape := ⟨4, ![1, 1, 1024, 1024]⟩
abbrev S1x1x512x512 : Shape := ⟨4, ![1, 1, 512, 512]⟩
abbrev S1x1x256x256 : Shape := ⟨4, ![1, 1, 256, 256]⟩
abbrev S1x1x128x128 : Shape := ⟨4, ![1, 1, 128, 128]⟩
abbrev S_ : Shape := ⟨0, ![]⟩

class Facts : Prop where
  bcast_S_S8x1024x1024x2 : S_.BroadcastsInDim S8x1024x1024x2 (![] : Fin 0 → Fin S8x1024x1024x2.rank)
  reducesTo_S8x1024x1024x2_S_d0_1_2_3 : S8x1024x1024x2.ReducesTo [0, 1, 2, 3] S_
  h_S_ : 0 < S_.numel
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_
  bcast_S_S1x1x512x512 : S_.BroadcastsInDim S1x1x512x512 (![] : Fin 0 → Fin S1x1x512x512.rank)
  reducesTo_S1x1x512x512_S_d0_1_2_3 : S1x1x512x512.ReducesTo [0, 1, 2, 3] S_
  bcast_S_S1x1x256x256 : S_.BroadcastsInDim S1x1x256x256 (![] : Fin 0 → Fin S1x1x256x256.rank)
  reducesTo_S1x1x256x256_S_d0_1_2_3 : S1x1x256x256.ReducesTo [0, 1, 2, 3] S_
  bcast_S_S1x1x128x128 : S_.BroadcastsInDim S1x1x128x128 (![] : Fin 0 → Fin S1x1x128x128.rank)
  reducesTo_S1x1x128x128_S_d0_1_2_3 : S1x1x128x128.ReducesTo [0, 1, 2, 3] S_

variable [Facts]

def fn_part1 {F : FTy → Type} [FloatOps F] (main_arg4 : FVec F S1x1x128x128 .f32) (main_v13 : IVec S_ 1) (main_v16 : IVec S1x1x256x256 1) : IVec S_ 1 :=
  let main_c_5 : IVec S_ 1 := constantI S_ 1 1#1
  let main_v17 : IVec S_ 1 := (fun x v => Host.reduce IntOp.andi x v reducesTo_S1x1x256x256_S_d0_1_2_3 h_S_) main_v16 main_c_5
  let main_v18 : IVec S_ 1 := andi main_v13 main_v17
  let main_v19 : FVec F S1x1x128x128 .f32 := Host.absf main_arg4
  let main_cst_6 : FVec F S_ .f32 := constant S_ .f32 0x7F800000#32
  let main_v20 : FVec F S1x1x128x128 .f32 := broadcastInDim S1x1x128x128 ![] bcast_S_S1x1x128x128 main_cst_6
  let main_v21 : IVec S1x1x128x128 1 := cmpf .olt main_v19 main_v20
  let main_c_7 : IVec S_ 1 := constantI S_ 1 1#1
  let main_v22 : IVec S_ 1 := (fun x v => Host.reduce IntOp.andi x v reducesTo_S1x1x128x128_S_d0_1_2_3 h_S_) main_v21 main_c_7
  let main_v23 : IVec S_ 1 := andi main_v18 main_v22
  main_v23

def fn {F : FTy → Type} [FloatOps F] (main_arg0 : FVec F S8x1024x1024x2 .f32) (main_arg1 : FVec F S1x1x1024x1024 .f32) (main_arg2 : FVec F S1x1x512x512 .f32) (main_arg3 : FVec F S1x1x256x256 .f32) (main_arg4 : FVec F S1x1x128x128 .f32) : IVec S_ 1 :=
  let main_v0 : FVec F S8x1024x1024x2 .f32 := Host.absf main_arg0
  let main_cst : FVec F S_ .f32 := constant S_ .f32 0x7F800000#32
  let main_v1 : FVec F S8x1024x1024x2 .f32 := broadcastInDim S8x1024x1024x2 ![] bcast_S_S8x1024x1024x2 main_cst
  let main_v2 : IVec S8x1024x1024x2 1 := cmpf .olt main_v0 main_v1
  let main_c : IVec S_ 1 := constantI S_ 1 1#1
  let main_v3 : IVec S_ 1 := (fun x v => Host.reduce IntOp.andi x v reducesTo_S8x1024x1024x2_S_d0_1_2_3 h_S_) main_v2 main_c
  let main_v4 : FVec F S1x1x1024x1024 .f32 := Host.absf main_arg1
  let main_cst_0 : FVec F S_ .f32 := constant S_ .f32 0x7F800000#32
  let main_v5 : FVec F S1x1x1024x1024 .f32 := broadcastInDim S1x1x1024x1024 ![] bcast_S_S1x1x1024x1024 main_cst_0
  let main_v6 : IVec S1x1x1024x1024 1 := cmpf .olt main_v4 main_v5
  let main_c_1 : IVec S_ 1 := constantI S_ 1 1#1
  let main_v7 : IVec S_ 1 := (fun x v => Host.reduce IntOp.andi x v reducesTo_S1x1x1024x1024_S_d0_1_2_3 h_S_) main_v6 main_c_1
  let main_v8 : IVec S_ 1 := andi main_v3 main_v7
  let main_v9 : FVec F S1x1x512x512 .f32 := Host.absf main_arg2
  let main_cst_2 : FVec F S_ .f32 := constant S_ .f32 0x7F800000#32
  let main_v10 : FVec F S1x1x512x512 .f32 := broadcastInDim S1x1x512x512 ![] bcast_S_S1x1x512x512 main_cst_2
  let main_v11 : IVec S1x1x512x512 1 := cmpf .olt main_v9 main_v10
  let main_c_3 : IVec S_ 1 := constantI S_ 1 1#1
  let main_v12 : IVec S_ 1 := (fun x v => Host.reduce IntOp.andi x v reducesTo_S1x1x512x512_S_d0_1_2_3 h_S_) main_v11 main_c_3
  let main_v13 : IVec S_ 1 := andi main_v8 main_v12
  let main_v14 : FVec F S1x1x256x256 .f32 := Host.absf main_arg3
  let main_cst_4 : FVec F S_ .f32 := constant S_ .f32 0x7F800000#32
  let main_v15 : FVec F S1x1x256x256 .f32 := broadcastInDim S1x1x256x256 ![] bcast_S_S1x1x256x256 main_cst_4
  let main_v16 : IVec S1x1x256x256 1 := cmpf .olt main_v14 main_v15
  fn_part1 (F := F) main_arg4 main_v13 main_v16
-- ==== Kernel.lean ====
abbrev S8x1024x1024x2 : Shape := ⟨4, ![8, 1024, 1024, 2]⟩
abbrev S1x1x1024x1024 : Shape := ⟨4, ![1, 1, 1024, 1024]⟩
abbrev S1x1x512x512 : Shape := ⟨4, ![1, 1, 512, 512]⟩
abbrev S1x1x256x256 : Shape := ⟨4, ![1, 1, 256, 256]⟩
abbrev S1x1x128x128 : Shape := ⟨4, ![1, 1, 128, 128]⟩
abbrev S1024x1024 : Shape := ⟨2, ![1024, 1024]⟩
abbrev S512x512 : Shape := ⟨2, ![512, 512]⟩
abbrev S256x256 : Shape := ⟨2, ![256, 256]⟩
abbrev S128x128 : Shape := ⟨2, ![128, 128]⟩
abbrev S8x1024x1024x1 : Shape := ⟨4, ![8, 1024, 1024, 1]⟩
abbrev S8x1024x1024 : Shape := ⟨3, ![8, 1024, 1024]⟩
abbrev S_ : Shape := ⟨0, ![]⟩
abbrev S8x16x1024 : Shape := ⟨3, ![8, 16, 1024]⟩
abbrev S8x1x1024x1024 : Shape := ⟨4, ![8, 1, 1024, 1024]⟩

abbrev nBuf : Space → Nat
  | .hbm => 547
  | .vmem => 50
  | .smem => 0
  | _ => 0

abbrev hbmTy0_0 (i : Nat) : BufTy := match i % 128 with
  | 0 => ⟨S8x1024x1024x2, .f32⟩
  | 1 => ⟨S1x1x1024x1024, .f32⟩
  | 2 => ⟨S1x1x512x512, .f32⟩
  | 3 => ⟨S1x1x256x256, .f32⟩
  | 4 => ⟨S1x1x128x128, .f32⟩
  | 5 => ⟨S1024x1024, .f32⟩
  | 6 => ⟨S512x512, .f32⟩
  | 7 => ⟨S256x256, .f32⟩
  | 8 => ⟨S128x128, .f32⟩
  | 9 => ⟨S8x1024x1024x1, .f32⟩
  | 10 => ⟨S8x1024x1024, .f32⟩
  | 11 => ⟨S8x1024x1024x1, .f32⟩
  | 12 => ⟨S8x1024x1024, .f32⟩
  | 13 => ⟨S_, .f32⟩
  | 14 => ⟨S8x1024x1024, .f32⟩
  | 15 => ⟨S8x1024x1024, .f32⟩
  | 16 => ⟨S_, .f32⟩
  | 17 => ⟨S8x1024x1024, .f32⟩
  | 18 => ⟨S8x1024x1024, .f32⟩
  | 19 => ⟨S_, .f32⟩
  | 20 => ⟨S8x1024x1024, .f32⟩
  | 21 => ⟨S8x1024x1024, .f32⟩
  | 22 => ⟨S_, .f32⟩
  | 23 => ⟨S8x1024x1024, .f32⟩
  | 24 => ⟨S8x1024x1024, .f32⟩
  | 25 => ⟨S_, .f32⟩
  | 26 => ⟨S_, .f32⟩
  | 27 => ⟨S_, .f32⟩
  | 28 => ⟨S8x1024x1024, .f32⟩
  | 29 => ⟨S8x1024x1024, .f32⟩
  | 30 => ⟨S_, .f32⟩
  | 31 => ⟨S8x1024x1024, .f32⟩
  | 32 => ⟨S8x1024x1024, .f32⟩
  | 33 => ⟨S_, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S_, .f32⟩
  | 40 => ⟨S8x1024x1024, .f32⟩
  | 41 => ⟨S8x1024x1024, .f32⟩
  | 42 => ⟨S_, .f32⟩
  | 43 => ⟨S8x1024x1024, .f32⟩
  | 44 => ⟨S8x1024x1024, .f32⟩
  | 45 => ⟨S_, .f32⟩
  | 46 => ⟨S_, .f32⟩
  | 47 => ⟨S_, .f32⟩
  | 48 => ⟨S8x1024x1024, .f32⟩
  | 49 => ⟨S8x1024x1024, .f32⟩
  | 50 => ⟨S_, .f32⟩
  | 51 => ⟨S8x1024x1024, .f32⟩
  | 52 => ⟨S8x1024x1024, .f32⟩
  | 53 => ⟨S8x1024x1024, .f32⟩
  | 54 => ⟨S8x1024x1024, .f32⟩
  | 55 => ⟨S8x1024x1024, .f32⟩
  | 56 => ⟨S8x1024x1024, .f32⟩
  | 57 => ⟨S8x1024x1024, .i32⟩
  | 58 => ⟨S8x1024x1024, .i32⟩
  | 59 => ⟨S_, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i32⟩
  | 65 => ⟨S_, .i32⟩
  | 66 => ⟨S8x1024x1024, .i32⟩
  | 67 => ⟨S8x1024x1024, .i32⟩
  | 68 => ⟨S_, .i32⟩
  | 69 => ⟨S8x1024x1024, .i32⟩
  | 70 => ⟨S8x1024x1024, .i32⟩
  | 71 => ⟨S_, .i32⟩
  | 72 => ⟨S8x1024x1024, .i32⟩
  | 73 => ⟨S8x1024x1024, .i1⟩
  | 74 => ⟨S_, .i32⟩
  | 75 => ⟨S8x1024x1024, .i32⟩
  | 76 => ⟨S8x1024x1024, .i32⟩
  | 77 => ⟨S8x1024x1024, .i32⟩
  | 78 => ⟨S_, .i32⟩
  | 79 => ⟨S8x1024x1024, .i32⟩
  | 80 => ⟨S8x1024x1024, .i1⟩
  | 81 => ⟨S_, .i32⟩
  | 82 => ⟨S8x1024x1024, .i32⟩
  | 83 => ⟨S8x1024x1024, .i32⟩
  | 84 => ⟨S8x1024x1024, .i32⟩
  | 85 => ⟨S8x1024x1024x1, .i32⟩
  | 86 => ⟨S8x1024x1024x1, .i32⟩
  | 87 => ⟨S8x1024x1024x2, .i32⟩
  | 88 => ⟨S8x1024x1024, .f32⟩
  | 89 => ⟨S_, .i32⟩
  | 90 => ⟨S8x1024x1024, .i32⟩
  | 91 => ⟨S8x1024x1024, .i1⟩
  | 92 => ⟨S_, .i32⟩
  | 93 => ⟨S8x1024x1024, .i32⟩
  | 94 => ⟨S8x1024x1024, .i32⟩
  | 95 => ⟨S8x1024x1024, .i32⟩
  | 96 => ⟨S_, .i32⟩
  | 97 => ⟨S8x1024x1024, .i32⟩
  | 98 => ⟨S8x1024x1024, .i1⟩
  | 99 => ⟨S_, .i32⟩
  | 100 => ⟨S8x1024x1024, .i32⟩
  | 101 => ⟨S8x1024x1024, .i32⟩
  | 102 => ⟨S8x1024x1024, .i32⟩
  | 103 => ⟨S8x1024x1024x1, .i32⟩
  | 104 => ⟨S8x1024x1024x1, .i32⟩
  | 105 => ⟨S8x1024x1024x2, .i32⟩
  | 106 => ⟨S8x1024x1024, .f32⟩
  | 107 => ⟨S_, .i32⟩
  | 108 => ⟨S8x1024x1024, .i32⟩
  | 109 => ⟨S8x1024x1024, .i1⟩
  | 110 => ⟨S_, .i32⟩
  | 111 => ⟨S8x1024x1024, .i32⟩
  | 112 => ⟨S8x1024x1024, .i32⟩
  | 113 => ⟨S8x1024x1024, .i32⟩
  | 114 => ⟨S_, .i32⟩
  | 115 => ⟨S8x1024x1024, .i32⟩
  | 116 => ⟨S8x1024x1024, .i1⟩
  | 117 => ⟨S_, .i32⟩
  | 118 => ⟨S8x1024x1024, .i32⟩
  | 119 => ⟨S8x1024x1024, .i32⟩
  | 120 => ⟨S8x1024x1024, .i32⟩
  | 121 => ⟨S8x1024x1024x1, .i32⟩
  | 122 => ⟨S8x1024x1024x1, .i32⟩
  | 123 => ⟨S8x1024x1024x2, .i32⟩
  | 124 => ⟨S8x1024x1024, .f32⟩
  | 125 => ⟨S_, .i32⟩
  | 126 => ⟨S8x1024x1024, .i32⟩
  | 127 => ⟨S8x1024x1024, .i1⟩
  | _ => ⟨S8x1024x1024x2, .f32⟩

abbrev hbmTy0_1 (i : Nat) : BufTy := match i % 128 with
  | 0 => ⟨S_, .i32⟩
  | 1 => ⟨S8x1024x1024, .i32⟩
  | 2 => ⟨S8x1024x1024, .i32⟩
  | 3 => ⟨S8x1024x1024, .i32⟩
  | 4 => ⟨S_, .i32⟩
  | 5 => ⟨S8x1024x1024, .i32⟩
  | 6 => ⟨S8x1024x1024, .i1⟩
  | 7 => ⟨S_, .i32⟩
  | 8 => ⟨S8x1024x1024, .i32⟩
  | 9 => ⟨S8x1024x1024, .i32⟩
  | 10 => ⟨S8x1024x1024, .i32⟩
  | 11 => ⟨S8x1024x1024x1, .i32⟩
  | 12 => ⟨S8x1024x1024x1, .i32⟩
  | 13 => ⟨S8x1024x1024x2, .i32⟩
  | 14 => ⟨S8x1024x1024, .f32⟩
  | 15 => ⟨S8x1024x1024x1, .f32⟩
  | 16 => ⟨S8x1024x1024, .f32⟩
  | 17 => ⟨S8x1024x1024x1, .f32⟩
  | 18 => ⟨S8x1024x1024, .f32⟩
  | 19 => ⟨S_, .f32⟩
  | 20 => ⟨S8x1024x1024, .f32⟩
  | 21 => ⟨S8x1024x1024, .f32⟩
  | 22 => ⟨S_, .f32⟩
  | 23 => ⟨S8x1024x1024, .f32⟩
  | 24 => ⟨S8x1024x1024, .f32⟩
  | 25 => ⟨S_, .f32⟩
  | 26 => ⟨S8x1024x1024, .f32⟩
  | 27 => ⟨S8x1024x1024, .f32⟩
  | 28 => ⟨S_, .f32⟩
  | 29 => ⟨S8x1024x1024, .f32⟩
  | 30 => ⟨S8x1024x1024, .f32⟩
  | 31 => ⟨S_, .f32⟩
  | 32 => ⟨S_, .f32⟩
  | 33 => ⟨S_, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S_, .f32⟩
  | 40 => ⟨S8x1024x1024, .f32⟩
  | 41 => ⟨S8x1024x1024, .f32⟩
  | 42 => ⟨S_, .f32⟩
  | 43 => ⟨S8x1024x1024, .f32⟩
  | 44 => ⟨S8x1024x1024, .f32⟩
  | 45 => ⟨S_, .f32⟩
  | 46 => ⟨S8x1024x1024, .f32⟩
  | 47 => ⟨S8x1024x1024, .f32⟩
  | 48 => ⟨S_, .f32⟩
  | 49 => ⟨S8x1024x1024, .f32⟩
  | 50 => ⟨S8x1024x1024, .f32⟩
  | 51 => ⟨S_, .f32⟩
  | 52 => ⟨S_, .f32⟩
  | 53 => ⟨S_, .f32⟩
  | 54 => ⟨S8x1024x1024, .f32⟩
  | 55 => ⟨S8x1024x1024, .f32⟩
  | 56 => ⟨S_, .f32⟩
  | 57 => ⟨S8x1024x1024, .f32⟩
  | 58 => ⟨S8x1024x1024, .f32⟩
  | 59 => ⟨S8x1024x1024, .f32⟩
  | 60 => ⟨S8x1024x1024, .f32⟩
  | 61 => ⟨S8x1024x1024, .f32⟩
  | 62 => ⟨S8x1024x1024, .f32⟩
  | 63 => ⟨S8x1024x1024, .i32⟩
  | 64 => ⟨S8x1024x1024, .i32⟩
  | 65 => ⟨S_, .i32⟩
  | 66 => ⟨S8x1024x1024, .i32⟩
  | 67 => ⟨S8x1024x1024, .i32⟩
  | 68 => ⟨S_, .i32⟩
  | 69 => ⟨S8x1024x1024, .i32⟩
  | 70 => ⟨S8x1024x1024, .i32⟩
  | 71 => ⟨S_, .i32⟩
  | 72 => ⟨S8x1024x1024, .i32⟩
  | 73 => ⟨S8x1024x1024, .i32⟩
  | 74 => ⟨S_, .i32⟩
  | 75 => ⟨S8x1024x1024, .i32⟩
  | 76 => ⟨S8x1024x1024, .i32⟩
  | 77 => ⟨S_, .i32⟩
  | 78 => ⟨S8x1024x1024, .i32⟩
  | 79 => ⟨S8x1024x1024, .i1⟩
  | 80 => ⟨S_, .i32⟩
  | 81 => ⟨S8x1024x1024, .i32⟩
  | 82 => ⟨S8x1024x1024, .i32⟩
  | 83 => ⟨S8x1024x1024, .i32⟩
  | 84 => ⟨S_, .i32⟩
  | 85 => ⟨S8x1024x1024, .i32⟩
  | 86 => ⟨S8x1024x1024, .i1⟩
  | 87 => ⟨S_, .i32⟩
  | 88 => ⟨S8x1024x1024, .i32⟩
  | 89 => ⟨S8x1024x1024, .i32⟩
  | 90 => ⟨S8x1024x1024, .i32⟩
  | 91 => ⟨S8x1024x1024x1, .i32⟩
  | 92 => ⟨S8x1024x1024x1, .i32⟩
  | 93 => ⟨S8x1024x1024x2, .i32⟩
  | 94 => ⟨S8x1024x1024, .f32⟩
  | 95 => ⟨S_, .i32⟩
  | 96 => ⟨S8x1024x1024, .i32⟩
  | 97 => ⟨S8x1024x1024, .i1⟩
  | 98 => ⟨S_, .i32⟩
  | 99 => ⟨S8x1024x1024, .i32⟩
  | 100 => ⟨S8x1024x1024, .i32⟩
  | 101 => ⟨S8x1024x1024, .i32⟩
  | 102 => ⟨S_, .i32⟩
  | 103 => ⟨S8x1024x1024, .i32⟩
  | 104 => ⟨S8x1024x1024, .i1⟩
  | 105 => ⟨S_, .i32⟩
  | 106 => ⟨S8x1024x1024, .i32⟩
  | 107 => ⟨S8x1024x1024, .i32⟩
  | 108 => ⟨S8x1024x1024, .i32⟩
  | 109 => ⟨S8x1024x1024x1, .i32⟩
  | 110 => ⟨S8x1024x1024x1, .i32⟩
  | 111 => ⟨S8x1024x1024x2, .i32⟩
  | 112 => ⟨S8x1024x1024, .f32⟩
  | 113 => ⟨S_, .i32⟩
  | 114 => ⟨S8x1024x1024, .i32⟩
  | 115 => ⟨S8x1024x1024, .i1⟩
  | 116 => ⟨S_, .i32⟩
  | 117 => ⟨S8x1024x1024, .i32⟩
  | 118 => ⟨S8x1024x1024, .i32⟩
  | 119 => ⟨S8x1024x1024, .i32⟩
  | 120 => ⟨S_, .i32⟩
  | 121 => ⟨S8x1024x1024, .i32⟩
  | 122 => ⟨S8x1024x1024, .i1⟩
  | 123 => ⟨S_, .i32⟩
  | 124 => ⟨S8x1024x1024, .i32⟩
  | 125 => ⟨S8x1024x1024, .i32⟩
  | 126 => ⟨S8x1024x1024, .i32⟩
  | 127 => ⟨S8x1024x1024x1, .i32⟩
  | _ => ⟨S8x1024x1024x2, .f32⟩

abbrev hbmTy0_2 (i : Nat) : BufTy := match i % 128 with
  | 0 => ⟨S8x1024x1024x1, .i32⟩
  | 1 => ⟨S8x1024x1024x2, .i32⟩
  | 2 => ⟨S8x1024x1024, .f32⟩
  | 3 => ⟨S_, .i32⟩
  | 4 => ⟨S8x1024x1024, .i32⟩
  | 5 => ⟨S8x1024x1024, .i1⟩
  | 6 => ⟨S_, .i32⟩
  | 7 => ⟨S8x1024x1024, .i32⟩
  | 8 => ⟨S8x1024x1024, .i32⟩
  | 9 => ⟨S8x1024x1024, .i32⟩
  | 10 => ⟨S_, .i32⟩
  | 11 => ⟨S8x1024x1024, .i32⟩
  | 12 => ⟨S8x1024x1024, .i1⟩
  | 13 => ⟨S_, .i32⟩
  | 14 => ⟨S8x1024x1024, .i32⟩
  | 15 => ⟨S8x1024x1024, .i32⟩
  | 16 => ⟨S8x1024x1024, .i32⟩
  | 17 => ⟨S8x1024x1024x1, .i32⟩
  | 18 => ⟨S8x1024x1024x1, .i32⟩
  | 19 => ⟨S8x1024x1024x2, .i32⟩
  | 20 => ⟨S8x1024x1024, .f32⟩
  | 21 => ⟨S8x1024x1024x1, .f32⟩
  | 22 => ⟨S8x1024x1024, .f32⟩
  | 23 => ⟨S8x1024x1024x1, .f32⟩
  | 24 => ⟨S8x1024x1024, .f32⟩
  | 25 => ⟨S_, .f32⟩
  | 26 => ⟨S8x1024x1024, .f32⟩
  | 27 => ⟨S8x1024x1024, .f32⟩
  | 28 => ⟨S_, .f32⟩
  | 29 => ⟨S8x1024x1024, .f32⟩
  | 30 => ⟨S8x1024x1024, .f32⟩
  | 31 => ⟨S_, .f32⟩
  | 32 => ⟨S8x1024x1024, .f32⟩
  | 33 => ⟨S8x1024x1024, .f32⟩
  | 34 => ⟨S_, .f32⟩
  | 35 => ⟨S8x1024x1024, .f32⟩
  | 36 => ⟨S8x1024x1024, .f32⟩
  | 37 => ⟨S_, .f32⟩
  | 38 => ⟨S_, .f32⟩
  | 39 => ⟨S_, .f32⟩
  | 40 => ⟨S8x1024x1024, .f32⟩
  | 41 => ⟨S8x1024x1024, .f32⟩
  | 42 => ⟨S_, .f32⟩
  | 43 => ⟨S8x1024x1024, .f32⟩
  | 44 => ⟨S8x1024x1024, .f32⟩
  | 45 => ⟨S_, .f32⟩
  | 46 => ⟨S8x1024x1024, .f32⟩
  | 47 => ⟨S8x1024x1024, .f32⟩
  | 48 => ⟨S_, .f32⟩
  | 49 => ⟨S8x1024x1024, .f32⟩
  | 50 => ⟨S8x1024x1024, .f32⟩
  | 51 => ⟨S_, .f32⟩
  | 52 => ⟨S8x1024x1024, .f32⟩
  | 53 => ⟨S8x1024x1024, .f32⟩
  | 54 => ⟨S_, .f32⟩
  | 55 => ⟨S8x1024x1024, .f32⟩
  | 56 => ⟨S8x1024x1024, .f32⟩
  | 57 => ⟨S_, .f32⟩
  | 58 => ⟨S_, .f32⟩
  | 59 => ⟨S_, .f32⟩
  | 60 => ⟨S8x1024x1024, .f32⟩
  | 61 => ⟨S8x1024x1024, .f32⟩
  | 62 => ⟨S_, .f32⟩
  | 63 => ⟨S8x1024x1024, .f32⟩
  | 64 => ⟨S8x1024x1024, .f32⟩
  | 65 => ⟨S8x1024x1024, .f32⟩
  | 66 => ⟨S8x1024x1024, .f32⟩
  | 67 => ⟨S8x1024x1024, .f32⟩
  | 68 => ⟨S8x1024x1024, .f32⟩
  | 69 => ⟨S8x1024x1024, .i32⟩
  | 70 => ⟨S8x1024x1024, .i32⟩
  | 71 => ⟨S_, .i32⟩
  | 72 => ⟨S8x1024x1024, .i32⟩
  | 73 => ⟨S8x1024x1024, .i32⟩
  | 74 => ⟨S_, .i32⟩
  | 75 => ⟨S8x1024x1024, .i32⟩
  | 76 => ⟨S8x1024x1024, .i32⟩
  | 77 => ⟨S_, .i32⟩
  | 78 => ⟨S8x1024x1024, .i32⟩
  | 79 => ⟨S8x1024x1024, .i32⟩
  | 80 => ⟨S_, .i32⟩
  | 81 => ⟨S8x1024x1024, .i32⟩
  | 82 => ⟨S8x1024x1024, .i32⟩
  | 83 => ⟨S_, .i32⟩
  | 84 => ⟨S8x1024x1024, .i32⟩
  | 85 => ⟨S8x1024x1024, .i1⟩
  | 86 => ⟨S_, .i32⟩
  | 87 => ⟨S8x1024x1024, .i32⟩
  | 88 => ⟨S8x1024x1024, .i32⟩
  | 89 => ⟨S8x1024x1024, .i32⟩
  | 90 => ⟨S_, .i32⟩
  | 91 => ⟨S8x1024x1024, .i32⟩
  | 92 => ⟨S8x1024x1024, .i1⟩
  | 93 => ⟨S_, .i32⟩
  | 94 => ⟨S8x1024x1024, .i32⟩
  | 95 => ⟨S8x1024x1024, .i32⟩
  | 96 => ⟨S8x1024x1024, .i32⟩
  | 97 => ⟨S8x1024x1024x1, .i32⟩
  | 98 => ⟨S8x1024x1024x1, .i32⟩
  | 99 => ⟨S8x1024x1024x2, .i32⟩
  | 100 => ⟨S8x1024x1024, .f32⟩
  | 101 => ⟨S_, .i32⟩
  | 102 => ⟨S8x1024x1024, .i32⟩
  | 103 => ⟨S8x1024x1024, .i1⟩
  | 104 => ⟨S_, .i32⟩
  | 105 => ⟨S8x1024x1024, .i32⟩
  | 106 => ⟨S8x1024x1024, .i32⟩
  | 107 => ⟨S8x1024x1024, .i32⟩
  | 108 => ⟨S_, .i32⟩
  | 109 => ⟨S8x1024x1024, .i32⟩
  | 110 => ⟨S8x1024x1024, .i1⟩
  | 111 => ⟨S_, .i32⟩
  | 112 => ⟨S8x1024x1024, .i32⟩
  | 113 => ⟨S8x1024x1024, .i32⟩
  | 114 => ⟨S8x1024x1024, .i32⟩
  | 115 => ⟨S8x1024x1024x1, .i32⟩
  | 116 => ⟨S8x1024x1024x1, .i32⟩
  | 117 => ⟨S8x1024x1024x2, .i32⟩
  | 118 => ⟨S8x1024x1024, .f32⟩
  | 119 => ⟨S_, .i32⟩
  | 120 => ⟨S8x1024x1024, .i32⟩
  | 121 => ⟨S8x1024x1024, .i1⟩
  | 122 => ⟨S_, .i32⟩
  | 123 => ⟨S8x1024x1024, .i32⟩
  | 124 => ⟨S8x1024x1024, .i32⟩
  | 125 => ⟨S8x1024x1024, .i32⟩
  | 126 => ⟨S_, .i32⟩
  | 127 => ⟨S8x1024x1024, .i32⟩
  | _ => ⟨S8x1024x1024x2, .f32⟩

abbrev hbmTy0_3 (i : Nat) : BufTy := match i % 128 with
  | 0 => ⟨S8x1024x1024, .i1⟩
  | 1 => ⟨S_, .i32⟩
  | 2 => ⟨S8x1024x1024, .i32⟩
  | 3 => ⟨S8x1024x1024, .i32⟩
  | 4 => ⟨S8x1024x1024, .i32⟩
  | 5 => ⟨S8x1024x1024x1, .i32⟩
  | 6 => ⟨S8x1024x1024x1, .i32⟩
  | 7 => ⟨S8x1024x1024x2, .i32⟩
  | 8 => ⟨S8x1024x1024, .f32⟩
  | 9 => ⟨S_, .i32⟩
  | 10 => ⟨S8x1024x1024, .i32⟩
  | 11 => ⟨S8x1024x1024, .i1⟩
  | 12 => ⟨S_, .i32⟩
  | 13 => ⟨S8x1024x1024, .i32⟩
  | 14 => ⟨S8x1024x1024, .i32⟩
  | 15 => ⟨S8x1024x1024, .i32⟩
  | 16 => ⟨S_, .i32⟩
  | 17 => ⟨S8x1024x1024, .i32⟩
  | 18 => ⟨S8x1024x1024, .i1⟩
  | 19 => ⟨S_, .i32⟩
  | 20 => ⟨S8x1024x1024, .i32⟩
  | 21 => ⟨S8x1024x1024, .i32⟩
  | 22 => ⟨S8x1024x1024, .i32⟩
  | 23 => ⟨S8x1024x1024x1, .i32⟩
  | 24 => ⟨S8x1024x1024x1, .i32⟩
  | 25 => ⟨S8x1024x1024x2, .i32⟩
  | 26 => ⟨S8x1024x1024, .f32⟩
  | 27 => ⟨S8x1024x1024x1, .f32⟩
  | 28 => ⟨S8x1024x1024, .f32⟩
  | 29 => ⟨S8x1024x1024x1, .f32⟩
  | 30 => ⟨S8x1024x1024, .f32⟩
  | 31 => ⟨S_, .f32⟩
  | 32 => ⟨S8x1024x1024, .f32⟩
  | 33 => ⟨S8x1024x1024, .f32⟩
  | 34 => ⟨S_, .f32⟩
  | 35 => ⟨S8x1024x1024, .f32⟩
  | 36 => ⟨S8x1024x1024, .f32⟩
  | 37 => ⟨S_, .f32⟩
  | 38 => ⟨S8x1024x1024, .f32⟩
  | 39 => ⟨S8x1024x1024, .f32⟩
  | 40 => ⟨S_, .f32⟩
  | 41 => ⟨S8x1024x1024, .f32⟩
  | 42 => ⟨S8x1024x1024, .f32⟩
  | 43 => ⟨S_, .f32⟩
  | 44 => ⟨S_, .f32⟩
  | 45 => ⟨S_, .f32⟩
  | 46 => ⟨S8x1024x1024, .f32⟩
  | 47 => ⟨S8x1024x1024, .f32⟩
  | 48 => ⟨S_, .f32⟩
  | 49 => ⟨S8x1024x1024, .f32⟩
  | 50 => ⟨S8x1024x1024, .f32⟩
  | 51 => ⟨S_, .f32⟩
  | 52 => ⟨S8x1024x1024, .f32⟩
  | 53 => ⟨S8x1024x1024, .f32⟩
  | 54 => ⟨S_, .f32⟩
  | 55 => ⟨S8x1024x1024, .f32⟩
  | 56 => ⟨S8x1024x1024, .f32⟩
  | 57 => ⟨S_, .f32⟩
  | 58 => ⟨S8x1024x1024, .f32⟩
  | 59 => ⟨S8x1024x1024, .f32⟩
  | 60 => ⟨S_, .f32⟩
  | 61 => ⟨S8x1024x1024, .f32⟩
  | 62 => ⟨S8x1024x1024, .f32⟩
  | 63 => ⟨S_, .f32⟩
  | 64 => ⟨S_, .f32⟩
  | 65 => ⟨S_, .f32⟩
  | 66 => ⟨S8x1024x1024, .f32⟩
  | 67 => ⟨S8x1024x1024, .f32⟩
  | 68 => ⟨S_, .f32⟩
  | 69 => ⟨S8x1024x1024, .f32⟩
  | 70 => ⟨S8x1024x1024, .f32⟩
  | 71 => ⟨S8x1024x1024, .f32⟩
  | 72 => ⟨S8x1024x1024, .f32⟩
  | 73 => ⟨S8x1024x1024, .f32⟩
  | 74 => ⟨S8x1024x1024, .f32⟩
  | 75 => ⟨S8x1024x1024, .i32⟩
  | 76 => ⟨S8x1024x1024, .i32⟩
  | 77 => ⟨S_, .i32⟩
  | 78 => ⟨S8x1024x1024, .i32⟩
  | 79 => ⟨S8x1024x1024, .i32⟩
  | 80 => ⟨S_, .i32⟩
  | 81 => ⟨S8x1024x1024, .i32⟩
  | 82 => ⟨S8x1024x1024, .i32⟩
  | 83 => ⟨S_, .i32⟩
  | 84 => ⟨S8x1024x1024, .i32⟩
  | 85 => ⟨S8x1024x1024, .i32⟩
  | 86 => ⟨S_, .i32⟩
  | 87 => ⟨S8x1024x1024, .i32⟩
  | 88 => ⟨S8x1024x1024, .i32⟩
  | 89 => ⟨S_, .i32⟩
  | 90 => ⟨S8x1024x1024, .i32⟩
  | 91 => ⟨S8x1024x1024, .i1⟩
  | 92 => ⟨S_, .i32⟩
  | 93 => ⟨S8x1024x1024, .i32⟩
  | 94 => ⟨S8x1024x1024, .i32⟩
  | 95 => ⟨S8x1024x1024, .i32⟩
  | 96 => ⟨S_, .i32⟩
  | 97 => ⟨S8x1024x1024, .i32⟩
  | 98 => ⟨S8x1024x1024, .i1⟩
  | 99 => ⟨S_, .i32⟩
  | 100 => ⟨S8x1024x1024, .i32⟩
  | 101 => ⟨S8x1024x1024, .i32⟩
  | 102 => ⟨S8x1024x1024, .i32⟩
  | 103 => ⟨S8x1024x1024x1, .i32⟩
  | 104 => ⟨S8x1024x1024x1, .i32⟩
  | 105 => ⟨S8x1024x1024x2, .i32⟩
  | 106 => ⟨S8x1024x1024, .f32⟩
  | 107 => ⟨S_, .i32⟩
  | 108 => ⟨S8x1024x1024, .i32⟩
  | 109 => ⟨S8x1024x1024, .i1⟩
  | 110 => ⟨S_, .i32⟩
  | 111 => ⟨S8x1024x1024, .i32⟩
  | 112 => ⟨S8x1024x1024, .i32⟩
  | 113 => ⟨S8x1024x1024, .i32⟩
  | 114 => ⟨S_, .i32⟩
  | 115 => ⟨S8x1024x1024, .i32⟩
  | 116 => ⟨S8x1024x1024, .i1⟩
  | 117 => ⟨S_, .i32⟩
  | 118 => ⟨S8x1024x1024, .i32⟩
  | 119 => ⟨S8x1024x1024, .i32⟩
  | 120 => ⟨S8x1024x1024, .i32⟩
  | 121 => ⟨S8x1024x1024x1, .i32⟩
  | 122 => ⟨S8x1024x1024x1, .i32⟩
  | 123 => ⟨S8x1024x1024x2, .i32⟩
  | 124 => ⟨S8x1024x1024, .f32⟩
  | 125 => ⟨S_, .i32⟩
  | 126 => ⟨S8x1024x1024, .i32⟩
  | 127 => ⟨S8x1024x1024, .i1⟩
  | _ => ⟨S8x1024x1024x2, .f32⟩

abbrev hbmTy0_4 (i : Nat) : BufTy := match i % 128 with
  | 0 => ⟨S_, .i32⟩
  | 1 => ⟨S8x1024x1024, .i32⟩
  | 2 => ⟨S8x1024x1024, .i32⟩
  | 3 => ⟨S8x1024x1024, .i32⟩
  | 4 => ⟨S_, .i32⟩
  | 5 => ⟨S8x1024x1024, .i32⟩
  | 6 => ⟨S8x1024x1024, .i1⟩
  | 7 => ⟨S_, .i32⟩
  | 8 => ⟨S8x1024x1024, .i32⟩
  | 9 => ⟨S8x1024x1024, .i32⟩
  | 10 => ⟨S8x1024x1024, .i32⟩
  | 11 => ⟨S8x1024x1024x1, .i32⟩
  | 12 => ⟨S8x1024x1024x1, .i32⟩
  | 13 => ⟨S8x1024x1024x2, .i32⟩
  | 14 => ⟨S8x1024x1024, .f32⟩
  | 15 => ⟨S_, .i32⟩
  | 16 => ⟨S8x1024x1024, .i32⟩
  | 17 => ⟨S8x1024x1024, .i1⟩
  | 18 => ⟨S_, .i32⟩
  | 19 => ⟨S8x1024x1024, .i32⟩
  | 20 => ⟨S8x1024x1024, .i32⟩
  | 21 => ⟨S8x1024x1024, .i32⟩
  | 22 => ⟨S_, .i32⟩
  | 23 => ⟨S8x1024x1024, .i32⟩
  | 24 => ⟨S8x1024x1024, .i1⟩
  | 25 => ⟨S_, .i32⟩
  | 26 => ⟨S8x1024x1024, .i32⟩
  | 27 => ⟨S8x1024x1024, .i32⟩
  | 28 => ⟨S8x1024x1024, .i32⟩
  | 29 => ⟨S8x1024x1024x1, .i32⟩
  | 30 => ⟨S8x1024x1024x1, .i32⟩
  | 31 => ⟨S8x1024x1024x2, .i32⟩
  | 32 => ⟨S8x1024x1024, .f32⟩
  | 33 => ⟨S8x1024x1024, .f32⟩
  | 34 => ⟨S8x1x1024x1024, .f32⟩
  | _ => ⟨S8x1024x1024x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x1024x1024x2, .f32⟩

abbrev bufTy : (tb : Table) → Fin (tcTables nBuf tb) → BufTy
  | .hbm, ⟨i, _⟩ => hbmTy i
  | .local _ .vmem, ⟨0, _⟩ => ⟨S8x16x1024, .f32⟩
  | .local _ .vmem, ⟨1, _⟩ => ⟨S8x16x1024, .f32⟩
  | .local _ .vmem, ⟨2, _⟩ => ⟨S8x16x1024, .f32⟩
  | .local _ .vmem, ⟨3, _⟩ => ⟨S8x16x1024, .f32⟩
  | .local _ .vmem, ⟨4, _⟩ => ⟨S8x16x1024, .f32⟩
  | .local _ .vmem, ⟨5, _⟩ => ⟨S8x16x1024, .f32⟩
  | .local _ .vmem, ⟨6, _⟩ => ⟨S8x16x1024, .f32⟩
  | .local _ .vmem, ⟨7, _⟩ => ⟨S8x16x1024, .f32⟩
  | .local _ .vmem, ⟨8, _⟩ => ⟨S8x16x1024, .f32⟩
  | .local _ .vmem, ⟨9, _⟩ => ⟨S8x16x1024, .f32⟩
  | .local _ .vmem, ⟨10, _⟩ => ⟨S8x16x1024, .f32⟩
  | .local _ .vmem, ⟨11, _⟩ => ⟨S8x16x1024, .f32⟩
  | .local _ .vmem, ⟨12, _⟩ => ⟨S8x16x1024, .f32⟩
  | .local _ .vmem, ⟨13, _⟩ => ⟨S8x16x1024, .f32⟩
  | .local _ .vmem, ⟨14, _⟩ => ⟨S8x16x1024, .f32⟩
  | .local _ .vmem, ⟨15, _⟩ => ⟨S8x16x1024, .f32⟩
  | .local _ .vmem, ⟨16, _⟩ => ⟨S8x16x1024, .f32⟩
  | .local _ .vmem, ⟨17, _⟩ => ⟨S8x16x1024, .f32⟩
  | .local _ .vmem, ⟨18, _⟩ => ⟨S8x16x1024, .f32⟩
  | .local _ .vmem, ⟨19, _⟩ => ⟨S8x16x1024, .f32⟩
  | .local _ .vmem, ⟨20, _⟩ => ⟨S8x16x1024, .f32⟩
  | .local _ .vmem, ⟨21, _⟩ => ⟨S8x16x1024, .f32⟩
  | .local _ .vmem, ⟨22, _⟩ => ⟨S8x16x1024, .f32⟩
  | .local _ .vmem, ⟨23, _⟩ => ⟨S8x16x1024, .f32⟩
  | .local _ .vmem, ⟨24, _⟩ => ⟨S8x16x1024, .f32⟩
  | .local _ .vmem, ⟨25, _⟩ => ⟨S8x16x1024, .f32⟩
  | .local _ .vmem, ⟨26, _⟩ => ⟨S8x16x1024, .f32⟩
  | .local _ .vmem, ⟨27, _⟩ => ⟨S8x16x1024, .f32⟩
  | .local _ .vmem, ⟨28, _⟩ => ⟨S8x16x1024, .f32⟩
  | .local _ .vmem, ⟨29, _⟩ => ⟨S8x16x1024, .f32⟩
  | .local _ .vmem, ⟨30, _⟩ => ⟨S8x16x1024, .f32⟩
  | .local _ .vmem, ⟨31, _⟩ => ⟨S8x16x1024, .f32⟩
  | .local _ .vmem, ⟨32, _⟩ => ⟨S8x16x1024, .f32⟩
  | .local _ .vmem, ⟨33, _⟩ => ⟨S8x16x1024, .f32⟩
  | .local _ .vmem, ⟨34, _⟩ => ⟨S8x16x1024, .f32⟩
  | .local _ .vmem, ⟨35, _⟩ => ⟨S8x16x1024, .f32⟩
  | .local _ .vmem, ⟨36, _⟩ => ⟨S8x16x1024, .f32⟩
  | .local _ .vmem, ⟨37, _⟩ => ⟨S8x16x1024, .f32⟩
  | .local _ .vmem, ⟨38, _⟩ => ⟨S8x16x1024, .f32⟩
  | .local _ .vmem, ⟨39, _⟩ => ⟨S8x16x1024, .f32⟩
  | .local _ .vmem, ⟨40, _⟩ => ⟨S8x16x1024, .f32⟩
  | .local _ .vmem, ⟨41, _⟩ => ⟨S8x16x1024, .f32⟩
  | .local _ .vmem, ⟨42, _⟩ => ⟨S8x16x1024, .f32⟩
  | .local _ .vmem, ⟨43, _⟩ => ⟨S8x16x1024, .f32⟩
  | .local _ .vmem, ⟨44, _⟩ => ⟨S8x16x1024, .f32⟩
  | .local _ .vmem, ⟨45, _⟩ => ⟨S8x16x1024, .f32⟩
  | .local _ .vmem, ⟨46, _⟩ => ⟨S8x16x1024, .f32⟩
  | .local _ .vmem, ⟨47, _⟩ => ⟨S8x16x1024, .f32⟩
  | .local _ .vmem, ⟨48, _⟩ => ⟨S8x16x1024, .f32⟩
  | .local _ .vmem, ⟨49, _⟩ => ⟨S8x16x1024, .f32⟩
  | _, _ => ⟨S8x1024x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_cst_9 : Ref sig .tc := ⟨.hbm, 45, rfl⟩
abbrev main_cst_10 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c : Ref sig .tc := ⟨.hbm, 59, rfl⟩
abbrev main_v32 : Ref sig .tc := ⟨.hbm, 60, rfl⟩
abbrev main_v33 : Ref sig .tc := ⟨.hbm, 61, rfl⟩
abbrev main_c_11 : Ref sig .tc := ⟨.hbm, 62, rfl⟩
abbrev main_v34 : Ref sig .tc := ⟨.hbm, 63, rfl⟩
abbrev main_v35 : Ref sig .tc := ⟨.hbm, 64, rfl⟩
abbrev main_c_12 : Ref sig .tc := ⟨.hbm, 65, rfl⟩
abbrev main_v36 : Ref sig .tc := ⟨.hbm, 66, rfl⟩
abbrev main_v37 : Ref sig .tc := ⟨.hbm, 67, rfl⟩
abbrev main_c_13 : Ref sig .tc := ⟨.hbm, 68, rfl⟩
abbrev main_v38 : Ref sig .tc := ⟨.hbm, 69, rfl⟩
abbrev main_v39 : Ref sig .tc := ⟨.hbm, 70, rfl⟩
abbrev main_c_14 : Ref sig .tc := ⟨.hbm, 71, rfl⟩
abbrev main_v40 : Ref sig .tc := ⟨.hbm, 72, rfl⟩
abbrev main_v41 : Ref sig .tc := ⟨.hbm, 73, rfl⟩
abbrev main_c_15 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_16 : Ref sig .tc := ⟨.hbm, 78, rfl⟩
abbrev main_v45 : Ref sig .tc := ⟨.hbm, 79, rfl⟩
abbrev main_v46 : Ref sig .tc := ⟨.hbm, 80, rfl⟩
abbrev main_c_17 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_18 : Ref sig .tc := ⟨.hbm, 89, rfl⟩
abbrev main_v54 : Ref sig .tc := ⟨.hbm, 90, rfl⟩
abbrev main_v55 : Ref sig .tc := ⟨.hbm, 91, rfl⟩
abbrev main_c_19 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_20 : Ref sig .tc := ⟨.hbm, 96, rfl⟩
abbrev main_v59 : Ref sig .tc := ⟨.hbm, 97, rfl⟩
abbrev main_v60 : Ref sig .tc := ⟨.hbm, 98, rfl⟩
abbrev main_c_21 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_22 : Ref sig .tc := ⟨.hbm, 107, rfl⟩
abbrev main_v68 : Ref sig .tc := ⟨.hbm, 108, rfl⟩
abbrev main_v69 : Ref sig .tc := ⟨.hbm, 109, rfl⟩
abbrev main_c_23 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_24 : Ref sig .tc := ⟨.hbm, 114, rfl⟩
abbrev main_v73 : Ref sig .tc := ⟨.hbm, 115, rfl⟩
abbrev main_v74 : Ref sig .tc := ⟨.hbm, 116, rfl⟩
abbrev main_c_25 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_26 : Ref sig .tc := ⟨.hbm, 125, rfl⟩
abbrev main_v82 : Ref sig .tc := ⟨.hbm, 126, rfl⟩
abbrev main_v83 : Ref sig .tc := ⟨.hbm, 127, rfl⟩
abbrev main_c_27 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_28 : Ref sig .tc := ⟨.hbm, 132, rfl⟩
abbrev main_v87 : Ref sig .tc := ⟨.hbm, 133, rfl⟩
abbrev main_v88 : Ref sig .tc := ⟨.hbm, 134, rfl⟩
abbrev main_c_29 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_30 : Ref sig .tc := ⟨.hbm, 147, rfl⟩
abbrev main_v100 : Ref sig .tc := ⟨.hbm, 148, rfl⟩
abbrev main_v101 : Ref sig .tc := ⟨.hbm, 149, rfl⟩
abbrev main_cst_31 : Ref sig .tc := ⟨.hbm, 150, rfl⟩
abbrev main_v102 : Ref sig .tc := ⟨.hbm, 151, rfl⟩
abbrev main_v103 : Ref sig .tc := ⟨.hbm, 152, rfl⟩
abbrev main_cst_32 : Ref sig .tc := ⟨.hbm, 153, rfl⟩
abbrev main_v104 : Ref sig .tc := ⟨.hbm, 154, rfl⟩
abbrev main_v105 : Ref sig .tc := ⟨.hbm, 155, rfl⟩
abbrev main_cst_33 : Ref sig .tc := ⟨.hbm, 156, rfl⟩
abbrev main_v106 : Ref sig .tc := ⟨.hbm, 157, rfl⟩
abbrev main_v107 : Ref sig .tc := ⟨.hbm, 158, rfl⟩
abbrev main_cst_34 : Ref sig .tc := ⟨.hbm, 159, rfl⟩
abbrev main_cst_35 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_v108 : Ref sig .tc := ⟨.hbm, 166, rfl⟩
abbrev main_cst_36 : Ref sig .tc := ⟨.hbm, 167, rfl⟩
abbrev main_v109 : Ref sig .tc := ⟨.hbm, 168, rfl⟩
abbrev main_v110 : Ref sig .tc := ⟨.hbm, 169, rfl⟩
abbrev main_cst_37 : Ref sig .tc := ⟨.hbm, 170, rfl⟩
abbrev main_v111 : Ref sig .tc := ⟨.hbm, 171, rfl⟩
abbrev main_v112 : Ref sig .tc := ⟨.hbm, 172, rfl⟩
abbrev main_cst_38 : Ref sig .tc := ⟨.hbm, 173, rfl⟩
abbrev main_v113 : Ref sig .tc := ⟨.hbm, 174, rfl⟩
abbrev main_v114 : Ref sig .tc := ⟨.hbm, 175, rfl⟩
abbrev main_cst_39 : Ref sig .tc := ⟨.hbm, 176, rfl⟩
abbrev main_v115 : Ref sig .tc := ⟨.hbm, 177, rfl⟩
abbrev main_v116 : Ref sig .tc := ⟨.hbm, 178, rfl⟩
abbrev main_cst_40 : Ref sig .tc := ⟨.hbm, 179, rfl⟩
abbrev main_cst_41 : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_c_42 : Ref sig .tc := ⟨.hbm, 193, rfl⟩
abbrev main_v124 : Ref sig .tc := ⟨.hbm, 194, rfl⟩
abbrev main_v125 : Ref sig .tc := ⟨.hbm, 195, rfl⟩
abbrev main_c_43 : Ref sig .tc := ⟨.hbm, 196, rfl⟩
abbrev main_v126 : Ref sig .tc := ⟨.hbm, 197, rfl⟩
abbrev main_v127 : Ref sig .tc := ⟨.hbm, 198, rfl⟩
abbrev main_c_44 : Ref sig .tc := ⟨.hbm, 199, rfl⟩
abbrev main_v128 : Ref sig .tc := ⟨.hbm, 200, rfl⟩
abbrev main_v129 : Ref sig .tc := ⟨.hbm, 201, rfl⟩
abbrev main_c_45 : Ref sig .tc := ⟨.hbm, 202, rfl⟩
abbrev main_v130 : Ref sig .tc := ⟨.hbm, 203, rfl⟩
abbrev main_v131 : Ref sig .tc := ⟨.hbm, 204, rfl⟩
abbrev main_c_46 : Ref sig .tc := ⟨.hbm, 205, rfl⟩
abbrev main_v132 : Ref sig .tc := ⟨.hbm, 206, rfl⟩
abbrev main_v133 : Ref sig .tc := ⟨.hbm, 207, rfl⟩
abbrev main_c_47 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_c_48 : Ref sig .tc := ⟨.hbm, 212, rfl⟩
abbrev main_v137 : Ref sig .tc := ⟨.hbm, 213, rfl⟩
abbrev main_v138 : Ref sig .tc := ⟨.hbm, 214, rfl⟩
abbrev main_c_49 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_c_50 : Ref sig .tc := ⟨.hbm, 223, rfl⟩
abbrev main_v146 : Ref sig .tc := ⟨.hbm, 224, rfl⟩
abbrev main_v147 : Ref sig .tc := ⟨.hbm, 225, rfl⟩
abbrev main_c_51 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_c_52 : Ref sig .tc := ⟨.hbm, 230, rfl⟩
abbrev main_v151 : Ref sig .tc := ⟨.hbm, 231, rfl⟩
abbrev main_v152 : Ref sig .tc := ⟨.hbm, 232, rfl⟩
abbrev main_c_53 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_c_54 : Ref sig .tc := ⟨.hbm, 241, rfl⟩
abbrev main_v160 : Ref sig .tc := ⟨.hbm, 242, rfl⟩
abbrev main_v161 : Ref sig .tc := ⟨.hbm, 243, rfl⟩
abbrev main_c_55 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_c_56 : Ref sig .tc := ⟨.hbm, 248, rfl⟩
abbrev main_v165 : Ref sig .tc := ⟨.hbm, 249, rfl⟩
abbrev main_v166 : Ref sig .tc := ⟨.hbm, 250, rfl⟩
abbrev main_c_57 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_c_58 : Ref sig .tc := ⟨.hbm, 259, rfl⟩
abbrev main_v174 : Ref sig .tc := ⟨.hbm, 260, rfl⟩
abbrev main_v175 : Ref sig .tc := ⟨.hbm, 261, rfl⟩
abbrev main_c_59 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_c_60 : Ref sig .tc := ⟨.hbm, 266, rfl⟩
abbrev main_v179 : Ref sig .tc := ⟨.hbm, 267, rfl⟩
abbrev main_v180 : Ref sig .tc := ⟨.hbm, 268, rfl⟩
abbrev main_c_61 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_cst_62 : Ref sig .tc := ⟨.hbm, 281, rfl⟩
abbrev main_v192 : Ref sig .tc := ⟨.hbm, 282, rfl⟩
abbrev main_v193 : Ref sig .tc := ⟨.hbm, 283, rfl⟩
abbrev main_cst_63 : Ref sig .tc := ⟨.hbm, 284, rfl⟩
abbrev main_v194 : Ref sig .tc := ⟨.hbm, 285, rfl⟩
abbrev main_v195 : Ref sig .tc := ⟨.hbm, 286, rfl⟩
abbrev main_cst_64 : Ref sig .tc := ⟨.hbm, 287, rfl⟩
abbrev main_v196 : Ref sig .tc := ⟨.hbm, 288, rfl⟩
abbrev main_v197 : Ref sig .tc := ⟨.hbm, 289, rfl⟩
abbrev main_cst_65 : Ref sig .tc := ⟨.hbm, 290, rfl⟩
abbrev main_v198 : Ref sig .tc := ⟨.hbm, 291, rfl⟩
abbrev main_v199 : Ref sig .tc := ⟨.hbm, 292, rfl⟩
abbrev main_cst_66 : Ref sig .tc := ⟨.hbm, 293, rfl⟩
abbrev main_cst_67 : Ref sig .tc := ⟨.hbm, 294, rfl⟩
abbrev main_call4_v0 : Ref sig .tc := ⟨.hbm, 295, rfl⟩
abbrev main_call4_v1 : Ref sig .tc := ⟨.hbm, 296, rfl⟩
abbrev main_call4_v2 : Ref sig .tc := ⟨.hbm, 297, rfl⟩
abbrev main_call4_v3 : Ref sig .tc := ⟨.hbm, 298, rfl⟩
abbrev main_call4_v4 : Ref sig .tc := ⟨.hbm, 299, rfl⟩
abbrev main_v200 : Ref sig .tc := ⟨.hbm, 300, rfl⟩
abbrev main_cst_68 : Ref sig .tc := ⟨.hbm, 301, rfl⟩
abbrev main_v201 : Ref sig .tc := ⟨.hbm, 302, rfl⟩
abbrev main_v202 : Ref sig .tc := ⟨.hbm, 303, rfl⟩
abbrev main_cst_69 : Ref sig .tc := ⟨.hbm, 304, rfl⟩
abbrev main_v203 : Ref sig .tc := ⟨.hbm, 305, rfl⟩
abbrev main_v204 : Ref sig .tc := ⟨.hbm, 306, rfl⟩
abbrev main_cst_70 : Ref sig .tc := ⟨.hbm, 307, rfl⟩
abbrev main_v205 : Ref sig .tc := ⟨.hbm, 308, rfl⟩
abbrev main_v206 : Ref sig .tc := ⟨.hbm, 309, rfl⟩
abbrev main_cst_71 : Ref sig .tc := ⟨.hbm, 310, rfl⟩
abbrev main_v207 : Ref sig .tc := ⟨.hbm, 311, rfl⟩
abbrev main_v208 : Ref sig .tc := ⟨.hbm, 312, rfl⟩
abbrev main_cst_72 : Ref sig .tc := ⟨.hbm, 313, rfl⟩
abbrev main_cst_73 : Ref sig .tc := ⟨.hbm, 314, rfl⟩
abbrev main_call5_v0 : Ref sig .tc := ⟨.hbm, 315, rfl⟩
abbrev main_call5_v1 : Ref sig .tc := ⟨.hbm, 316, rfl⟩
abbrev main_call5_v2 : Ref sig .tc := ⟨.hbm, 317, rfl⟩
abbrev main_call5_v3 : Ref sig .tc := ⟨.hbm, 318, rfl⟩
abbrev main_call5_v4 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_c_74 : Ref sig .tc := ⟨.hbm, 327, rfl⟩
abbrev main_v216 : Ref sig .tc := ⟨.hbm, 328, rfl⟩
abbrev main_v217 : Ref sig .tc := ⟨.hbm, 329, rfl⟩
abbrev main_c_75 : Ref sig .tc := ⟨.hbm, 330, rfl⟩
abbrev main_v218 : Ref sig .tc := ⟨.hbm, 331, rfl⟩
abbrev main_v219 : Ref sig .tc := ⟨.hbm, 332, rfl⟩
abbrev main_c_76 : Ref sig .tc := ⟨.hbm, 333, rfl⟩
abbrev main_v220 : Ref sig .tc := ⟨.hbm, 334, rfl⟩
abbrev main_v221 : Ref sig .tc := ⟨.hbm, 335, rfl⟩
abbrev main_c_77 : Ref sig .tc := ⟨.hbm, 336, rfl⟩
abbrev main_v222 : Ref sig .tc := ⟨.hbm, 337, rfl⟩
abbrev main_v223 : Ref sig .tc := ⟨.hbm, 338, rfl⟩
abbrev main_c_78 : Ref sig .tc := ⟨.hbm, 339, rfl⟩
abbrev main_v224 : Ref sig .tc := ⟨.hbm, 340, rfl⟩
abbrev main_v225 : Ref sig .tc := ⟨.hbm, 341, rfl⟩
abbrev main_c_79 : Ref sig .tc := ⟨.hbm, 342, rfl⟩
abbrev main_v226 : Ref sig .tc := ⟨.hbm, 343, rfl⟩
abbrev main_v227 : Ref sig .tc := ⟨.hbm, 344, rfl⟩
abbrev main_v228 : Ref sig .tc := ⟨.hbm, 345, rfl⟩
abbrev main_c_80 : Ref sig .tc := ⟨.hbm, 346, rfl⟩
abbrev main_v229 : Ref sig .tc := ⟨.hbm, 347, rfl⟩
abbrev main_v230 : Ref sig .tc := ⟨.hbm, 348, rfl⟩
abbrev main_c_81 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_c_82 : Ref sig .tc := ⟨.hbm, 357, rfl⟩
abbrev main_v238 : Ref sig .tc := ⟨.hbm, 358, rfl⟩
abbrev main_v239 : Ref sig .tc := ⟨.hbm, 359, rfl⟩
abbrev main_c_83 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_c_84 : Ref sig .tc := ⟨.hbm, 364, rfl⟩
abbrev main_v243 : Ref sig .tc := ⟨.hbm, 365, rfl⟩
abbrev main_v244 : Ref sig .tc := ⟨.hbm, 366, rfl⟩
abbrev main_c_85 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_c_86 : Ref sig .tc := ⟨.hbm, 375, rfl⟩
abbrev main_v252 : Ref sig .tc := ⟨.hbm, 376, rfl⟩
abbrev main_v253 : Ref sig .tc := ⟨.hbm, 377, rfl⟩
abbrev main_c_87 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_c_88 : Ref sig .tc := ⟨.hbm, 382, rfl⟩
abbrev main_v257 : Ref sig .tc := ⟨.hbm, 383, rfl⟩
abbrev main_v258 : Ref sig .tc := ⟨.hbm, 384, rfl⟩
abbrev main_c_89 : Ref sig .tc := ⟨.hbm, 385, rfl⟩
abbrev main_v259 : Ref sig .tc := ⟨.hbm, 386, rfl⟩
abbrev main_v260 : Ref sig .tc := ⟨.hbm, 387, rfl⟩
abbrev main_v261 : Ref sig .tc := ⟨.hbm, 388, rfl⟩
abbrev main_v262 : Ref sig .tc := ⟨.hbm, 389, rfl⟩
abbrev main_v263 : Ref sig .tc := ⟨.hbm, 390, rfl⟩
abbrev main_v264 : Ref sig .tc := ⟨.hbm, 391, rfl⟩
abbrev main_v265 : Ref sig .tc := ⟨.hbm, 392, rfl⟩
abbrev main_c_90 : Ref sig .tc := ⟨.hbm, 393, rfl⟩
abbrev main_v266 : Ref sig .tc := ⟨.hbm, 394, rfl⟩
abbrev main_v267 : Ref sig .tc := ⟨.hbm, 395, rfl⟩
abbrev main_c_91 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_c_92 : Ref sig .tc := ⟨.hbm, 400, rfl⟩
abbrev main_v271 : Ref sig .tc := ⟨.hbm, 401, rfl⟩
abbrev main_v272 : Ref sig .tc := ⟨.hbm, 402, rfl⟩
abbrev main_c_93 : Ref sig .tc := ⟨.hbm, 403, rfl⟩
abbrev main_v273 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_v279 : Ref sig .tc := ⟨.hbm, 410, rfl⟩
abbrev main_v280 : Ref sig .tc := ⟨.hbm, 411, rfl⟩
abbrev main_v281 : Ref sig .tc := ⟨.hbm, 412, rfl⟩
abbrev main_v282 : Ref sig .tc := ⟨.hbm, 413, rfl⟩
abbrev main_v283 : Ref sig .tc := ⟨.hbm, 414, rfl⟩
abbrev main_cst_94 : Ref sig .tc := ⟨.hbm, 415, rfl⟩
abbrev main_v284 : Ref sig .tc := ⟨.hbm, 416, rfl⟩
abbrev main_v285 : Ref sig .tc := ⟨.hbm, 417, rfl⟩
abbrev main_cst_95 : Ref sig .tc := ⟨.hbm, 418, rfl⟩
abbrev main_v286 : Ref sig .tc := ⟨.hbm, 419, rfl⟩
abbrev main_v287 : Ref sig .tc := ⟨.hbm, 420, rfl⟩
abbrev main_cst_96 : Ref sig .tc := ⟨.hbm, 421, rfl⟩
abbrev main_v288 : Ref sig .tc := ⟨.hbm, 422, rfl⟩
abbrev main_v289 : Ref sig .tc := ⟨.hbm, 423, rfl⟩
abbrev main_cst_97 : Ref sig .tc := ⟨.hbm, 424, rfl⟩
abbrev main_v290 : Ref sig .tc := ⟨.hbm, 425, rfl⟩
abbrev main_v291 : Ref sig .tc := ⟨.hbm, 426, rfl⟩
abbrev main_cst_98 : Ref sig .tc := ⟨.hbm, 427, rfl⟩
abbrev main_cst_99 : Ref sig .tc := ⟨.hbm, 428, rfl⟩
abbrev main_call6_v0 : Ref sig .tc := ⟨.hbm, 429, rfl⟩
abbrev main_call6_v1 : Ref sig .tc := ⟨.hbm, 430, rfl⟩
abbrev main_call6_v2 : Ref sig .tc := ⟨.hbm, 431, rfl⟩
abbrev main_call6_v3 : Ref sig .tc := ⟨.hbm, 432, rfl⟩
abbrev main_call6_v4 : Ref sig .tc := ⟨.hbm, 433, rfl⟩
abbrev main_v292 : Ref sig .tc := ⟨.hbm, 434, rfl⟩
abbrev main_cst_100 : Ref sig .tc := ⟨.hbm, 435, rfl⟩
abbrev main_v293 : Ref sig .tc := ⟨.hbm, 436, rfl⟩
abbrev main_v294 : Ref sig .tc := ⟨.hbm, 437, rfl⟩
abbrev main_cst_101 : Ref sig .tc := ⟨.hbm, 438, rfl⟩
abbrev main_v295 : Ref sig .tc := ⟨.hbm, 439, rfl⟩
abbrev main_v296 : Ref sig .tc := ⟨.hbm, 440, rfl⟩
abbrev main_cst_102 : Ref sig .tc := ⟨.hbm, 441, rfl⟩
abbrev main_v297 : Ref sig .tc := ⟨.hbm, 442, rfl⟩
abbrev main_v298 : Ref sig .tc := ⟨.hbm, 443, rfl⟩
abbrev main_cst_103 : Ref sig .tc := ⟨.hbm, 444, rfl⟩
abbrev main_v299 : Ref sig .tc := ⟨.hbm, 445, rfl⟩
abbrev main_v300 : Ref sig .tc := ⟨.hbm, 446, rfl⟩
abbrev main_cst_104 : Ref sig .tc := ⟨.hbm, 447, rfl⟩
abbrev main_cst_105 : Ref sig .tc := ⟨.hbm, 448, rfl⟩
abbrev main_call7_v0 : Ref sig .tc := ⟨.hbm, 449, rfl⟩
abbrev main_call7_v1 : Ref sig .tc := ⟨.hbm, 450, rfl⟩
abbrev main_call7_v2 : Ref sig .tc := ⟨.hbm, 451, rfl⟩
abbrev main_call7_v3 : Ref sig .tc := ⟨.hbm, 452, rfl⟩
abbrev main_call7_v4 : Ref sig .tc := ⟨.hbm, 453, rfl⟩
abbrev main_v301 : Ref sig .tc := ⟨.hbm, 454, rfl⟩
abbrev main_v302 : Ref sig .tc := ⟨.hbm, 455, rfl⟩
abbrev main_v303 : Ref sig .tc := ⟨.hbm, 456, rfl⟩
abbrev main_v304 : Ref sig .tc := ⟨.hbm, 457, rfl⟩
abbrev main_v305 : Ref sig .tc := ⟨.hbm, 458, rfl⟩
abbrev main_v306 : Ref sig .tc := ⟨.hbm, 459, rfl⟩
abbrev main_v307 : Ref sig .tc := ⟨.hbm, 460, rfl⟩
abbrev main_c_106 : Ref sig .tc := ⟨.hbm, 461, rfl⟩
abbrev main_v308 : Ref sig .tc := ⟨.hbm, 462, rfl⟩
abbrev main_v309 : Ref sig .tc := ⟨.hbm, 463, rfl⟩
abbrev main_c_107 : Ref sig .tc := ⟨.hbm, 464, rfl⟩
abbrev main_v310 : Ref sig .tc := ⟨.hbm, 465, rfl⟩
abbrev main_v311 : Ref sig .tc := ⟨.hbm, 466, rfl⟩
abbrev main_c_108 : Ref sig .tc := ⟨.hbm, 467, rfl⟩
abbrev main_v312 : Ref sig .tc := ⟨.hbm, 468, rfl⟩
abbrev main_v313 : Ref sig .tc := ⟨.hbm, 469, rfl⟩
abbrev main_c_109 : Ref sig .tc := ⟨.hbm, 470, rfl⟩
abbrev main_v314 : Ref sig .tc := ⟨.hbm, 471, rfl⟩
abbrev main_v315 : Ref sig .tc := ⟨.hbm, 472, rfl⟩
abbrev main_c_110 : Ref sig .tc := ⟨.hbm, 473, rfl⟩
abbrev main_v316 : Ref sig .tc := ⟨.hbm, 474, rfl⟩
abbrev main_v317 : Ref sig .tc := ⟨.hbm, 475, rfl⟩
abbrev main_c_111 : Ref sig .tc := ⟨.hbm, 476, rfl⟩
abbrev main_v318 : Ref sig .tc := ⟨.hbm, 477, rfl⟩
abbrev main_v319 : Ref sig .tc := ⟨.hbm, 478, rfl⟩
abbrev main_v320 : Ref sig .tc := ⟨.hbm, 479, rfl⟩
abbrev main_c_112 : Ref sig .tc := ⟨.hbm, 480, rfl⟩
abbrev main_v321 : Ref sig .tc := ⟨.hbm, 481, rfl⟩
abbrev main_v322 : Ref sig .tc := ⟨.hbm, 482, rfl⟩
abbrev main_c_113 : Ref sig .tc := ⟨.hbm, 483, rfl⟩
abbrev main_v323 : Ref sig .tc := ⟨.hbm, 484, rfl⟩
abbrev main_v324 : Ref sig .tc := ⟨.hbm, 485, rfl⟩
abbrev main_v325 : Ref sig .tc := ⟨.hbm, 486, rfl⟩
abbrev main_v326 : Ref sig .tc := ⟨.hbm, 487, rfl⟩
abbrev main_v327 : Ref sig .tc := ⟨.hbm, 488, rfl⟩
abbrev main_v328 : Ref sig .tc := ⟨.hbm, 489, rfl⟩
abbrev main_v329 : Ref sig .tc := ⟨.hbm, 490, rfl⟩
abbrev main_c_114 : Ref sig .tc := ⟨.hbm, 491, rfl⟩
abbrev main_v330 : Ref sig .tc := ⟨.hbm, 492, rfl⟩
abbrev main_v331 : Ref sig .tc := ⟨.hbm, 493, rfl⟩
abbrev main_c_115 : Ref sig .tc := ⟨.hbm, 494, rfl⟩
abbrev main_v332 : Ref sig .tc := ⟨.hbm, 495, rfl⟩
abbrev main_v333 : Ref sig .tc := ⟨.hbm, 496, rfl⟩
abbrev main_v334 : Ref sig .tc := ⟨.hbm, 497, rfl⟩
abbrev main_c_116 : Ref sig .tc := ⟨.hbm, 498, rfl⟩
abbrev main_v335 : Ref sig .tc := ⟨.hbm, 499, rfl⟩
abbrev main_v336 : Ref sig .tc := ⟨.hbm, 500, rfl⟩
abbrev main_c_117 : Ref sig .tc := ⟨.hbm, 501, rfl⟩
abbrev main_v337 : Ref sig .tc := ⟨.hbm, 502, rfl⟩
abbrev main_v338 : Ref sig .tc := ⟨.hbm, 503, rfl⟩
abbrev main_v339 : Ref sig .tc := ⟨.hbm, 504, rfl⟩
abbrev main_v340 : Ref sig .tc := ⟨.hbm, 505, rfl⟩
abbrev main_v341 : Ref sig .tc := ⟨.hbm, 506, rfl⟩
abbrev main_v342 : Ref sig .tc := ⟨.hbm, 507, rfl⟩
abbrev main_v343 : Ref sig .tc := ⟨.hbm, 508, rfl⟩
abbrev main_c_118 : Ref sig .tc := ⟨.hbm, 509, rfl⟩
abbrev main_v344 : Ref sig .tc := ⟨.hbm, 510, rfl⟩
abbrev main_v345 : Ref sig .tc := ⟨.hbm, 511, rfl⟩
abbrev main_c_119 : Ref sig .tc := ⟨.hbm, 512, rfl⟩
abbrev main_v346 : Ref sig .tc := ⟨.hbm, 513, rfl⟩
abbrev main_v347 : Ref sig .tc := ⟨.hbm, 514, rfl⟩
abbrev main_v348 : Ref sig .tc := ⟨.hbm, 515, rfl⟩
abbrev main_c_120 : Ref sig .tc := ⟨.hbm, 516, rfl⟩
abbrev main_v349 : Ref sig .tc := ⟨.hbm, 517, rfl⟩
abbrev main_v350 : Ref sig .tc := ⟨.hbm, 518, rfl⟩
abbrev main_c_121 : Ref sig .tc := ⟨.hbm, 519, rfl⟩
abbrev main_v351 : Ref sig .tc := ⟨.hbm, 520, rfl⟩
abbrev main_v352 : Ref sig .tc := ⟨.hbm, 521, rfl⟩
abbrev main_v353 : Ref sig .tc := ⟨.hbm, 522, rfl⟩
abbrev main_v354 : Ref sig .tc := ⟨.hbm, 523, rfl⟩
abbrev main_v355 : Ref sig .tc := ⟨.hbm, 524, rfl⟩
abbrev main_v356 : Ref sig .tc := ⟨.hbm, 525, rfl⟩
abbrev main_v357 : Ref sig .tc := ⟨.hbm, 526, rfl⟩
abbrev main_c_122 : Ref sig .tc := ⟨.hbm, 527, rfl⟩
abbrev main_v358 : Ref sig .tc := ⟨.hbm, 528, rfl⟩
abbrev main_v359 : Ref sig .tc := ⟨.hbm, 529, rfl⟩
abbrev main_c_123 : Ref sig .tc := ⟨.hbm, 530, rfl⟩
abbrev main_v360 : Ref sig .tc := ⟨.hbm, 531, rfl⟩
abbrev main_v361 : Ref sig .tc := ⟨.hbm, 532, rfl⟩
abbrev main_v362 : Ref sig .tc := ⟨.hbm, 533, rfl⟩
abbrev main_c_124 : Ref sig .tc := ⟨.hbm, 534, rfl⟩
abbrev main_v363 : Ref sig .tc := ⟨.hbm, 535, rfl⟩
abbrev main_v364 : Ref sig .tc := ⟨.hbm, 536, rfl⟩
abbrev main_c_125 : Ref sig .tc := ⟨.hbm, 537, rfl⟩
abbrev main_v365 : Ref sig .tc := ⟨.hbm, 538, rfl⟩
abbrev main_v366 : Ref sig .tc := ⟨.hbm, 539, rfl⟩
abbrev main_v367 : Ref sig .tc := ⟨.hbm, 540, rfl⟩
abbrev main_v368 : Ref sig .tc := ⟨.hbm, 541, rfl⟩
abbrev main_v369 : Ref sig .tc := ⟨.hbm, 542, rfl⟩
abbrev main_v370 : Ref sig .tc := ⟨.hbm, 543, rfl⟩
abbrev main_v371 : Ref sig .tc := ⟨.hbm, 544, rfl⟩
abbrev main_v372 : Ref sig .tc := ⟨.hbm, 545, rfl⟩
abbrev main_v373 : Ref sig .tc := ⟨.hbm, 546, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x16x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x16x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x16x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x16x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x16x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x16x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x16x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x16x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x16x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x16x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  shapeCasts_S1x1x1024x1024_S1024x1024 : S1x1x1024x1024.ShapeCasts S1024x1024
  shapeCasts_S1x1x512x512_S512x512 : S1x1x512x512.ShapeCasts S512x512
  shapeCasts_S1x1x256x256_S256x256 : S1x1x256x256.ShapeCasts S256x256
  shapeCasts_S1x1x128x128_S128x128 : S1x1x128x128.ShapeCasts S128x128
  slices_S8x1024x1024x2_S8x1024x1024x1_0_0_0_0 : S8x1024x1024x2.Slices ![0, 0, 0, 0] S8x1024x1024x1
  shapeCasts_S8x1024x1024x1_S8x1024x1024 : S8x1024x1024x1.ShapeCasts S8x1024x1024
  slices_S8x1024x1024x2_S8x1024x1024x1_0_0_0_1 : S8x1024x1024x2.Slices ![0, 0, 0, 1] S8x1024x1024x1
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x2_d3 : Shape.Concatenates [S8x1024x1024x1, S8x1024x1024x1] S8x1024x1024x2 3
  inb_S8x16x1024_S8x16x1024_0_0_0 : ∀ a, (![0, 0, 0] : Fin 3 → Nat) a + S8x16x1024.size a ≤ S8x16x1024.size a
  h_S8x16x1024 : 0 < S8x16x1024.numel
  shapeCasts_S8x16x1024_S8x16x1024 : S8x16x1024.ShapeCasts S8x16x1024
  bcast_S8x1024x1024_S8x1x1024x1024_0_2_3 : S8x1024x1024.BroadcastsInDim S8x1x1024x1024 (![0, 2, 3] : Fin 3 → Fin S8x1x1024x1024.rank)
  gather_S1024x1024_S8x1024x1024x2_S8x1024x1024_n_01_n_n_01_3_11_wf : GatherDims.WF S1024x1024 S8x1024x1024x2 S8x1024x1024 [] [0, 1] [] [0, 1] [] 3 ![1, 1]
  gather_S512x512_S8x1024x1024x2_S8x1024x1024_n_01_n_n_01_3_11_wf : GatherDims.WF S512x512 S8x1024x1024x2 S8x1024x1024 [] [0, 1] [] [0, 1] [] 3 ![1, 1]
  gather_S256x256_S8x1024x1024x2_S8x1024x1024_n_01_n_n_01_3_11_wf : GatherDims.WF S256x256 S8x1024x1024x2 S8x1024x1024 [] [0, 1] [] [0, 1] [] 3 ![1, 1]
  gather_S128x128_S8x1024x1024x2_S8x1024x1024_n_01_n_n_01_3_11_wf : GatherDims.WF S128x128 S8x1024x1024x2 S8x1024x1024 [] [0, 1] [] [0, 1] [] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x1024.size a ≤ S8x1024x1024.size a
  hwx0_0 : ∀ i : grid0.Coords, EltTy.bits .f32 = 32 ∨ (Rect.block (s := S8x1024x1024) S8x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x1024.size a ≤ S8x1024x1024.size a
  hwx0_1 : ∀ i : grid0.Coords, EltTy.bits .f32 = 32 ∨ (Rect.block (s := S8x1024x1024) S8x16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x1024.size a ≤ S8x1024x1024.size a
  hwx0_2 : ∀ i : grid0.Coords, EltTy.bits .f32 = 32 ∨ (Rect.block (s := S8x1024x1024) S8x16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x1024.size a ≤ S8x1024x1024.size a
  hwx0_3 : ∀ i : grid0.Coords, EltTy.bits .f32 = 32 ∨ (Rect.block (s := S8x1024x1024) S8x16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16x1024.size a ≤ S8x1024x1024.size a
  hwx0_4 : ∀ i : grid0.Coords, EltTy.bits .f32 = 32 ∨ (Rect.block (s := S8x1024x1024) S8x16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x16x1024.size a ≤ S8x1024x1024.size a
  hwx0_5 : ∀ i : grid0.Coords, EltTy.bits .f32 = 32 ∨ (Rect.block (s := S8x1024x1024) S8x16x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x16x1024.size a ≤ S8x1024x1024.size a
  hwx0_6 : ∀ i : grid0.Coords, EltTy.bits .f32 = 32 ∨ (Rect.block (s := S8x1024x1024) S8x16x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x16x1024.size a ≤ S8x1024x1024.size a
  hwx0_7 : ∀ i : grid0.Coords, EltTy.bits .f32 = 32 ∨ (Rect.block (s := S8x1024x1024) S8x16x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x16x1024.size a ≤ S8x1024x1024.size a
  hwx0_8 : ∀ i : grid0.Coords, EltTy.bits .f32 = 32 ∨ (Rect.block (s := S8x1024x1024) S8x16x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x16x1024.size a ≤ S8x1024x1024.size a
  hwx0_9 : ∀ i : grid0.Coords, EltTy.bits .f32 = 32 ∨ (Rect.block (s := S8x1024x1024) S8x16x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x16x1024.size a ≤ S8x1024x1024.size a
  hwx0_10 : ∀ i : grid0.Coords, EltTy.bits .f32 = 32 ∨ (Rect.block (s := S8x1024x1024) S8x16x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x16x1024.size a ≤ S8x1024x1024.size a
  hwx0_11 : ∀ i : grid0.Coords, EltTy.bits .f32 = 32 ∨ (Rect.block (s := S8x1024x1024) S8x16x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x16x1024.size a ≤ S8x1024x1024.size a
  hwx0_12 : ∀ i : grid0.Coords, EltTy.bits .f32 = 32 ∨ (Rect.block (s := S8x1024x1024) S8x16x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x16x1024.size a ≤ S8x1024x1024.size a
  hwx0_13 : ∀ i : grid0.Coords, EltTy.bits .f32 = 32 ∨ (Rect.block (s := S8x1024x1024) S8x16x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x16x1024.size a ≤ S8x1024x1024.size a
  hwx0_14 : ∀ i : grid0.Coords, EltTy.bits .f32 = 32 ∨ (Rect.block (s := S8x1024x1024) S8x16x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8x16x1024.size a ≤ S8x1024x1024.size a
  hwx0_15 : ∀ i : grid0.Coords, EltTy.bits .f32 = 32 ∨ (Rect.block (s := S8x1024x1024) S8x16x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8x16x1024.size a ≤ S8x1024x1024.size a
  hwx0_16 : ∀ i : grid0.Coords, EltTy.bits .f32 = 32 ∨ (Rect.block (s := S8x1024x1024) S8x16x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8x16x1024.size a ≤ S8x1024x1024.size a
  hwx0_17 : ∀ i : grid0.Coords, EltTy.bits .f32 = 32 ∨ (Rect.block (s := S8x1024x1024) S8x16x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S8x16x1024.size a ≤ S8x1024x1024.size a
  hwx0_18 : ∀ i : grid0.Coords, EltTy.bits .f32 = 32 ∨ (Rect.block (s := S8x1024x1024) S8x16x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S8x16x1024.size a ≤ S8x1024x1024.size a
  hwx0_19 : ∀ i : grid0.Coords, EltTy.bits .f32 = 32 ∨ (Rect.block (s := S8x1024x1024) S8x16x1024.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S8x16x1024.size a ≤ S8x1024x1024.size a
  hwx0_20 : ∀ i : grid0.Coords, EltTy.bits .f32 = 32 ∨ (Rect.block (s := S8x1024x1024) S8x16x1024.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S8x16x1024.size a ≤ S8x1024x1024.size a
  hwx0_21 : ∀ i : grid0.Coords, EltTy.bits .f32 = 32 ∨ (Rect.block (s := S8x1024x1024) S8x16x1024.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S8x16x1024.size a ≤ S8x1024x1024.size a
  hwx0_22 : ∀ i : grid0.Coords, EltTy.bits .f32 = 32 ∨ (Rect.block (s := S8x1024x1024) S8x16x1024.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S8x16x1024.size a ≤ S8x1024x1024.size a
  hwx0_23 : ∀ i : grid0.Coords, EltTy.bits .f32 = 32 ∨ (Rect.block (s := S8x1024x1024) S8x16x1024.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S8x16x1024.size a ≤ S8x1024x1024.size a
  hwx0_24 : ∀ i : grid0.Coords, EltTy.bits .f32 = 32 ∨ (Rect.block (s := S8x1024x1024) S8x16x1024.size (cc0_transform_24 i) (hinb0_24 i)).WholeWords (EltTy.packing .f32)

variable [Facts₀]

def gather_S1024x1024_S8x1024x1024x2_S8x1024x1024_n_01_n_n_01_3_11 : GatherDims S1024x1024 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S1024x1024_S8x1024x1024x2_S8x1024x1024_n_01_n_n_01_3_11_wf
def gather_S512x512_S8x1024x1024x2_S8x1024x1024_n_01_n_n_01_3_11 : GatherDims S512x512 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S512x512_S8x1024x1024x2_S8x1024x1024_n_01_n_n_01_3_11_wf
def gather_S256x256_S8x1024x1024x2_S8x1024x1024_n_01_n_n_01_3_11 : GatherDims S256x256 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S256x256_S8x1024x1024x2_S8x1024x1024_n_01_n_n_01_3_11_wf
def gather_S128x128_S8x1024x1024x2_S8x1024x1024_n_01_n_n_01_3_11 : GatherDims S128x128 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S128x128_S8x1024x1024x2_S8x1024x1024_n_01_n_n_01_3_11_wf

abbrev win0_0 : Pipeline.Window sig grid0 :=
  Pipeline.Window.ofSpec (Memref.whole main_v53) S8x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S8x16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v81) S8x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v95) S8x16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v145) S8x16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v159) S8x16x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v173) S8x16x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v187) S8x16x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v237) S8x16x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v251) S8x16x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v265) S8x16x1024.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v279) S8x16x1024.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v329) S8x16x1024.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v343) S8x16x1024.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v357) S8x16x1024.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v371) S8x16x1024.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v28) S8x16x1024.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v29) S8x16x1024.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v120) S8x16x1024.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v121) S8x16x1024.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v212) S8x16x1024.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v213) S8x16x1024.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v304) S8x16x1024.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v305) S8x16x1024.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_v372) S8x16x1024.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S8x1024x1024x2 : Shape := ⟨4, ![8, 1024, 1024, 2]⟩
abbrev S1x1x1024x1024 : Shape := ⟨4, ![1, 1, 1024, 1024]⟩
abbrev S1x1x512x512 : Shape := ⟨4, ![1, 1, 512, 512]⟩
abbrev S1x1x256x256 : Shape := ⟨4, ![1, 1, 256, 256]⟩
abbrev S1x1x128x128 : Shape := ⟨4, ![1, 1, 128, 128]⟩
abbrev S1024x1024 : Shape := ⟨2, ![1024, 1024]⟩
abbrev S8x1024x1024x1 : Shape := ⟨4, ![8, 1024, 1024, 1]⟩
abbrev S8x1024x1024 : Shape := ⟨3, ![8, 1024, 1024]⟩
abbrev S_ : Shape := ⟨0, ![]⟩
abbrev S512x512 : Shape := ⟨2, ![512, 512]⟩
abbrev S256x256 : Shape := ⟨2, ![256, 256]⟩
abbrev S128x128 : Shape := ⟨2, ![128, 128]⟩
abbrev S8x1x1024x1024 : Shape := ⟨4, ![8, 1, 1024, 1024]⟩

abbrev nBuf : Space → Nat
  | .hbm => 641
  | .vmem => 0
  | .smem => 0
  | _ => 0

abbrev hbmTy0_0 (i : Nat) : BufTy := match i % 128 with
  | 0 => ⟨S8x1024x1024x2, .f32⟩
  | 1 => ⟨S1x1x1024x1024, .f32⟩
  | 2 => ⟨S1x1x512x512, .f32⟩
  | 3 => ⟨S1x1x256x256, .f32⟩
  | 4 => ⟨S1x1x128x128, .f32⟩
  | 5 => ⟨S1024x1024, .f32⟩
  | 6 => ⟨S8x1024x1024x1, .f32⟩
  | 7 => ⟨S8x1024x1024, .f32⟩
  | 8 => ⟨S8x1024x1024x1, .f32⟩
  | 9 => ⟨S8x1024x1024, .f32⟩
  | 10 => ⟨S_, .f32⟩
  | 11 => ⟨S8x1024x1024, .f32⟩
  | 12 => ⟨S8x1024x1024, .f32⟩
  | 13 => ⟨S_, .f32⟩
  | 14 => ⟨S8x1024x1024, .f32⟩
  | 15 => ⟨S8x1024x1024, .f32⟩
  | 16 => ⟨S_, .f32⟩
  | 17 => ⟨S8x1024x1024, .f32⟩
  | 18 => ⟨S8x1024x1024, .f32⟩
  | 19 => ⟨S_, .f32⟩
  | 20 => ⟨S8x1024x1024, .f32⟩
  | 21 => ⟨S8x1024x1024, .f32⟩
  | 22 => ⟨S_, .f32⟩
  | 23 => ⟨S_, .f32⟩
  | 24 => ⟨S_, .f32⟩
  | 25 => ⟨S8x1024x1024, .f32⟩
  | 26 => ⟨S8x1024x1024, .f32⟩
  | 27 => ⟨S_, .f32⟩
  | 28 => ⟨S8x1024x1024, .f32⟩
  | 29 => ⟨S8x1024x1024, .f32⟩
  | 30 => ⟨S_, .f32⟩
  | 31 => ⟨S8x1024x1024, .f32⟩
  | 32 => ⟨S8x1024x1024, .f32⟩
  | 33 => ⟨S_, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S_, .f32⟩
  | 40 => ⟨S8x1024x1024, .f32⟩
  | 41 => ⟨S8x1024x1024, .f32⟩
  | 42 => ⟨S_, .f32⟩
  | 43 => ⟨S_, .f32⟩
  | 44 => ⟨S_, .f32⟩
  | 45 => ⟨S8x1024x1024, .f32⟩
  | 46 => ⟨S8x1024x1024, .f32⟩
  | 47 => ⟨S_, .f32⟩
  | 48 => ⟨S8x1024x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S8x1024x1024, .f32⟩
  | 54 => ⟨S8x1024x1024, .i32⟩
  | 55 => ⟨S8x1024x1024, .i32⟩
  | 56 => ⟨S_, .i32⟩
  | 57 => ⟨S8x1024x1024, .i32⟩
  | 58 => ⟨S8x1024x1024, .i32⟩
  | 59 => ⟨S_, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i32⟩
  | 65 => ⟨S_, .i32⟩
  | 66 => ⟨S8x1024x1024, .i32⟩
  | 67 => ⟨S8x1024x1024, .i32⟩
  | 68 => ⟨S_, .i32⟩
  | 69 => ⟨S8x1024x1024, .i32⟩
  | 70 => ⟨S8x1024x1024, .i1⟩
  | 71 => ⟨S_, .i32⟩
  | 72 => ⟨S8x1024x1024, .i32⟩
  | 73 => ⟨S8x1024x1024, .i32⟩
  | 74 => ⟨S8x1024x1024, .i32⟩
  | 75 => ⟨S_, .i32⟩
  | 76 => ⟨S8x1024x1024, .i32⟩
  | 77 => ⟨S8x1024x1024, .i1⟩
  | 78 => ⟨S_, .i32⟩
  | 79 => ⟨S8x1024x1024, .i32⟩
  | 80 => ⟨S8x1024x1024, .i32⟩
  | 81 => ⟨S8x1024x1024, .i32⟩
  | 82 => ⟨S8x1024x1024x1, .i32⟩
  | 83 => ⟨S8x1024x1024x1, .i32⟩
  | 84 => ⟨S8x1024x1024x2, .i32⟩
  | 85 => ⟨S8x1024x1024, .f32⟩
  | 86 => ⟨S_, .i32⟩
  | 87 => ⟨S8x1024x1024, .i32⟩
  | 88 => ⟨S8x1024x1024, .i1⟩
  | 89 => ⟨S_, .i32⟩
  | 90 => ⟨S8x1024x1024, .i32⟩
  | 91 => ⟨S8x1024x1024, .i32⟩
  | 92 => ⟨S8x1024x1024, .i32⟩
  | 93 => ⟨S_, .i32⟩
  | 94 => ⟨S8x1024x1024, .i32⟩
  | 95 => ⟨S8x1024x1024, .i1⟩
  | 96 => ⟨S_, .i32⟩
  | 97 => ⟨S8x1024x1024, .i32⟩
  | 98 => ⟨S8x1024x1024, .i32⟩
  | 99 => ⟨S8x1024x1024, .i32⟩
  | 100 => ⟨S8x1024x1024x1, .i32⟩
  | 101 => ⟨S8x1024x1024x1, .i32⟩
  | 102 => ⟨S8x1024x1024x2, .i32⟩
  | 103 => ⟨S8x1024x1024, .f32⟩
  | 104 => ⟨S_, .i32⟩
  | 105 => ⟨S8x1024x1024, .i32⟩
  | 106 => ⟨S8x1024x1024, .i1⟩
  | 107 => ⟨S_, .i32⟩
  | 108 => ⟨S8x1024x1024, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i1⟩
  | 114 => ⟨S_, .i32⟩
  | 115 => ⟨S8x1024x1024, .i32⟩
  | 116 => ⟨S8x1024x1024, .i32⟩
  | 117 => ⟨S8x1024x1024, .i32⟩
  | 118 => ⟨S8x1024x1024x1, .i32⟩
  | 119 => ⟨S8x1024x1024x1, .i32⟩
  | 120 => ⟨S8x1024x1024x2, .i32⟩
  | 121 => ⟨S8x1024x1024, .f32⟩
  | 122 => ⟨S_, .i32⟩
  | 123 => ⟨S8x1024x1024, .i32⟩
  | 124 => ⟨S8x1024x1024, .i1⟩
  | 125 => ⟨S_, .i32⟩
  | 126 => ⟨S8x1024x1024, .i32⟩
  | 127 => ⟨S8x1024x1024, .i32⟩
  | _ => ⟨S8x1024x1024x2, .f32⟩

abbrev hbmTy0_1 (i : Nat) : BufTy := match i % 128 with
  | 0 => ⟨S8x1024x1024, .i32⟩
  | 1 => ⟨S_, .i32⟩
  | 2 => ⟨S8x1024x1024, .i32⟩
  | 3 => ⟨S8x1024x1024, .i1⟩
  | 4 => ⟨S_, .i32⟩
  | 5 => ⟨S8x1024x1024, .i32⟩
  | 6 => ⟨S8x1024x1024, .i32⟩
  | 7 => ⟨S8x1024x1024, .i32⟩
  | 8 => ⟨S8x1024x1024x1, .i32⟩
  | 9 => ⟨S8x1024x1024x1, .i32⟩
  | 10 => ⟨S8x1024x1024x2, .i32⟩
  | 11 => ⟨S8x1024x1024, .f32⟩
  | 12 => ⟨S_, .f32⟩
  | 13 => ⟨S8x1024x1024, .f32⟩
  | 14 => ⟨S8x1024x1024, .f32⟩
  | 15 => ⟨S8x1024x1024, .f32⟩
  | 16 => ⟨S_, .f32⟩
  | 17 => ⟨S8x1024x1024, .f32⟩
  | 18 => ⟨S8x1024x1024, .f32⟩
  | 19 => ⟨S8x1024x1024, .f32⟩
  | 20 => ⟨S8x1024x1024, .f32⟩
  | 21 => ⟨S_, .f32⟩
  | 22 => ⟨S8x1024x1024, .f32⟩
  | 23 => ⟨S8x1024x1024, .f32⟩
  | 24 => ⟨S8x1024x1024, .f32⟩
  | 25 => ⟨S8x1024x1024, .f32⟩
  | 26 => ⟨S_, .f32⟩
  | 27 => ⟨S8x1024x1024, .f32⟩
  | 28 => ⟨S8x1024x1024, .f32⟩
  | 29 => ⟨S8x1024x1024, .f32⟩
  | 30 => ⟨S8x1024x1024, .f32⟩
  | 31 => ⟨S8x1024x1024, .f32⟩
  | 32 => ⟨S8x1024x1024, .f32⟩
  | 33 => ⟨S8x1024x1024, .f32⟩
  | 34 => ⟨S8x1024x1024, .f32⟩
  | 35 => ⟨S512x512, .f32⟩
  | 36 => ⟨S8x1024x1024x1, .f32⟩
  | 37 => ⟨S8x1024x1024, .f32⟩
  | 38 => ⟨S8x1024x1024x1, .f32⟩
  | 39 => ⟨S8x1024x1024, .f32⟩
  | 40 => ⟨S_, .f32⟩
  | 41 => ⟨S8x1024x1024, .f32⟩
  | 42 => ⟨S8x1024x1024, .f32⟩
  | 43 => ⟨S_, .f32⟩
  | 44 => ⟨S8x1024x1024, .f32⟩
  | 45 => ⟨S8x1024x1024, .f32⟩
  | 46 => ⟨S_, .f32⟩
  | 47 => ⟨S8x1024x1024, .f32⟩
  | 48 => ⟨S8x1024x1024, .f32⟩
  | 49 => ⟨S_, .f32⟩
  | 50 => ⟨S8x1024x1024, .f32⟩
  | 51 => ⟨S8x1024x1024, .f32⟩
  | 52 => ⟨S_, .f32⟩
  | 53 => ⟨S_, .f32⟩
  | 54 => ⟨S_, .f32⟩
  | 55 => ⟨S8x1024x1024, .f32⟩
  | 56 => ⟨S8x1024x1024, .f32⟩
  | 57 => ⟨S_, .f32⟩
  | 58 => ⟨S8x1024x1024, .f32⟩
  | 59 => ⟨S8x1024x1024, .f32⟩
  | 60 => ⟨S_, .f32⟩
  | 61 => ⟨S8x1024x1024, .f32⟩
  | 62 => ⟨S8x1024x1024, .f32⟩
  | 63 => ⟨S_, .f32⟩
  | 64 => ⟨S8x1024x1024, .f32⟩
  | 65 => ⟨S8x1024x1024, .f32⟩
  | 66 => ⟨S_, .f32⟩
  | 67 => ⟨S8x1024x1024, .f32⟩
  | 68 => ⟨S8x1024x1024, .f32⟩
  | 69 => ⟨S_, .f32⟩
  | 70 => ⟨S8x1024x1024, .f32⟩
  | 71 => ⟨S8x1024x1024, .f32⟩
  | 72 => ⟨S_, .f32⟩
  | 73 => ⟨S_, .f32⟩
  | 74 => ⟨S_, .f32⟩
  | 75 => ⟨S8x1024x1024, .f32⟩
  | 76 => ⟨S8x1024x1024, .f32⟩
  | 77 => ⟨S_, .f32⟩
  | 78 => ⟨S8x1024x1024, .f32⟩
  | 79 => ⟨S8x1024x1024, .f32⟩
  | 80 => ⟨S8x1024x1024, .f32⟩
  | 81 => ⟨S8x1024x1024, .f32⟩
  | 82 => ⟨S8x1024x1024, .f32⟩
  | 83 => ⟨S8x1024x1024, .f32⟩
  | 84 => ⟨S8x1024x1024, .i32⟩
  | 85 => ⟨S8x1024x1024, .i32⟩
  | 86 => ⟨S_, .i32⟩
  | 87 => ⟨S8x1024x1024, .i32⟩
  | 88 => ⟨S8x1024x1024, .i32⟩
  | 89 => ⟨S_, .i32⟩
  | 90 => ⟨S8x1024x1024, .i32⟩
  | 91 => ⟨S8x1024x1024, .i32⟩
  | 92 => ⟨S_, .i32⟩
  | 93 => ⟨S8x1024x1024, .i32⟩
  | 94 => ⟨S8x1024x1024, .i32⟩
  | 95 => ⟨S_, .i32⟩
  | 96 => ⟨S8x1024x1024, .i32⟩
  | 97 => ⟨S8x1024x1024, .i32⟩
  | 98 => ⟨S_, .i32⟩
  | 99 => ⟨S8x1024x1024, .i32⟩
  | 100 => ⟨S8x1024x1024, .i1⟩
  | 101 => ⟨S_, .i32⟩
  | 102 => ⟨S8x1024x1024, .i32⟩
  | 103 => ⟨S8x1024x1024, .i32⟩
  | 104 => ⟨S8x1024x1024, .i32⟩
  | 105 => ⟨S_, .i32⟩
  | 106 => ⟨S8x1024x1024, .i32⟩
  | 107 => ⟨S8x1024x1024, .i1⟩
  | 108 => ⟨S_, .i32⟩
  | 109 => ⟨S8x1024x1024, .i32⟩
  | 110 => ⟨S8x1024x1024, .i32⟩
  | 111 => ⟨S8x1024x1024, .i32⟩
  | 112 => ⟨S8x1024x1024x1, .i32⟩
  | 113 => ⟨S8x1024x1024x1, .i32⟩
  | 114 => ⟨S8x1024x1024x2, .i32⟩
  | 115 => ⟨S8x1024x1024, .f32⟩
  | 116 => ⟨S_, .i32⟩
  | 117 => ⟨S8x1024x1024, .i32⟩
  | 118 => ⟨S8x1024x1024, .i1⟩
  | 119 => ⟨S_, .i32⟩
  | 120 => ⟨S8x1024x1024, .i32⟩
  | 121 => ⟨S8x1024x1024, .i32⟩
  | 122 => ⟨S8x1024x1024, .i32⟩
  | 123 => ⟨S_, .i32⟩
  | 124 => ⟨S8x1024x1024, .i32⟩
  | 125 => ⟨S8x1024x1024, .i1⟩
  | 126 => ⟨S_, .i32⟩
  | 127 => ⟨S8x1024x1024, .i32⟩
  | _ => ⟨S8x1024x1024x2, .f32⟩

abbrev hbmTy0_2 (i : Nat) : BufTy := match i % 128 with
  | 0 => ⟨S8x1024x1024, .i32⟩
  | 1 => ⟨S8x1024x1024, .i32⟩
  | 2 => ⟨S8x1024x1024x1, .i32⟩
  | 3 => ⟨S8x1024x1024x1, .i32⟩
  | 4 => ⟨S8x1024x1024x2, .i32⟩
  | 5 => ⟨S8x1024x1024, .f32⟩
  | 6 => ⟨S_, .i32⟩
  | 7 => ⟨S8x1024x1024, .i32⟩
  | 8 => ⟨S8x1024x1024, .i1⟩
  | 9 => ⟨S_, .i32⟩
  | 10 => ⟨S8x1024x1024, .i32⟩
  | 11 => ⟨S8x1024x1024, .i32⟩
  | 12 => ⟨S8x1024x1024, .i32⟩
  | 13 => ⟨S_, .i32⟩
  | 14 => ⟨S8x1024x1024, .i32⟩
  | 15 => ⟨S8x1024x1024, .i1⟩
  | 16 => ⟨S_, .i32⟩
  | 17 => ⟨S8x1024x1024, .i32⟩
  | 18 => ⟨S8x1024x1024, .i32⟩
  | 19 => ⟨S8x1024x1024, .i32⟩
  | 20 => ⟨S8x1024x1024x1, .i32⟩
  | 21 => ⟨S8x1024x1024x1, .i32⟩
  | 22 => ⟨S8x1024x1024x2, .i32⟩
  | 23 => ⟨S8x1024x1024, .f32⟩
  | 24 => ⟨S_, .i32⟩
  | 25 => ⟨S8x1024x1024, .i32⟩
  | 26 => ⟨S8x1024x1024, .i1⟩
  | 27 => ⟨S_, .i32⟩
  | 28 => ⟨S8x1024x1024, .i32⟩
  | 29 => ⟨S8x1024x1024, .i32⟩
  | 30 => ⟨S8x1024x1024, .i32⟩
  | 31 => ⟨S_, .i32⟩
  | 32 => ⟨S8x1024x1024, .i32⟩
  | 33 => ⟨S8x1024x1024, .i1⟩
  | 34 => ⟨S_, .i32⟩
  | 35 => ⟨S8x1024x1024, .i32⟩
  | 36 => ⟨S8x1024x1024, .i32⟩
  | 37 => ⟨S8x1024x1024, .i32⟩
  | 38 => ⟨S8x1024x1024x1, .i32⟩
  | 39 => ⟨S8x1024x1024x1, .i32⟩
  | 40 => ⟨S8x1024x1024x2, .i32⟩
  | 41 => ⟨S8x1024x1024, .f32⟩
  | 42 => ⟨S_, .f32⟩
  | 43 => ⟨S8x1024x1024, .f32⟩
  | 44 => ⟨S8x1024x1024, .f32⟩
  | 45 => ⟨S8x1024x1024, .f32⟩
  | 46 => ⟨S_, .f32⟩
  | 47 => ⟨S8x1024x1024, .f32⟩
  | 48 => ⟨S8x1024x1024, .f32⟩
  | 49 => ⟨S8x1024x1024, .f32⟩
  | 50 => ⟨S8x1024x1024, .f32⟩
  | 51 => ⟨S_, .f32⟩
  | 52 => ⟨S8x1024x1024, .f32⟩
  | 53 => ⟨S8x1024x1024, .f32⟩
  | 54 => ⟨S8x1024x1024, .f32⟩
  | 55 => ⟨S8x1024x1024, .f32⟩
  | 56 => ⟨S_, .f32⟩
  | 57 => ⟨S8x1024x1024, .f32⟩
  | 58 => ⟨S8x1024x1024, .f32⟩
  | 59 => ⟨S8x1024x1024, .f32⟩
  | 60 => ⟨S8x1024x1024, .f32⟩
  | 61 => ⟨S8x1024x1024, .f32⟩
  | 62 => ⟨S8x1024x1024, .f32⟩
  | 63 => ⟨S8x1024x1024, .f32⟩
  | 64 => ⟨S8x1024x1024, .f32⟩
  | 65 => ⟨S8x1024x1024, .f32⟩
  | 66 => ⟨S256x256, .f32⟩
  | 67 => ⟨S8x1024x1024x1, .f32⟩
  | 68 => ⟨S8x1024x1024, .f32⟩
  | 69 => ⟨S8x1024x1024x1, .f32⟩
  | 70 => ⟨S8x1024x1024, .f32⟩
  | 71 => ⟨S_, .f32⟩
  | 72 => ⟨S8x1024x1024, .f32⟩
  | 73 => ⟨S8x1024x1024, .f32⟩
  | 74 => ⟨S_, .f32⟩
  | 75 => ⟨S8x1024x1024, .f32⟩
  | 76 => ⟨S8x1024x1024, .f32⟩
  | 77 => ⟨S_, .f32⟩
  | 78 => ⟨S8x1024x1024, .f32⟩
  | 79 => ⟨S8x1024x1024, .f32⟩
  | 80 => ⟨S_, .f32⟩
  | 81 => ⟨S8x1024x1024, .f32⟩
  | 82 => ⟨S8x1024x1024, .f32⟩
  | 83 => ⟨S_, .f32⟩
  | 84 => ⟨S_, .f32⟩
  | 85 => ⟨S_, .f32⟩
  | 86 => ⟨S8x1024x1024, .f32⟩
  | 87 => ⟨S8x1024x1024, .f32⟩
  | 88 => ⟨S_, .f32⟩
  | 89 => ⟨S8x1024x1024, .f32⟩
  | 90 => ⟨S8x1024x1024, .f32⟩
  | 91 => ⟨S_, .f32⟩
  | 92 => ⟨S8x1024x1024, .f32⟩
  | 93 => ⟨S8x1024x1024, .f32⟩
  | 94 => ⟨S_, .f32⟩
  | 95 => ⟨S8x1024x1024, .f32⟩
  | 96 => ⟨S8x1024x1024, .f32⟩
  | 97 => ⟨S_, .f32⟩
  | 98 => ⟨S8x1024x1024, .f32⟩
  | 99 => ⟨S8x1024x1024, .f32⟩
  | 100 => ⟨S_, .f32⟩
  | 101 => ⟨S8x1024x1024, .f32⟩
  | 102 => ⟨S8x1024x1024, .f32⟩
  | 103 => ⟨S_, .f32⟩
  | 104 => ⟨S_, .f32⟩
  | 105 => ⟨S_, .f32⟩
  | 106 => ⟨S8x1024x1024, .f32⟩
  | 107 => ⟨S8x1024x1024, .f32⟩
  | 108 => ⟨S_, .f32⟩
  | 109 => ⟨S8x1024x1024, .f32⟩
  | 110 => ⟨S8x1024x1024, .f32⟩
  | 111 => ⟨S8x1024x1024, .f32⟩
  | 112 => ⟨S8x1024x1024, .f32⟩
  | 113 => ⟨S8x1024x1024, .f32⟩
  | 114 => ⟨S8x1024x1024, .f32⟩
  | 115 => ⟨S8x1024x1024, .i32⟩
  | 116 => ⟨S8x1024x1024, .i32⟩
  | 117 => ⟨S_, .i32⟩
  | 118 => ⟨S8x1024x1024, .i32⟩
  | 119 => ⟨S8x1024x1024, .i32⟩
  | 120 => ⟨S_, .i32⟩
  | 121 => ⟨S8x1024x1024, .i32⟩
  | 122 => ⟨S8x1024x1024, .i32⟩
  | 123 => ⟨S_, .i32⟩
  | 124 => ⟨S8x1024x1024, .i32⟩
  | 125 => ⟨S8x1024x1024, .i32⟩
  | 126 => ⟨S_, .i32⟩
  | 127 => ⟨S8x1024x1024, .i32⟩
  | _ => ⟨S8x1024x1024x2, .f32⟩

abbrev hbmTy0_3 (i : Nat) : BufTy := match i % 128 with
  | 0 => ⟨S8x1024x1024, .i32⟩
  | 1 => ⟨S_, .i32⟩
  | 2 => ⟨S8x1024x1024, .i32⟩
  | 3 => ⟨S8x1024x1024, .i1⟩
  | 4 => ⟨S_, .i32⟩
  | 5 => ⟨S8x1024x1024, .i32⟩
  | 6 => ⟨S8x1024x1024, .i32⟩
  | 7 => ⟨S8x1024x1024, .i32⟩
  | 8 => ⟨S_, .i32⟩
  | 9 => ⟨S8x1024x1024, .i32⟩
  | 10 => ⟨S8x1024x1024, .i1⟩
  | 11 => ⟨S_, .i32⟩
  | 12 => ⟨S8x1024x1024, .i32⟩
  | 13 => ⟨S8x1024x1024, .i32⟩
  | 14 => ⟨S8x1024x1024, .i32⟩
  | 15 => ⟨S8x1024x1024x1, .i32⟩
  | 16 => ⟨S8x1024x1024x1, .i32⟩
  | 17 => ⟨S8x1024x1024x2, .i32⟩
  | 18 => ⟨S8x1024x1024, .f32⟩
  | 19 => ⟨S_, .i32⟩
  | 20 => ⟨S8x1024x1024, .i32⟩
  | 21 => ⟨S8x1024x1024, .i1⟩
  | 22 => ⟨S_, .i32⟩
  | 23 => ⟨S8x1024x1024, .i32⟩
  | 24 => ⟨S8x1024x1024, .i32⟩
  | 25 => ⟨S8x1024x1024, .i32⟩
  | 26 => ⟨S_, .i32⟩
  | 27 => ⟨S8x1024x1024, .i32⟩
  | 28 => ⟨S8x1024x1024, .i1⟩
  | 29 => ⟨S_, .i32⟩
  | 30 => ⟨S8x1024x1024, .i32⟩
  | 31 => ⟨S8x1024x1024, .i32⟩
  | 32 => ⟨S8x1024x1024, .i32⟩
  | 33 => ⟨S8x1024x1024x1, .i32⟩
  | 34 => ⟨S8x1024x1024x1, .i32⟩
  | 35 => ⟨S8x1024x1024x2, .i32⟩
  | 36 => ⟨S8x1024x1024, .f32⟩
  | 37 => ⟨S_, .i32⟩
  | 38 => ⟨S8x1024x1024, .i32⟩
  | 39 => ⟨S8x1024x1024, .i1⟩
  | 40 => ⟨S_, .i32⟩
  | 41 => ⟨S8x1024x1024, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i1⟩
  | 47 => ⟨S_, .i32⟩
  | 48 => ⟨S8x1024x1024, .i32⟩
  | 49 => ⟨S8x1024x1024, .i32⟩
  | 50 => ⟨S8x1024x1024, .i32⟩
  | 51 => ⟨S8x1024x1024x1, .i32⟩
  | 52 => ⟨S8x1024x1024x1, .i32⟩
  | 53 => ⟨S8x1024x1024x2, .i32⟩
  | 54 => ⟨S8x1024x1024, .f32⟩
  | 55 => ⟨S_, .i32⟩
  | 56 => ⟨S8x1024x1024, .i32⟩
  | 57 => ⟨S8x1024x1024, .i1⟩
  | 58 => ⟨S_, .i32⟩
  | 59 => ⟨S8x1024x1024, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i1⟩
  | 65 => ⟨S_, .i32⟩
  | 66 => ⟨S8x1024x1024, .i32⟩
  | 67 => ⟨S8x1024x1024, .i32⟩
  | 68 => ⟨S8x1024x1024, .i32⟩
  | 69 => ⟨S8x1024x1024x1, .i32⟩
  | 70 => ⟨S8x1024x1024x1, .i32⟩
  | 71 => ⟨S8x1024x1024x2, .i32⟩
  | 72 => ⟨S8x1024x1024, .f32⟩
  | 73 => ⟨S_, .f32⟩
  | 74 => ⟨S8x1024x1024, .f32⟩
  | 75 => ⟨S8x1024x1024, .f32⟩
  | 76 => ⟨S8x1024x1024, .f32⟩
  | 77 => ⟨S_, .f32⟩
  | 78 => ⟨S8x1024x1024, .f32⟩
  | 79 => ⟨S8x1024x1024, .f32⟩
  | 80 => ⟨S8x1024x1024, .f32⟩
  | 81 => ⟨S8x1024x1024, .f32⟩
  | 82 => ⟨S_, .f32⟩
  | 83 => ⟨S8x1024x1024, .f32⟩
  | 84 => ⟨S8x1024x1024, .f32⟩
  | 85 => ⟨S8x1024x1024, .f32⟩
  | 86 => ⟨S8x1024x1024, .f32⟩
  | 87 => ⟨S_, .f32⟩
  | 88 => ⟨S8x1024x1024, .f32⟩
  | 89 => ⟨S8x1024x1024, .f32⟩
  | 90 => ⟨S8x1024x1024, .f32⟩
  | 91 => ⟨S8x1024x1024, .f32⟩
  | 92 => ⟨S8x1024x1024, .f32⟩
  | 93 => ⟨S8x1024x1024, .f32⟩
  | 94 => ⟨S8x1024x1024, .f32⟩
  | 95 => ⟨S8x1024x1024, .f32⟩
  | 96 => ⟨S8x1024x1024, .f32⟩
  | 97 => ⟨S128x128, .f32⟩
  | 98 => ⟨S8x1024x1024x1, .f32⟩
  | 99 => ⟨S8x1024x1024, .f32⟩
  | 100 => ⟨S8x1024x1024x1, .f32⟩
  | 101 => ⟨S8x1024x1024, .f32⟩
  | 102 => ⟨S_, .f32⟩
  | 103 => ⟨S8x1024x1024, .f32⟩
  | 104 => ⟨S8x1024x1024, .f32⟩
  | 105 => ⟨S_, .f32⟩
  | 106 => ⟨S8x1024x1024, .f32⟩
  | 107 => ⟨S8x1024x1024, .f32⟩
  | 108 => ⟨S_, .f32⟩
  | 109 => ⟨S8x1024x1024, .f32⟩
  | 110 => ⟨S8x1024x1024, .f32⟩
  | 111 => ⟨S_, .f32⟩
  | 112 => ⟨S8x1024x1024, .f32⟩
  | 113 => ⟨S8x1024x1024, .f32⟩
  | 114 => ⟨S_, .f32⟩
  | 115 => ⟨S_, .f32⟩
  | 116 => ⟨S_, .f32⟩
  | 117 => ⟨S8x1024x1024, .f32⟩
  | 118 => ⟨S8x1024x1024, .f32⟩
  | 119 => ⟨S_, .f32⟩
  | 120 => ⟨S8x1024x1024, .f32⟩
  | 121 => ⟨S8x1024x1024, .f32⟩
  | 122 => ⟨S_, .f32⟩
  | 123 => ⟨S8x1024x1024, .f32⟩
  | 124 => ⟨S8x1024x1024, .f32⟩
  | 125 => ⟨S_, .f32⟩
  | 126 => ⟨S8x1024x1024, .f32⟩
  | 127 => ⟨S8x1024x1024, .f32⟩
  | _ => ⟨S8x1024x1024x2, .f32⟩

abbrev hbmTy0_4 (i : Nat) : BufTy := match i % 128 with
  | 0 => ⟨S_, .f32⟩
  | 1 => ⟨S8x1024x1024, .f32⟩
  | 2 => ⟨S8x1024x1024, .f32⟩
  | 3 => ⟨S_, .f32⟩
  | 4 => ⟨S8x1024x1024, .f32⟩
  | 5 => ⟨S8x1024x1024, .f32⟩
  | 6 => ⟨S_, .f32⟩
  | 7 => ⟨S_, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S8x1024x1024, .f32⟩
  | 15 => ⟨S8x1024x1024, .f32⟩
  | 16 => ⟨S8x1024x1024, .f32⟩
  | 17 => ⟨S8x1024x1024, .f32⟩
  | 18 => ⟨S8x1024x1024, .i32⟩
  | 19 => ⟨S8x1024x1024, .i32⟩
  | 20 => ⟨S_, .i32⟩
  | 21 => ⟨S8x1024x1024, .i32⟩
  | 22 => ⟨S8x1024x1024, .i32⟩
  | 23 => ⟨S_, .i32⟩
  | 24 => ⟨S8x1024x1024, .i32⟩
  | 25 => ⟨S8x1024x1024, .i32⟩
  | 26 => ⟨S_, .i32⟩
  | 27 => ⟨S8x1024x1024, .i32⟩
  | 28 => ⟨S8x1024x1024, .i32⟩
  | 29 => ⟨S_, .i32⟩
  | 30 => ⟨S8x1024x1024, .i32⟩
  | 31 => ⟨S8x1024x1024, .i32⟩
  | 32 => ⟨S_, .i32⟩
  | 33 => ⟨S8x1024x1024, .i32⟩
  | 34 => ⟨S8x1024x1024, .i1⟩
  | 35 => ⟨S_, .i32⟩
  | 36 => ⟨S8x1024x1024, .i32⟩
  | 37 => ⟨S8x1024x1024, .i32⟩
  | 38 => ⟨S8x1024x1024, .i32⟩
  | 39 => ⟨S_, .i32⟩
  | 40 => ⟨S8x1024x1024, .i32⟩
  | 41 => ⟨S8x1024x1024, .i1⟩
  | 42 => ⟨S_, .i32⟩
  | 43 => ⟨S8x1024x1024, .i32⟩
  | 44 => ⟨S8x1024x1024, .i32⟩
  | 45 => ⟨S8x1024x1024, .i32⟩
  | 46 => ⟨S8x1024x1024x1, .i32⟩
  | 47 => ⟨S8x1024x1024x1, .i32⟩
  | 48 => ⟨S8x1024x1024x2, .i32⟩
  | 49 => ⟨S8x1024x1024, .f32⟩
  | 50 => ⟨S_, .i32⟩
  | 51 => ⟨S8x1024x1024, .i32⟩
  | 52 => ⟨S8x1024x1024, .i1⟩
  | 53 => ⟨S_, .i32⟩
  | 54 => ⟨S8x1024x1024, .i32⟩
  | 55 => ⟨S8x1024x1024, .i32⟩
  | 56 => ⟨S8x1024x1024, .i32⟩
  | 57 => ⟨S_, .i32⟩
  | 58 => ⟨S8x1024x1024, .i32⟩
  | 59 => ⟨S8x1024x1024, .i1⟩
  | 60 => ⟨S_, .i32⟩
  | 61 => ⟨S8x1024x1024, .i32⟩
  | 62 => ⟨S8x1024x1024, .i32⟩
  | 63 => ⟨S8x1024x1024, .i32⟩
  | 64 => ⟨S8x1024x1024x1, .i32⟩
  | 65 => ⟨S8x1024x1024x1, .i32⟩
  | 66 => ⟨S8x1024x1024x2, .i32⟩
  | 67 => ⟨S8x1024x1024, .f32⟩
  | 68 => ⟨S_, .i32⟩
  | 69 => ⟨S8x1024x1024, .i32⟩
  | 70 => ⟨S8x1024x1024, .i1⟩
  | 71 => ⟨S_, .i32⟩
  | 72 => ⟨S8x1024x1024, .i32⟩
  | 73 => ⟨S8x1024x1024, .i32⟩
  | 74 => ⟨S8x1024x1024, .i32⟩
  | 75 => ⟨S_, .i32⟩
  | 76 => ⟨S8x1024x1024, .i32⟩
  | 77 => ⟨S8x1024x1024, .i1⟩
  | 78 => ⟨S_, .i32⟩
  | 79 => ⟨S8x1024x1024, .i32⟩
  | 80 => ⟨S8x1024x1024, .i32⟩
  | 81 => ⟨S8x1024x1024, .i32⟩
  | 82 => ⟨S8x1024x1024x1, .i32⟩
  | 83 => ⟨S8x1024x1024x1, .i32⟩
  | 84 => ⟨S8x1024x1024x2, .i32⟩
  | 85 => ⟨S8x1024x1024, .f32⟩
  | 86 => ⟨S_, .i32⟩
  | 87 => ⟨S8x1024x1024, .i32⟩
  | 88 => ⟨S8x1024x1024, .i1⟩
  | 89 => ⟨S_, .i32⟩
  | 90 => ⟨S8x1024x1024, .i32⟩
  | 91 => ⟨S8x1024x1024, .i32⟩
  | 92 => ⟨S8x1024x1024, .i32⟩
  | 93 => ⟨S_, .i32⟩
  | 94 => ⟨S8x1024x1024, .i32⟩
  | 95 => ⟨S8x1024x1024, .i1⟩
  | 96 => ⟨S_, .i32⟩
  | 97 => ⟨S8x1024x1024, .i32⟩
  | 98 => ⟨S8x1024x1024, .i32⟩
  | 99 => ⟨S8x1024x1024, .i32⟩
  | 100 => ⟨S8x1024x1024x1, .i32⟩
  | 101 => ⟨S8x1024x1024x1, .i32⟩
  | 102 => ⟨S8x1024x1024x2, .i32⟩
  | 103 => ⟨S8x1024x1024, .f32⟩
  | 104 => ⟨S_, .f32⟩
  | 105 => ⟨S8x1024x1024, .f32⟩
  | 106 => ⟨S8x1024x1024, .f32⟩
  | 107 => ⟨S8x1024x1024, .f32⟩
  | 108 => ⟨S_, .f32⟩
  | 109 => ⟨S8x1024x1024, .f32⟩
  | 110 => ⟨S8x1024x1024, .f32⟩
  | 111 => ⟨S8x1024x1024, .f32⟩
  | 112 => ⟨S8x1024x1024, .f32⟩
  | 113 => ⟨S_, .f32⟩
  | 114 => ⟨S8x1024x1024, .f32⟩
  | 115 => ⟨S8x1024x1024, .f32⟩
  | 116 => ⟨S8x1024x1024, .f32⟩
  | 117 => ⟨S8x1024x1024, .f32⟩
  | 118 => ⟨S_, .f32⟩
  | 119 => ⟨S8x1024x1024, .f32⟩
  | 120 => ⟨S8x1024x1024, .f32⟩
  | 121 => ⟨S8x1024x1024, .f32⟩
  | 122 => ⟨S8x1024x1024, .f32⟩
  | 123 => ⟨S8x1024x1024, .f32⟩
  | 124 => ⟨S8x1024x1024, .f32⟩
  | 125 => ⟨S8x1024x1024, .f32⟩
  | 126 => ⟨S8x1024x1024, .f32⟩
  | 127 => ⟨S8x1024x1024, .f32⟩
  | _ => ⟨S8x1024x1024x2, .f32⟩

abbrev hbmTy0_5 (i : Nat) : BufTy := match i % 128 with
  | 0 => ⟨S8x1x1024x1024, .f32⟩
  | _ => ⟨S8x1024x1024x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x1024x1024x2, .f32⟩

abbrev bufTy : (tb : Table) → Fin (tcTables nBuf tb) → BufTy
  | .hbm, ⟨i, _⟩ => hbmTy i
  | _, _ => ⟨S8x1024x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_cst_6 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_v18 : Ref sig .tc := ⟨.hbm, 37, rfl⟩
abbrev main_v19 : Ref sig .tc := ⟨.hbm, 38, rfl⟩
abbrev main_cst_8 : Ref sig .tc := ⟨.hbm, 39, rfl⟩
abbrev main_v20 : Ref sig .tc := ⟨.hbm, 40, rfl⟩
abbrev main_v21 : Ref sig .tc := ⟨.hbm, 41, rfl⟩
abbrev main_cst_9 : Ref sig .tc := ⟨.hbm, 42, rfl⟩
abbrev main_cst_10 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c : Ref sig .tc := ⟨.hbm, 56, rfl⟩
abbrev main_v29 : Ref sig .tc := ⟨.hbm, 57, rfl⟩
abbrev main_v30 : Ref sig .tc := ⟨.hbm, 58, rfl⟩
abbrev main_c_11 : Ref sig .tc := ⟨.hbm, 59, rfl⟩
abbrev main_v31 : Ref sig .tc := ⟨.hbm, 60, rfl⟩
abbrev main_v32 : Ref sig .tc := ⟨.hbm, 61, rfl⟩
abbrev main_c_12 : Ref sig .tc := ⟨.hbm, 62, rfl⟩
abbrev main_v33 : Ref sig .tc := ⟨.hbm, 63, rfl⟩
abbrev main_v34 : Ref sig .tc := ⟨.hbm, 64, rfl⟩
abbrev main_c_13 : Ref sig .tc := ⟨.hbm, 65, rfl⟩
abbrev main_v35 : Ref sig .tc := ⟨.hbm, 66, rfl⟩
abbrev main_v36 : Ref sig .tc := ⟨.hbm, 67, rfl⟩
abbrev main_c_14 : Ref sig .tc := ⟨.hbm, 68, rfl⟩
abbrev main_v37 : Ref sig .tc := ⟨.hbm, 69, rfl⟩
abbrev main_v38 : Ref sig .tc := ⟨.hbm, 70, rfl⟩
abbrev main_c_15 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_16 : Ref sig .tc := ⟨.hbm, 75, rfl⟩
abbrev main_v42 : Ref sig .tc := ⟨.hbm, 76, rfl⟩
abbrev main_v43 : Ref sig .tc := ⟨.hbm, 77, rfl⟩
abbrev main_c_17 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_18 : Ref sig .tc := ⟨.hbm, 86, rfl⟩
abbrev main_v51 : Ref sig .tc := ⟨.hbm, 87, rfl⟩
abbrev main_v52 : Ref sig .tc := ⟨.hbm, 88, rfl⟩
abbrev main_c_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_20 : Ref sig .tc := ⟨.hbm, 93, rfl⟩
abbrev main_v56 : Ref sig .tc := ⟨.hbm, 94, rfl⟩
abbrev main_v57 : Ref sig .tc := ⟨.hbm, 95, rfl⟩
abbrev main_c_21 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_22 : Ref sig .tc := ⟨.hbm, 104, rfl⟩
abbrev main_v65 : Ref sig .tc := ⟨.hbm, 105, rfl⟩
abbrev main_v66 : Ref sig .tc := ⟨.hbm, 106, rfl⟩
abbrev main_c_23 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_24 : Ref sig .tc := ⟨.hbm, 111, rfl⟩
abbrev main_v70 : Ref sig .tc := ⟨.hbm, 112, rfl⟩
abbrev main_v71 : Ref sig .tc := ⟨.hbm, 113, rfl⟩
abbrev main_c_25 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_26 : Ref sig .tc := ⟨.hbm, 122, rfl⟩
abbrev main_v79 : Ref sig .tc := ⟨.hbm, 123, rfl⟩
abbrev main_v80 : Ref sig .tc := ⟨.hbm, 124, rfl⟩
abbrev main_c_27 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_28 : Ref sig .tc := ⟨.hbm, 129, rfl⟩
abbrev main_v84 : Ref sig .tc := ⟨.hbm, 130, rfl⟩
abbrev main_v85 : Ref sig .tc := ⟨.hbm, 131, rfl⟩
abbrev main_c_29 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_30 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_31 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_32 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_33 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_34 : Ref sig .tc := ⟨.hbm, 168, rfl⟩
abbrev main_v117 : Ref sig .tc := ⟨.hbm, 169, rfl⟩
abbrev main_v118 : Ref sig .tc := ⟨.hbm, 170, rfl⟩
abbrev main_cst_35 : Ref sig .tc := ⟨.hbm, 171, rfl⟩
abbrev main_v119 : Ref sig .tc := ⟨.hbm, 172, rfl⟩
abbrev main_v120 : Ref sig .tc := ⟨.hbm, 173, rfl⟩
abbrev main_cst_36 : Ref sig .tc := ⟨.hbm, 174, rfl⟩
abbrev main_v121 : Ref sig .tc := ⟨.hbm, 175, rfl⟩
abbrev main_v122 : Ref sig .tc := ⟨.hbm, 176, rfl⟩
abbrev main_cst_37 : Ref sig .tc := ⟨.hbm, 177, rfl⟩
abbrev main_v123 : Ref sig .tc := ⟨.hbm, 178, rfl⟩
abbrev main_v124 : Ref sig .tc := ⟨.hbm, 179, rfl⟩
abbrev main_cst_38 : Ref sig .tc := ⟨.hbm, 180, rfl⟩
abbrev main_cst_39 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_v125 : Ref sig .tc := ⟨.hbm, 187, rfl⟩
abbrev main_cst_40 : Ref sig .tc := ⟨.hbm, 188, rfl⟩
abbrev main_v126 : Ref sig .tc := ⟨.hbm, 189, rfl⟩
abbrev main_v127 : Ref sig .tc := ⟨.hbm, 190, rfl⟩
abbrev main_cst_41 : Ref sig .tc := ⟨.hbm, 191, rfl⟩
abbrev main_v128 : Ref sig .tc := ⟨.hbm, 192, rfl⟩
abbrev main_v129 : Ref sig .tc := ⟨.hbm, 193, rfl⟩
abbrev main_cst_42 : Ref sig .tc := ⟨.hbm, 194, rfl⟩
abbrev main_v130 : Ref sig .tc := ⟨.hbm, 195, rfl⟩
abbrev main_v131 : Ref sig .tc := ⟨.hbm, 196, rfl⟩
abbrev main_cst_43 : Ref sig .tc := ⟨.hbm, 197, rfl⟩
abbrev main_v132 : Ref sig .tc := ⟨.hbm, 198, rfl⟩
abbrev main_v133 : Ref sig .tc := ⟨.hbm, 199, rfl⟩
abbrev main_cst_44 : Ref sig .tc := ⟨.hbm, 200, rfl⟩
abbrev main_cst_45 : Ref sig .tc := ⟨.hbm, 201, rfl⟩
abbrev main_call3_v0 : Ref sig .tc := ⟨.hbm, 202, rfl⟩
abbrev main_call3_v1 : Ref sig .tc := ⟨.hbm, 203, rfl⟩
abbrev main_call3_v2 : Ref sig .tc := ⟨.hbm, 204, rfl⟩
abbrev main_call3_v3 : Ref sig .tc := ⟨.hbm, 205, rfl⟩
abbrev main_call3_v4 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_c_46 : Ref sig .tc := ⟨.hbm, 214, rfl⟩
abbrev main_v141 : Ref sig .tc := ⟨.hbm, 215, rfl⟩
abbrev main_v142 : Ref sig .tc := ⟨.hbm, 216, rfl⟩
abbrev main_c_47 : Ref sig .tc := ⟨.hbm, 217, rfl⟩
abbrev main_v143 : Ref sig .tc := ⟨.hbm, 218, rfl⟩
abbrev main_v144 : Ref sig .tc := ⟨.hbm, 219, rfl⟩
abbrev main_c_48 : Ref sig .tc := ⟨.hbm, 220, rfl⟩
abbrev main_v145 : Ref sig .tc := ⟨.hbm, 221, rfl⟩
abbrev main_v146 : Ref sig .tc := ⟨.hbm, 222, rfl⟩
abbrev main_c_49 : Ref sig .tc := ⟨.hbm, 223, rfl⟩
abbrev main_v147 : Ref sig .tc := ⟨.hbm, 224, rfl⟩
abbrev main_v148 : Ref sig .tc := ⟨.hbm, 225, rfl⟩
abbrev main_c_50 : Ref sig .tc := ⟨.hbm, 226, rfl⟩
abbrev main_v149 : Ref sig .tc := ⟨.hbm, 227, rfl⟩
abbrev main_v150 : Ref sig .tc := ⟨.hbm, 228, rfl⟩
abbrev main_c_51 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_c_52 : Ref sig .tc := ⟨.hbm, 233, rfl⟩
abbrev main_v154 : Ref sig .tc := ⟨.hbm, 234, rfl⟩
abbrev main_v155 : Ref sig .tc := ⟨.hbm, 235, rfl⟩
abbrev main_c_53 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_c_54 : Ref sig .tc := ⟨.hbm, 244, rfl⟩
abbrev main_v163 : Ref sig .tc := ⟨.hbm, 245, rfl⟩
abbrev main_v164 : Ref sig .tc := ⟨.hbm, 246, rfl⟩
abbrev main_c_55 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_c_56 : Ref sig .tc := ⟨.hbm, 251, rfl⟩
abbrev main_v168 : Ref sig .tc := ⟨.hbm, 252, rfl⟩
abbrev main_v169 : Ref sig .tc := ⟨.hbm, 253, rfl⟩
abbrev main_c_57 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_c_58 : Ref sig .tc := ⟨.hbm, 262, rfl⟩
abbrev main_v177 : Ref sig .tc := ⟨.hbm, 263, rfl⟩
abbrev main_v178 : Ref sig .tc := ⟨.hbm, 264, rfl⟩
abbrev main_c_59 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_c_60 : Ref sig .tc := ⟨.hbm, 269, rfl⟩
abbrev main_v182 : Ref sig .tc := ⟨.hbm, 270, rfl⟩
abbrev main_v183 : Ref sig .tc := ⟨.hbm, 271, rfl⟩
abbrev main_c_61 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_c_62 : Ref sig .tc := ⟨.hbm, 280, rfl⟩
abbrev main_v191 : Ref sig .tc := ⟨.hbm, 281, rfl⟩
abbrev main_v192 : Ref sig .tc := ⟨.hbm, 282, rfl⟩
abbrev main_c_63 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_c_64 : Ref sig .tc := ⟨.hbm, 287, rfl⟩
abbrev main_v196 : Ref sig .tc := ⟨.hbm, 288, rfl⟩
abbrev main_v197 : Ref sig .tc := ⟨.hbm, 289, rfl⟩
abbrev main_c_65 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_cst_66 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_cst_67 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_cst_68 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_cst_69 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_cst_70 : Ref sig .tc := ⟨.hbm, 327, rfl⟩
abbrev main_v230 : Ref sig .tc := ⟨.hbm, 328, rfl⟩
abbrev main_v231 : Ref sig .tc := ⟨.hbm, 329, rfl⟩
abbrev main_cst_71 : Ref sig .tc := ⟨.hbm, 330, rfl⟩
abbrev main_v232 : Ref sig .tc := ⟨.hbm, 331, rfl⟩
abbrev main_v233 : Ref sig .tc := ⟨.hbm, 332, rfl⟩
abbrev main_cst_72 : Ref sig .tc := ⟨.hbm, 333, rfl⟩
abbrev main_v234 : Ref sig .tc := ⟨.hbm, 334, rfl⟩
abbrev main_v235 : Ref sig .tc := ⟨.hbm, 335, rfl⟩
abbrev main_cst_73 : Ref sig .tc := ⟨.hbm, 336, rfl⟩
abbrev main_v236 : Ref sig .tc := ⟨.hbm, 337, rfl⟩
abbrev main_v237 : Ref sig .tc := ⟨.hbm, 338, rfl⟩
abbrev main_cst_74 : Ref sig .tc := ⟨.hbm, 339, rfl⟩
abbrev main_cst_75 : Ref sig .tc := ⟨.hbm, 340, rfl⟩
abbrev main_call4_v0 : Ref sig .tc := ⟨.hbm, 341, rfl⟩
abbrev main_call4_v1 : Ref sig .tc := ⟨.hbm, 342, rfl⟩
abbrev main_call4_v2 : Ref sig .tc := ⟨.hbm, 343, rfl⟩
abbrev main_call4_v3 : Ref sig .tc := ⟨.hbm, 344, rfl⟩
abbrev main_call4_v4 : Ref sig .tc := ⟨.hbm, 345, rfl⟩
abbrev main_v238 : Ref sig .tc := ⟨.hbm, 346, rfl⟩
abbrev main_cst_76 : Ref sig .tc := ⟨.hbm, 347, rfl⟩
abbrev main_v239 : Ref sig .tc := ⟨.hbm, 348, rfl⟩
abbrev main_v240 : Ref sig .tc := ⟨.hbm, 349, rfl⟩
abbrev main_cst_77 : Ref sig .tc := ⟨.hbm, 350, rfl⟩
abbrev main_v241 : Ref sig .tc := ⟨.hbm, 351, rfl⟩
abbrev main_v242 : Ref sig .tc := ⟨.hbm, 352, rfl⟩
abbrev main_cst_78 : Ref sig .tc := ⟨.hbm, 353, rfl⟩
abbrev main_v243 : Ref sig .tc := ⟨.hbm, 354, rfl⟩
abbrev main_v244 : Ref sig .tc := ⟨.hbm, 355, rfl⟩
abbrev main_cst_79 : Ref sig .tc := ⟨.hbm, 356, rfl⟩
abbrev main_v245 : Ref sig .tc := ⟨.hbm, 357, rfl⟩
abbrev main_v246 : Ref sig .tc := ⟨.hbm, 358, rfl⟩
abbrev main_cst_80 : Ref sig .tc := ⟨.hbm, 359, rfl⟩
abbrev main_cst_81 : Ref sig .tc := ⟨.hbm, 360, rfl⟩
abbrev main_call5_v0 : Ref sig .tc := ⟨.hbm, 361, rfl⟩
abbrev main_call5_v1 : Ref sig .tc := ⟨.hbm, 362, rfl⟩
abbrev main_call5_v2 : Ref sig .tc := ⟨.hbm, 363, rfl⟩
abbrev main_call5_v3 : Ref sig .tc := ⟨.hbm, 364, rfl⟩
abbrev main_call5_v4 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_c_82 : Ref sig .tc := ⟨.hbm, 373, rfl⟩
abbrev main_v254 : Ref sig .tc := ⟨.hbm, 374, rfl⟩
abbrev main_v255 : Ref sig .tc := ⟨.hbm, 375, rfl⟩
abbrev main_c_83 : Ref sig .tc := ⟨.hbm, 376, rfl⟩
abbrev main_v256 : Ref sig .tc := ⟨.hbm, 377, rfl⟩
abbrev main_v257 : Ref sig .tc := ⟨.hbm, 378, rfl⟩
abbrev main_c_84 : Ref sig .tc := ⟨.hbm, 379, rfl⟩
abbrev main_v258 : Ref sig .tc := ⟨.hbm, 380, rfl⟩
abbrev main_v259 : Ref sig .tc := ⟨.hbm, 381, rfl⟩
abbrev main_c_85 : Ref sig .tc := ⟨.hbm, 382, rfl⟩
abbrev main_v260 : Ref sig .tc := ⟨.hbm, 383, rfl⟩
abbrev main_v261 : Ref sig .tc := ⟨.hbm, 384, rfl⟩
abbrev main_c_86 : Ref sig .tc := ⟨.hbm, 385, rfl⟩
abbrev main_v262 : Ref sig .tc := ⟨.hbm, 386, rfl⟩
abbrev main_v263 : Ref sig .tc := ⟨.hbm, 387, rfl⟩
abbrev main_c_87 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_c_88 : Ref sig .tc := ⟨.hbm, 392, rfl⟩
abbrev main_v267 : Ref sig .tc := ⟨.hbm, 393, rfl⟩
abbrev main_v268 : Ref sig .tc := ⟨.hbm, 394, rfl⟩
abbrev main_c_89 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_v273 : Ref sig .tc := ⟨.hbm, 400, rfl⟩
abbrev main_v274 : Ref sig .tc := ⟨.hbm, 401, rfl⟩
abbrev main_v275 : Ref sig .tc := ⟨.hbm, 402, rfl⟩
abbrev main_c_90 : Ref sig .tc := ⟨.hbm, 403, rfl⟩
abbrev main_v276 : Ref sig .tc := ⟨.hbm, 404, rfl⟩
abbrev main_v277 : Ref sig .tc := ⟨.hbm, 405, rfl⟩
abbrev main_c_91 : Ref sig .tc := ⟨.hbm, 406, rfl⟩
abbrev main_v278 : Ref sig .tc := ⟨.hbm, 407, rfl⟩
abbrev main_v279 : Ref sig .tc := ⟨.hbm, 408, rfl⟩
abbrev main_v280 : Ref sig .tc := ⟨.hbm, 409, rfl⟩
abbrev main_c_92 : Ref sig .tc := ⟨.hbm, 410, rfl⟩
abbrev main_v281 : Ref sig .tc := ⟨.hbm, 411, rfl⟩
abbrev main_v282 : Ref sig .tc := ⟨.hbm, 412, rfl⟩
abbrev main_c_93 : Ref sig .tc := ⟨.hbm, 413, rfl⟩
abbrev main_v283 : Ref sig .tc := ⟨.hbm, 414, rfl⟩
abbrev main_v284 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_v288 : Ref sig .tc := ⟨.hbm, 419, rfl⟩
abbrev main_v289 : Ref sig .tc := ⟨.hbm, 420, rfl⟩
abbrev main_c_94 : Ref sig .tc := ⟨.hbm, 421, rfl⟩
abbrev main_v290 : Ref sig .tc := ⟨.hbm, 422, rfl⟩
abbrev main_v291 : Ref sig .tc := ⟨.hbm, 423, rfl⟩
abbrev main_c_95 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_c_96 : Ref sig .tc := ⟨.hbm, 428, rfl⟩
abbrev main_v295 : Ref sig .tc := ⟨.hbm, 429, rfl⟩
abbrev main_v296 : Ref sig .tc := ⟨.hbm, 430, rfl⟩
abbrev main_c_97 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_v301 : Ref sig .tc := ⟨.hbm, 436, rfl⟩
abbrev main_v302 : Ref sig .tc := ⟨.hbm, 437, rfl⟩
abbrev main_v303 : Ref sig .tc := ⟨.hbm, 438, rfl⟩
abbrev main_c_98 : Ref sig .tc := ⟨.hbm, 439, rfl⟩
abbrev main_v304 : Ref sig .tc := ⟨.hbm, 440, rfl⟩
abbrev main_v305 : Ref sig .tc := ⟨.hbm, 441, rfl⟩
abbrev main_c_99 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_c_100 : Ref sig .tc := ⟨.hbm, 446, rfl⟩
abbrev main_v309 : Ref sig .tc := ⟨.hbm, 447, rfl⟩
abbrev main_v310 : Ref sig .tc := ⟨.hbm, 448, rfl⟩
abbrev main_c_101 : Ref sig .tc := ⟨.hbm, 449, rfl⟩
abbrev main_v311 : Ref sig .tc := ⟨.hbm, 450, rfl⟩
abbrev main_v312 : Ref sig .tc := ⟨.hbm, 451, rfl⟩
abbrev main_v313 : Ref sig .tc := ⟨.hbm, 452, rfl⟩
abbrev main_v314 : Ref sig .tc := ⟨.hbm, 453, rfl⟩
abbrev main_v315 : Ref sig .tc := ⟨.hbm, 454, rfl⟩
abbrev main_v316 : Ref sig .tc := ⟨.hbm, 455, rfl⟩
abbrev main_v317 : Ref sig .tc := ⟨.hbm, 456, rfl⟩
abbrev main_cst_102 : Ref sig .tc := ⟨.hbm, 457, rfl⟩
abbrev main_v318 : Ref sig .tc := ⟨.hbm, 458, rfl⟩
abbrev main_v319 : Ref sig .tc := ⟨.hbm, 459, rfl⟩
abbrev main_v320 : Ref sig .tc := ⟨.hbm, 460, rfl⟩
abbrev main_cst_103 : Ref sig .tc := ⟨.hbm, 461, rfl⟩
abbrev main_v321 : Ref sig .tc := ⟨.hbm, 462, rfl⟩
abbrev main_v322 : Ref sig .tc := ⟨.hbm, 463, rfl⟩
abbrev main_v323 : Ref sig .tc := ⟨.hbm, 464, rfl⟩
abbrev main_v324 : Ref sig .tc := ⟨.hbm, 465, rfl⟩
abbrev main_cst_104 : Ref sig .tc := ⟨.hbm, 466, rfl⟩
abbrev main_v325 : Ref sig .tc := ⟨.hbm, 467, rfl⟩
abbrev main_v326 : Ref sig .tc := ⟨.hbm, 468, rfl⟩
abbrev main_v327 : Ref sig .tc := ⟨.hbm, 469, rfl⟩
abbrev main_v328 : Ref sig .tc := ⟨.hbm, 470, rfl⟩
abbrev main_cst_105 : Ref sig .tc := ⟨.hbm, 471, rfl⟩
abbrev main_v329 : Ref sig .tc := ⟨.hbm, 472, rfl⟩
abbrev main_v330 : Ref sig .tc := ⟨.hbm, 473, rfl⟩
abbrev main_v331 : Ref sig .tc := ⟨.hbm, 474, rfl⟩
abbrev main_v332 : Ref sig .tc := ⟨.hbm, 475, rfl⟩
abbrev main_v333 : Ref sig .tc := ⟨.hbm, 476, rfl⟩
abbrev main_v334 : Ref sig .tc := ⟨.hbm, 477, rfl⟩
abbrev main_v335 : Ref sig .tc := ⟨.hbm, 478, rfl⟩
abbrev main_v336 : Ref sig .tc := ⟨.hbm, 479, rfl⟩
abbrev main_v337 : Ref sig .tc := ⟨.hbm, 480, rfl⟩
abbrev main_v338 : Ref sig .tc := ⟨.hbm, 481, rfl⟩
abbrev main_v339 : Ref sig .tc := ⟨.hbm, 482, rfl⟩
abbrev main_v340 : Ref sig .tc := ⟨.hbm, 483, rfl⟩
abbrev main_v341 : Ref sig .tc := ⟨.hbm, 484, rfl⟩
abbrev main_v342 : Ref sig .tc := ⟨.hbm, 485, rfl⟩
abbrev main_cst_106 : Ref sig .tc := ⟨.hbm, 486, rfl⟩
abbrev main_v343 : Ref sig .tc := ⟨.hbm, 487, rfl⟩
abbrev main_v344 : Ref sig .tc := ⟨.hbm, 488, rfl⟩
abbrev main_cst_107 : Ref sig .tc := ⟨.hbm, 489, rfl⟩
abbrev main_v345 : Ref sig .tc := ⟨.hbm, 490, rfl⟩
abbrev main_v346 : Ref sig .tc := ⟨.hbm, 491, rfl⟩
abbrev main_cst_108 : Ref sig .tc := ⟨.hbm, 492, rfl⟩
abbrev main_v347 : Ref sig .tc := ⟨.hbm, 493, rfl⟩
abbrev main_v348 : Ref sig .tc := ⟨.hbm, 494, rfl⟩
abbrev main_cst_109 : Ref sig .tc := ⟨.hbm, 495, rfl⟩
abbrev main_v349 : Ref sig .tc := ⟨.hbm, 496, rfl⟩
abbrev main_v350 : Ref sig .tc := ⟨.hbm, 497, rfl⟩
abbrev main_cst_110 : Ref sig .tc := ⟨.hbm, 498, rfl⟩
abbrev main_cst_111 : Ref sig .tc := ⟨.hbm, 499, rfl⟩
abbrev main_call6_v0 : Ref sig .tc := ⟨.hbm, 500, rfl⟩
abbrev main_call6_v1 : Ref sig .tc := ⟨.hbm, 501, rfl⟩
abbrev main_call6_v2 : Ref sig .tc := ⟨.hbm, 502, rfl⟩
abbrev main_call6_v3 : Ref sig .tc := ⟨.hbm, 503, rfl⟩
abbrev main_call6_v4 : Ref sig .tc := ⟨.hbm, 504, rfl⟩
abbrev main_v351 : Ref sig .tc := ⟨.hbm, 505, rfl⟩
abbrev main_cst_112 : Ref sig .tc := ⟨.hbm, 506, rfl⟩
abbrev main_v352 : Ref sig .tc := ⟨.hbm, 507, rfl⟩
abbrev main_v353 : Ref sig .tc := ⟨.hbm, 508, rfl⟩
abbrev main_cst_113 : Ref sig .tc := ⟨.hbm, 509, rfl⟩
abbrev main_v354 : Ref sig .tc := ⟨.hbm, 510, rfl⟩
abbrev main_v355 : Ref sig .tc := ⟨.hbm, 511, rfl⟩
abbrev main_cst_114 : Ref sig .tc := ⟨.hbm, 512, rfl⟩
abbrev main_v356 : Ref sig .tc := ⟨.hbm, 513, rfl⟩
abbrev main_v357 : Ref sig .tc := ⟨.hbm, 514, rfl⟩
abbrev main_cst_115 : Ref sig .tc := ⟨.hbm, 515, rfl⟩
abbrev main_v358 : Ref sig .tc := ⟨.hbm, 516, rfl⟩
abbrev main_v359 : Ref sig .tc := ⟨.hbm, 517, rfl⟩
abbrev main_cst_116 : Ref sig .tc := ⟨.hbm, 518, rfl⟩
abbrev main_cst_117 : Ref sig .tc := ⟨.hbm, 519, rfl⟩
abbrev main_call7_v0 : Ref sig .tc := ⟨.hbm, 520, rfl⟩
abbrev main_call7_v1 : Ref sig .tc := ⟨.hbm, 521, rfl⟩
abbrev main_call7_v2 : Ref sig .tc := ⟨.hbm, 522, rfl⟩
abbrev main_call7_v3 : Ref sig .tc := ⟨.hbm, 523, rfl⟩
abbrev main_call7_v4 : Ref sig .tc := ⟨.hbm, 524, rfl⟩
abbrev main_v360 : Ref sig .tc := ⟨.hbm, 525, rfl⟩
abbrev main_v361 : Ref sig .tc := ⟨.hbm, 526, rfl⟩
abbrev main_v362 : Ref sig .tc := ⟨.hbm, 527, rfl⟩
abbrev main_v363 : Ref sig .tc := ⟨.hbm, 528, rfl⟩
abbrev main_v364 : Ref sig .tc := ⟨.hbm, 529, rfl⟩
abbrev main_v365 : Ref sig .tc := ⟨.hbm, 530, rfl⟩
abbrev main_v366 : Ref sig .tc := ⟨.hbm, 531, rfl⟩
abbrev main_c_118 : Ref sig .tc := ⟨.hbm, 532, rfl⟩
abbrev main_v367 : Ref sig .tc := ⟨.hbm, 533, rfl⟩
abbrev main_v368 : Ref sig .tc := ⟨.hbm, 534, rfl⟩
abbrev main_c_119 : Ref sig .tc := ⟨.hbm, 535, rfl⟩
abbrev main_v369 : Ref sig .tc := ⟨.hbm, 536, rfl⟩
abbrev main_v370 : Ref sig .tc := ⟨.hbm, 537, rfl⟩
abbrev main_c_120 : Ref sig .tc := ⟨.hbm, 538, rfl⟩
abbrev main_v371 : Ref sig .tc := ⟨.hbm, 539, rfl⟩
abbrev main_v372 : Ref sig .tc := ⟨.hbm, 540, rfl⟩
abbrev main_c_121 : Ref sig .tc := ⟨.hbm, 541, rfl⟩
abbrev main_v373 : Ref sig .tc := ⟨.hbm, 542, rfl⟩
abbrev main_v374 : Ref sig .tc := ⟨.hbm, 543, rfl⟩
abbrev main_c_122 : Ref sig .tc := ⟨.hbm, 544, rfl⟩
abbrev main_v375 : Ref sig .tc := ⟨.hbm, 545, rfl⟩
abbrev main_v376 : Ref sig .tc := ⟨.hbm, 546, rfl⟩
abbrev main_c_123 : Ref sig .tc := ⟨.hbm, 547, rfl⟩
abbrev main_v377 : Ref sig .tc := ⟨.hbm, 548, rfl⟩
abbrev main_v378 : Ref sig .tc := ⟨.hbm, 549, rfl⟩
abbrev main_v379 : Ref sig .tc := ⟨.hbm, 550, rfl⟩
abbrev main_c_124 : Ref sig .tc := ⟨.hbm, 551, rfl⟩
abbrev main_v380 : Ref sig .tc := ⟨.hbm, 552, rfl⟩
abbrev main_v381 : Ref sig .tc := ⟨.hbm, 553, rfl⟩
abbrev main_c_125 : Ref sig .tc := ⟨.hbm, 554, rfl⟩
abbrev main_v382 : Ref sig .tc := ⟨.hbm, 555, rfl⟩
abbrev main_v383 : Ref sig .tc := ⟨.hbm, 556, rfl⟩
abbrev main_v384 : Ref sig .tc := ⟨.hbm, 557, rfl⟩
abbrev main_v385 : Ref sig .tc := ⟨.hbm, 558, rfl⟩
abbrev main_v386 : Ref sig .tc := ⟨.hbm, 559, rfl⟩
abbrev main_v387 : Ref sig .tc := ⟨.hbm, 560, rfl⟩
abbrev main_v388 : Ref sig .tc := ⟨.hbm, 561, rfl⟩
abbrev main_c_126 : Ref sig .tc := ⟨.hbm, 562, rfl⟩
abbrev main_v389 : Ref sig .tc := ⟨.hbm, 563, rfl⟩
abbrev main_v390 : Ref sig .tc := ⟨.hbm, 564, rfl⟩
abbrev main_c_127 : Ref sig .tc := ⟨.hbm, 565, rfl⟩
abbrev main_v391 : Ref sig .tc := ⟨.hbm, 566, rfl⟩
abbrev main_v392 : Ref sig .tc := ⟨.hbm, 567, rfl⟩
abbrev main_v393 : Ref sig .tc := ⟨.hbm, 568, rfl⟩
abbrev main_c_128 : Ref sig .tc := ⟨.hbm, 569, rfl⟩
abbrev main_v394 : Ref sig .tc := ⟨.hbm, 570, rfl⟩
abbrev main_v395 : Ref sig .tc := ⟨.hbm, 571, rfl⟩
abbrev main_c_129 : Ref sig .tc := ⟨.hbm, 572, rfl⟩
abbrev main_v396 : Ref sig .tc := ⟨.hbm, 573, rfl⟩
abbrev main_v397 : Ref sig .tc := ⟨.hbm, 574, rfl⟩
abbrev main_v398 : Ref sig .tc := ⟨.hbm, 575, rfl⟩
abbrev main_v399 : Ref sig .tc := ⟨.hbm, 576, rfl⟩
abbrev main_v400 : Ref sig .tc := ⟨.hbm, 577, rfl⟩
abbrev main_v401 : Ref sig .tc := ⟨.hbm, 578, rfl⟩
abbrev main_v402 : Ref sig .tc := ⟨.hbm, 579, rfl⟩
abbrev main_c_130 : Ref sig .tc := ⟨.hbm, 580, rfl⟩
abbrev main_v403 : Ref sig .tc := ⟨.hbm, 581, rfl⟩
abbrev main_v404 : Ref sig .tc := ⟨.hbm, 582, rfl⟩
abbrev main_c_131 : Ref sig .tc := ⟨.hbm, 583, rfl⟩
abbrev main_v405 : Ref sig .tc := ⟨.hbm, 584, rfl⟩
abbrev main_v406 : Ref sig .tc := ⟨.hbm, 585, rfl⟩
abbrev main_v407 : Ref sig .tc := ⟨.hbm, 586, rfl⟩
abbrev main_c_132 : Ref sig .tc := ⟨.hbm, 587, rfl⟩
abbrev main_v408 : Ref sig .tc := ⟨.hbm, 588, rfl⟩
abbrev main_v409 : Ref sig .tc := ⟨.hbm, 589, rfl⟩
abbrev main_c_133 : Ref sig .tc := ⟨.hbm, 590, rfl⟩
abbrev main_v410 : Ref sig .tc := ⟨.hbm, 591, rfl⟩
abbrev main_v411 : Ref sig .tc := ⟨.hbm, 592, rfl⟩
abbrev main_v412 : Ref sig .tc := ⟨.hbm, 593, rfl⟩
abbrev main_v413 : Ref sig .tc := ⟨.hbm, 594, rfl⟩
abbrev main_v414 : Ref sig .tc := ⟨.hbm, 595, rfl⟩
abbrev main_v415 : Ref sig .tc := ⟨.hbm, 596, rfl⟩
abbrev main_v416 : Ref sig .tc := ⟨.hbm, 597, rfl⟩
abbrev main_c_134 : Ref sig .tc := ⟨.hbm, 598, rfl⟩
abbrev main_v417 : Ref sig .tc := ⟨.hbm, 599, rfl⟩
abbrev main_v418 : Ref sig .tc := ⟨.hbm, 600, rfl⟩
abbrev main_c_135 : Ref sig .tc := ⟨.hbm, 601, rfl⟩
abbrev main_v419 : Ref sig .tc := ⟨.hbm, 602, rfl⟩
abbrev main_v420 : Ref sig .tc := ⟨.hbm, 603, rfl⟩
abbrev main_v421 : Ref sig .tc := ⟨.hbm, 604, rfl⟩
abbrev main_c_136 : Ref sig .tc := ⟨.hbm, 605, rfl⟩
abbrev main_v422 : Ref sig .tc := ⟨.hbm, 606, rfl⟩
abbrev main_v423 : Ref sig .tc := ⟨.hbm, 607, rfl⟩
abbrev main_c_137 : Ref sig .tc := ⟨.hbm, 608, rfl⟩
abbrev main_v424 : Ref sig .tc := ⟨.hbm, 609, rfl⟩
abbrev main_v425 : Ref sig .tc := ⟨.hbm, 610, rfl⟩
abbrev main_v426 : Ref sig .tc := ⟨.hbm, 611, rfl⟩
abbrev main_v427 : Ref sig .tc := ⟨.hbm, 612, rfl⟩
abbrev main_v428 : Ref sig .tc := ⟨.hbm, 613, rfl⟩
abbrev main_v429 : Ref sig .tc := ⟨.hbm, 614, rfl⟩
abbrev main_v430 : Ref sig .tc := ⟨.hbm, 615, rfl⟩
abbrev main_cst_138 : Ref sig .tc := ⟨.hbm, 616, rfl⟩
abbrev main_v431 : Ref sig .tc := ⟨.hbm, 617, rfl⟩
abbrev main_v432 : Ref sig .tc := ⟨.hbm, 618, rfl⟩
abbrev main_v433 : Ref sig .tc := ⟨.hbm, 619, rfl⟩
abbrev main_cst_139 : Ref sig .tc := ⟨.hbm, 620, rfl⟩
abbrev main_v434 : Ref sig .tc := ⟨.hbm, 621, rfl⟩
abbrev main_v435 : Ref sig .tc := ⟨.hbm, 622, rfl⟩
abbrev main_v436 : Ref sig .tc := ⟨.hbm, 623, rfl⟩
abbrev main_v437 : Ref sig .tc := ⟨.hbm, 624, rfl⟩
abbrev main_cst_140 : Ref sig .tc := ⟨.hbm, 625, rfl⟩
abbrev main_v438 : Ref sig .tc := ⟨.hbm, 626, rfl⟩
abbrev main_v439 : Ref sig .tc := ⟨.hbm, 627, rfl⟩
abbrev main_v440 : Ref sig .tc := ⟨.hbm, 628, rfl⟩
abbrev main_v441 : Ref sig .tc := ⟨.hbm, 629, rfl⟩
abbrev main_cst_141 : Ref sig .tc := ⟨.hbm, 630, rfl⟩
abbrev main_v442 : Ref sig .tc := ⟨.hbm, 631, rfl⟩
abbrev main_v443 : Ref sig .tc := ⟨.hbm, 632, rfl⟩
abbrev main_v444 : Ref sig .tc := ⟨.hbm, 633, rfl⟩
abbrev main_v445 : Ref sig .tc := ⟨.hbm, 634, rfl⟩
abbrev main_v446 : Ref sig .tc := ⟨.hbm, 635, rfl⟩
abbrev main_v447 : Ref sig .tc := ⟨.hbm, 636, rfl⟩
abbrev main_v448 : Ref sig .tc := ⟨.hbm, 637, rfl⟩
abbrev main_v449 : Ref sig .tc := ⟨.hbm, 638, rfl⟩
abbrev main_v450 : Ref sig .tc := ⟨.hbm, 639, rfl⟩
abbrev main_v451 : Ref sig .tc := ⟨.hbm, 640, rfl⟩

abbrev nD : Nat := 1
abbrev τ : Topo := Topo.v7x

variable {F : FTy → Type} [FloatOps F]

class Facts₀ : Prop where
  shapeCasts_S1x1x1024x1024_S1024x1024 : S1x1x1024x1024.ShapeCasts S1024x1024
  slices_S8x1024x1024x2_S8x1024x1024x1_0_0_0_0 : S8x1024x1024x2.Slices ![0, 0, 0, 0] S8x1024x1024x1
  shapeCasts_S8x1024x1024x1_S8x1024x1024 : S8x1024x1024x1.ShapeCasts S8x1024x1024
  slices_S8x1024x1024x2_S8x1024x1024x1_0_0_0_1 : S8x1024x1024x2.Slices ![0, 0, 0, 1] S8x1024x1024x1
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x2_d3 : Shape.Concatenates [S8x1024x1024x1, S8x1024x1024x1] S8x1024x1024x2 3
  shapeCasts_S1x1x512x512_S512x512 : S1x1x512x512.ShapeCasts S512x512
  shapeCasts_S1x1x256x256_S256x256 : S1x1x256x256.ShapeCasts S256x256
  shapeCasts_S1x1x128x128_S128x128 : S1x1x128x128.ShapeCasts S128x128
  bcast_S8x1024x1024_S8x1x1024x1024_0_2_3 : S8x1024x1024.BroadcastsInDim S8x1x1024x1024 (![0, 2, 3] : Fin 3 → Fin S8x1x1024x1024.rank)
  gather_S1024x1024_S8x1024x1024x2_S8x1024x1024_n_01_n_n_01_3_11_wf : GatherDims.WF S1024x1024 S8x1024x1024x2 S8x1024x1024 [] [0, 1] [] [0, 1] [] 3 ![1, 1]
  gather_S512x512_S8x1024x1024x2_S8x1024x1024_n_01_n_n_01_3_11_wf : GatherDims.WF S512x512 S8x1024x1024x2 S8x1024x1024 [] [0, 1] [] [0, 1] [] 3 ![1, 1]
  gather_S256x256_S8x1024x1024x2_S8x1024x1024_n_01_n_n_01_3_11_wf : GatherDims.WF S256x256 S8x1024x1024x2 S8x1024x1024 [] [0, 1] [] [0, 1] [] 3 ![1, 1]
  gather_S128x128_S8x1024x1024x2_S8x1024x1024_n_01_n_n_01_3_11_wf : GatherDims.WF S128x128 S8x1024x1024x2 S8x1024x1024 [] [0, 1] [] [0, 1] [] 3 ![1, 1]

variable [Facts₀]

def gather_S1024x1024_S8x1024x1024x2_S8x1024x1024_n_01_n_n_01_3_11 : GatherDims S1024x1024 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S1024x1024_S8x1024x1024x2_S8x1024x1024_n_01_n_n_01_3_11_wf
def gather_S512x512_S8x1024x1024x2_S8x1024x1024_n_01_n_n_01_3_11 : GatherDims S512x512 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S512x512_S8x1024x1024x2_S8x1024x1024_n_01_n_n_01_3_11_wf
def gather_S256x256_S8x1024x1024x2_S8x1024x1024_n_01_n_n_01_3_11 : GatherDims S256x256 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S256x256_S8x1024x1024x2_S8x1024x1024_n_01_n_n_01_3_11_wf
def gather_S128x128_S8x1024x1024x2_S8x1024x1024_n_01_n_n_01_3_11 : GatherDims S128x128 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S128x128_S8x1024x1024x2_S8x1024x1024_n_01_n_n_01_3_11_wf

class Facts : Prop extends Facts₀ where

variable [Facts]
-- ==== Proof.LibTypedRefs.lean ====
/-
  Contents carried along an equation of buffer types.

  An operation of a function that a host program calls reads and writes its buffers through typed references: a buffer
  together with the equation between the buffer's declared type and the type of the value it holds. Contents pass from one
  type to the other by transport along that equation. When the program's buffers are literal, the two types are the
  same, and transport is the identity — but only up to unfolding the buffer table, which a proof should not ask the
  unifier to do across a large term: comparing a transported term with its plain form by reflexivity alone can send the
  unifier into the operations underneath. These three lemmas remove the transports one at a time instead: the
  round trip is the identity for every typed reference (by substituting the equation), and a single transport is
  removed given that the two sides are equal across the two types (which, for literal buffers, a plain equation
  supplies through `heq_of_eq`).
-/
import Idealize.ShloMosaic.Lib.StableHlo

namespace Cert.Lib.TypedRefs

open Idealize.ShloMosaic Idealize.ShloMosaic.StableHlo

variable {sig : RefSig} {Val : EltTy → Type} {T : BufTy}

/-- Out of the buffer's type and back into the value's type: the identity. -/
theorem ofBuf_toBuf (x : TRef sig T) (v : T.Contents Val) : x.ofBuf (x.toBuf v) = v := by
  obtain ⟨r, h, _, _⟩ := x
  subst h
  rfl

/-- Contents of the buffer, read at the value's type, are what they equal across the two types. -/
theorem ofBuf_eq_of_heq (x : TRef sig T) (v : x.ref.ty.Contents Val) (w : T.Contents Val) (h : HEq v w) : x.ofBuf v = w := by
  obtain ⟨r, h', _, _⟩ := x
  subst h'
  exact eq_of_heq h

/-- A value, written at the buffer's type, is what it equals across the two types. -/
theorem toBuf_eq_of_heq (x : TRef sig T) (w : T.Contents Val) (v : x.ref.ty.Contents Val) (h : HEq w v) : x.toBuf w = v := by
  obtain ⟨r, h', _, _⟩ := x
  subst h'
  exact eq_of_heq h

end Cert.Lib.TypedRefs
-- ==== Proof.LibConcatPair.lean ====
/-
  A two-piece concatenation as a plain function of its two pieces.

  `concatenate` takes its pieces as a list of pairs (shape, array), the array's type depending on the shape.  A term
  rewriter does not rewrite inside such a dependent pair, so the pieces of a concatenation stay as they were written.
  For two pieces the concatenation is restated here as an ordinary function `join2` of the two arrays, equal to it by
  definition: once a concatenation is rewritten to `join2`, its pieces are ordinary arguments and can be rewritten.
-/
import Idealize.ShloMosaic.PureOps.ShapeOps

namespace Cert.Lib.ConcatPair

open Idealize.ShloMosaic

variable {α : Type}

/-- The concatenation of two arrays along axis `a` of the result shape `t`. -/
def join2 (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-piece concatenation is `join2` of its pieces. -/
theorem concatenate_pair (t : Shape) (a : Fin t.rank) (s₁ s₂ : Shape) (x : s₁.Idx → α) (y : s₂.Idx → α)
    (h : Shape.Concatenates [s₁, s₂] t a) :
    concatenate t a [⟨s₁, x⟩, ⟨s₂, y⟩] h = join2 t a s₁ s₂ x y h := rfl

end Cert.Lib.ConcatPair
-- ==== Proof.RefRun.lean ====
/-
  The reference program's run, read.

  The reference is a straight line of 636 host operations.  Every execution of it ends with each buffer at the fold of
  the operations' results over the launch contents; read at the result buffer, that fold is the reference's last stage
  (the stages one per operation, each a function of the arguments it depends on) of the five arguments as launched, and
  read at an argument it is the argument.  The fold is unrolled by one simplifier pass; the two-piece concatenations
  that feed the sixteen gathers are restated as plain functions of their pieces first, so that the pass reaches the
  pieces, and the typed references of the eight calls of the clip function are removed one at a time.
-/
import proofs.«168991_j26474178413071_1_alg».proof.Proof.RefReadPatched
import proofs.«168991_j26474178413071_1_alg».proof.Proof.LibTypedRefs
import proofs.«168991_j26474178413071_1_alg».proof.Proof.LibConcatPair
import Idealize.ShloMosaic.Lib.StableHlo.Run
import Idealize.ShloMosaic.PureOps.Ideal

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.Lib.TypedRefs Cert.Lib.ConcatPair

variable (m : (ℓ : Loc nD τ sig) → Buf (Elt Ideal) ℓ) (ρ : Dev nD → PrngReg)

set_option maxRecDepth 8192 in
set_option maxHeartbeats 400000000 in
/-- The result buffer after the 636 operations holds the last stage of the arguments as launched. -/
theorem result_val (c : Dev nD) :
    after (ops (F := Ideal)) (launchContents m c) (Proc.devRef .tc main_v451)
      = val_main_v451 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxRecDepth 8192 in
set_option maxHeartbeats 400000000 in
/-- No operation writes argument 0: it ends as it was. -/
theorem kept_arg0 (c : Dev nD) :
    after (ops (F := Ideal)) (launchContents m c) (Proc.devRef .tc main_arg0) = m ((c.tc : Thread nD τ).loc main_arg0) := by
  after_results_simp <;> rfl

set_option maxRecDepth 8192 in
set_option maxHeartbeats 400000000 in
/-- No operation writes argument 1: it ends as it was. -/
theorem kept_arg1 (c : Dev nD) :
    after (ops (F := Ideal)) (launchContents m c) (Proc.devRef .tc main_arg1) = m ((c.tc : Thread nD τ).loc main_arg1) := by
  after_results_simp <;> rfl

set_option maxRecDepth 8192 in
set_option maxHeartbeats 400000000 in
/-- No operation writes argument 2: it ends as it was. -/
theorem kept_arg2 (c : Dev nD) :
    after (ops (F := Ideal)) (launchContents m c) (Proc.devRef .tc main_arg2) = m ((c.tc : Thread nD τ).loc main_arg2) := by
  after_results_simp <;> rfl

set_option maxRecDepth 8192 in
set_option maxHeartbeats 400000000 in
/-- No operation writes argument 3: it ends as it was. -/
theorem kept_arg3 (c : Dev nD) :
    after (ops (F := Ideal)) (launchContents m c) (Proc.devRef .tc main_arg3) = m ((c.tc : Thread nD τ).loc main_arg3) := by
  after_results_simp <;> rfl

set_option maxRecDepth 8192 in
set_option maxHeartbeats 400000000 in
/-- No operation writes argument 4: it ends as it was. -/
theorem kept_arg4 (c : Dev nD) :
    after (ops (F := Ideal)) (launchContents m c) (Proc.devRef .tc main_arg4) = m ((c.tc : Thread nD τ).loc main_arg4) := by
  after_results_simp <;> rfl

set_option maxRecDepth 8192 in
set_option maxHeartbeats 400000000 in
/-- Every execution ends with the result at the last stage of the arguments, and the arguments unchanged. -/
theorem run : θ_run defs (onTc (τ := τ) (main (F := Ideal))) ⟨m, fun _ => 0, ρ⟩ fun r => ∀ c : Dev nD,
      r.2.mem ((c.tc : Thread nD τ).loc main_v451) = val_main_v451 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v451).trans (result_val m c),
      (h c main_arg0).trans (kept_arg0 m c), (h c main_arg1).trans (kept_arg1 m c), (h c main_arg2).trans (kept_arg2 m c),
      (h c main_arg3).trans (kept_arg3 m c), (h c main_arg4).trans (kept_arg4 m c)⟩)
    (run_seq scopedRefs_eq scopedSems_eq defs main (fun _ => ops) main_eq (fun _ => ops_sub) m ρ)

end Cert.ReferenceIdeal.RefRun

end
-- ==== Proof.BlendAlgebra.lean ====
/-
  The algebra of a four-level bilinear blend on the extended reals.

  One level contributes, for corner values `v00 v01 v10 v11` and weights `wx wy`,
  the four products corner × weight-pair.  Written with every corner multiplied by the
  PRODUCT of its two weights and added, one after the other, onto a running sum
  (`blendOnto`), or written with the corner multiplied by its two weights in turn and the
  four products summed on their own (`blend`), the value is the same: multiplication and
  addition of extended reals are associative, and nothing else is used — no distributivity,
  no cancellation — so the identity holds at the infinities too.
-/
import Mathlib.Data.EReal.Inv

noncomputable section

namespace Cert.Blend

/-- One level's four weighted corners, each corner times its first weight times its second,
    summed left to right. `u` stands for the unit the weights are complemented in. -/
def blend (u v00 v01 v10 v11 wx wy : EReal) : EReal :=
  ((v00 * (u - wx) * (u - wy) + v01 * wx * (u - wy)) + v10 * (u - wx) * wy) + v11 * wx * wy

/-- The same four weighted corners added one at a time onto a running sum `acc`, each corner
    times the product of its two weights. -/
def blendOnto (u acc v00 v01 v10 v11 wx wy : EReal) : EReal :=
  (((acc + v00 * ((u - wx) * (u - wy))) + v01 * (wx * (u - wy))) + v10 * ((u - wx) * wy)) + v11 * (wx * wy)

/-- Adding a level onto a running sum is the running sum plus the level. -/
theorem blendOnto_eq (u acc v00 v01 v10 v11 wx wy : EReal) :
    blendOnto u acc v00 v01 v10 v11 wx wy = acc + blend u v00 v01 v10 v11 wx wy := by
  unfold blendOnto blend
  simp only [mul_assoc, add_assoc]

/-- Four levels added in turn onto zero are the four levels summed left to right. -/
theorem four_levels (u : EReal)
    (a00 a01 a10 a11 ax ay b00 b01 b10 b11 bx by' c00 c01 c10 c11 cx cy d00 d01 d10 d11 dx dy : EReal) :
    blendOnto u (blendOnto u (blendOnto u (blendOnto u 0 a00 a01 a10 a11 ax ay) b00 b01 b10 b11 bx by')
        c00 c01 c10 c11 cx cy) d00 d01 d10 d11 dx dy
      = ((blend u a00 a01 a10 a11 ax ay + blend u b00 b01 b10 b11 bx by') + blend u c00 c01 c10 c11 cx cy)
          + blend u d00 d01 d10 d11 dx dy := by
  rw [blendOnto_eq, blendOnto_eq, blendOnto_eq, blendOnto_eq, zero_add]

/-- Twenty-four arrays over one index type — the corners `a0 … a15`, four per level, and the weight pairs
    `a16 … a23`, two per level — blended element by element, each level added in turn onto zero. -/
def blendOntoAll {ι : Type} (u : EReal) (a0 a1 a2 a3 a4 a5 a6 a7 a8 a9 a10 a11 a12 a13 a14 a15 a16 a17 a18 a19 a20 a21 a22 a23 : ι → EReal) : ι → EReal := fun i =>
  blendOnto u (blendOnto u (blendOnto u (blendOnto u 0 (a0 i) (a1 i) (a2 i) (a3 i) (a16 i) (a17 i)) (a4 i) (a5 i) (a6 i) (a7 i) (a18 i) (a19 i)) (a8 i) (a9 i) (a10 i) (a11 i) (a20 i) (a21 i)) (a12 i) (a13 i) (a14 i) (a15 i) (a22 i) (a23 i)

/-- The same twenty-four arrays, each level blended on its own and the four levels summed left to right. -/
def blendSumAll {ι : Type} (u : EReal) (a0 a1 a2 a3 a4 a5 a6 a7 a8 a9 a10 a11 a12 a13 a14 a15 a16 a17 a18 a19 a20 a21 a22 a23 : ι → EReal) : ι → EReal := fun i =>
  ((blend u (a0 i) (a1 i) (a2 i) (a3 i) (a16 i) (a17 i) + blend u (a4 i) (a5 i) (a6 i) (a7 i) (a18 i) (a19 i)) + blend u (a8 i) (a9 i) (a10 i) (a11 i) (a20 i) (a21 i)) + blend u (a12 i) (a13 i) (a14 i) (a15 i) (a22 i) (a23 i)

/-- The two arrangements are one array. -/
theorem blendOntoAll_eq_blendSumAll {ι : Type} (u : EReal) (a0 a1 a2 a3 a4 a5 a6 a7 a8 a9 a10 a11 a12 a13 a14 a15 a16 a17 a18 a19 a20 a21 a22 a23 : ι → EReal) :
    blendOntoAll u a0 a1 a2 a3 a4 a5 a6 a7 a8 a9 a10 a11 a12 a13 a14 a15 a16 a17 a18 a19 a20 a21 a22 a23 = blendSumAll u a0 a1 a2 a3 a4 a5 a6 a7 a8 a9 a10 a11 a12 a13 a14 a15 a16 a17 a18 a19 a20 a21 a22 a23 :=
  funext fun _ => four_levels u _ _ _ _ _ _ _ _ _ _ _ _ _ _ _ _ _ _ _ _ _ _ _ _

end Cert.Blend

end
-- ==== Proof.BlendPayload.lean ====
/-
  What the kernel body stores, read at one element.

  The body loads the sixteen corner blocks and the eight weight blocks of its grid point, starts a sum at zero and adds,
  level after level, the four corners of the level, each multiplied by the product of its two bilinear weights
  (weights `w` and `1 - w`).  Every operation is pointwise, so the stored block read at an element `y` is that chain of
  four `blendOnto` steps on the loaded blocks' entries at `y`.
-/
import proofs.«168991_j26474178413071_1_alg».proof.Proof.Gen.KernelIdeal.Skeleton
import proofs.«168991_j26474178413071_1_alg».proof.Proof.BlendAlgebra
import Idealize.ShloMosaic.PureOps.Ideal.Laws
import Idealize.ShloMosaic.Lib.Pipeline.Value

noncomputable section

namespace Cert.KernelIdeal.BlendValue

open Cert.KernelIdeal Cert.KernelIdeal.Gen Idealize.ShloMosaic Cert.Blend

/-- The extended real the word of `1.0` denotes: the unit the weights are complemented in. -/
abbrev one : EReal := Ideal.ofBits .f32 0x3F800000#32

/-- The stored value at element `y`: four levels blended onto zero, from the loaded blocks' entries at `y`
    (blocks 0–15 the corners, level by level; blocks 16–23 the weight pairs, level by level). -/
theorem payload_apply (x0 x1 x2 x3 x4 x5 x6 x7 x8 x9 x10 x11 x12 x13 x14 x15 x16 x17 x18 x19 x20 x21 x22 x23 : Vec Ideal S8x16x1024 .f32) (y : S8x16x1024.Idx) :
    k0_pay1 (F := Ideal) (k0_pay5 (k0_pay3 (k0_pay2 x0 x1 x2 x3 x16 x17) x4 x5 x6 x7 x18 x19) (k0_pay4 x8) x9 x10 x11 x20 x21)
        (k0_pay6 x12) (k0_pay7 x13) (k0_pay8 x14) x15 x22 x23 y
      = blendOnto one (blendOnto one (blendOnto one (blendOnto one 0 (x0 y) (x1 y) (x2 y) (x3 y) (x16 y) (x17 y)) (x4 y) (x5 y) (x6 y) (x7 y) (x18 y) (x19 y)) (x8 y) (x9 y) (x10 y) (x11 y) (x20 y) (x21 y)) (x12 y) (x13 y) (x14 y) (x15 y) (x22 y) (x23 y) := by
  unfold k0_pay1 k0_pay5 k0_pay3 k0_pay2 k0_pay4 k0_pay6 k0_pay7 k0_pay8
  simp only [shapeCast_self]
  rw [← Ideal.ofBits_zero_f32]
  rfl

/-- The same, with the loaded blocks' entries at `y` given by equations: the form a caller uses when the blocks are
    windows' blocks, whose entries it knows by name. -/
theorem payload_apply_of (x0 x1 x2 x3 x4 x5 x6 x7 x8 x9 x10 x11 x12 x13 x14 x15 x16 x17 x18 x19 x20 x21 x22 x23 : Vec Ideal S8x16x1024 .f32) (y : S8x16x1024.Idx)
    {v0 v1 v2 v3 v4 v5 v6 v7 v8 v9 v10 v11 v12 v13 v14 v15 v16 v17 v18 v19 v20 v21 v22 v23 : EReal}
    (h0 : x0 y = v0) (h1 : x1 y = v1) (h2 : x2 y = v2) (h3 : x3 y = v3) (h4 : x4 y = v4) (h5 : x5 y = v5) (h6 : x6 y = v6) (h7 : x7 y = v7) (h8 : x8 y = v8) (h9 : x9 y = v9) (h10 : x10 y = v10) (h11 : x11 y = v11) (h12 : x12 y = v12) (h13 : x13 y = v13) (h14 : x14 y = v14) (h15 : x15 y = v15) (h16 : x16 y = v16) (h17 : x17 y = v17) (h18 : x18 y = v18) (h19 : x19 y = v19) (h20 : x20 y = v20) (h21 : x21 y = v21) (h22 : x22 y = v22) (h23 : x23 y = v23) :
    k0_pay1 (F := Ideal) (k0_pay5 (k0_pay3 (k0_pay2 x0 x1 x2 x3 x16 x17) x4 x5 x6 x7 x18 x19) (k0_pay4 x8) x9 x10 x11 x20 x21)
        (k0_pay6 x12) (k0_pay7 x13) (k0_pay8 x14) x15 x22 x23 y
      = blendOnto one (blendOnto one (blendOnto one (blendOnto one 0 v0 v1 v2 v3 v16 v17) v4 v5 v6 v7 v18 v19) v8 v9 v10 v11 v20 v21) v12 v13 v14 v15 v22 v23 := by
  subst h0 h1 h2 h3 h4 h5 h6 h7 h8 h9 h10 h11 h12 h13 h14 h15 h16 h17 h18 h19 h20 h21 h22 h23
  exact payload_apply x0 x1 x2 x3 x4 x5 x6 x7 x8 x9 x10 x11 x12 x13 x14 x15 x16 x17 x18 x19 x20 x21 x22 x23 y

end Cert.KernelIdeal.BlendValue

end
-- ==== Proof.KernelValue.lean ====
/-
  The kernel's result array, as one function of the twenty-four arrays its windows stage.

  The grid has 64 points; point `t` takes rows `16 t … 16 t + 15` (second axis) of every array, all batches and all columns,
  and writes back the same rows of the result.  All twenty-five windows move together, so an element of the output block
  depends on the elements of the input blocks at the same place, and the blocks of the 64 points tile the result: the
  result array is the element-by-element blend of the twenty-four arrays.  The program then inserts a unit axis.
-/
import proofs.«168991_j26474178413071_1_alg».proof.Proof.KernelIdealFramePatched
import proofs.«168991_j26474178413071_1_alg».proof.Proof.BlendPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.BlendValue

open Cert.KernelIdeal Cert.KernelIdeal.Gen Cert.KernelIdeal.GenP Cert.Blend

variable (m : (ℓ : Loc nD τ sig) → Buf (Elt Ideal) ℓ) (ρ : Dev nD → PrngReg)

theorem hz : (![0, 0, 0] : Fin 3 → Nat) = fun _ => 0 := funext fun a => by fin_cases a <;> rfl

/-! ## Where each window's block sits: block `(0, t, 0)` at point `t`, for every window -/

theorem idx_0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx_2 : ∀ t : Fin cfg0.N, win0_2.index t (0 : Fin 3) = 0 ∧ win0_2.index t (1 : Fin 3) = t.val ∧ win0_2.index t (2 : Fin 3) = 0 :=
  (by decide +kernel : ∀ t : Fin grid0.N, _)
theorem idx_3 : ∀ t : Fin cfg0.N, win0_3.index t (0 : Fin 3) = 0 ∧ win0_3.index t (1 : Fin 3) = t.val ∧ win0_3.index t (2 : Fin 3) = 0 :=
  (by decide +kernel : ∀ t : Fin grid0.N, _)
theorem idx_4 : ∀ t : Fin cfg0.N, win0_4.index t (0 : Fin 3) = 0 ∧ win0_4.index t (1 : Fin 3) = t.val ∧ win0_4.index t (2 : Fin 3) = 0 :=
  (by decide +kernel : ∀ t : Fin grid0.N, _)
theorem idx_5 : ∀ t : Fin cfg0.N, win0_5.index t (0 : Fin 3) = 0 ∧ win0_5.index t (1 : Fin 3) = t.val ∧ win0_5.index t (2 : Fin 3) = 0 :=
  (by decide +kernel : ∀ t : Fin grid0.N, _)
theorem idx_6 : ∀ t : Fin cfg0.N, win0_6.index t (0 : Fin 3) = 0 ∧ win0_6.index t (1 : Fin 3) = t.val ∧ win0_6.index t (2 : Fin 3) = 0 :=
  (by decide +kernel : ∀ t : Fin grid0.N, _)
theorem idx_7 : ∀ t : Fin cfg0.N, win0_7.index t (0 : Fin 3) = 0 ∧ win0_7.index t (1 : Fin 3) = t.val ∧ win0_7.index t (2 : Fin 3) = 0 :=
  (by decide +kernel : ∀ t : Fin grid0.N, _)
theorem idx_8 : ∀ t : Fin cfg0.N, win0_8.index t (0 : Fin 3) = 0 ∧ win0_8.index t (1 : Fin 3) = t.val ∧ win0_8.index t (2 : Fin 3) = 0 :=
  (by decide +kernel : ∀ t : Fin grid0.N, _)
theorem idx_9 : ∀ t : Fin cfg0.N, win0_9.index t (0 : Fin 3) = 0 ∧ win0_9.index t (1 : Fin 3) = t.val ∧ win0_9.index t (2 : Fin 3) = 0 :=
  (by decide +kernel : ∀ t : Fin grid0.N, _)
theorem idx_10 : ∀ t : Fin cfg0.N, win0_10.index t (0 : Fin 3) = 0 ∧ win0_10.index t (1 : Fin 3) = t.val ∧ win0_10.index t (2 : Fin 3) = 0 :=
  (by decide +kernel : ∀ t : Fin grid0.N, _)
theorem idx_11 : ∀ t : Fin cfg0.N, win0_11.index t (0 : Fin 3) = 0 ∧ win0_11.index t (1 : Fin 3) = t.val ∧ win0_11.index t (2 : Fin 3) = 0 :=
  (by decide +kernel : ∀ t : Fin grid0.N, _)
theorem idx_12 : ∀ t : Fin cfg0.N, win0_12.index t (0 : Fin 3) = 0 ∧ win0_12.index t (1 : Fin 3) = t.val ∧ win0_12.index t (2 : Fin 3) = 0 :=
  (by decide +kernel : ∀ t : Fin grid0.N, _)
theorem idx_13 : ∀ t : Fin cfg0.N, win0_13.index t (0 : Fin 3) = 0 ∧ win0_13.index t (1 : Fin 3) = t.val ∧ win0_13.index t (2 : Fin 3) = 0 :=
  (by decide +kernel : ∀ t : Fin grid0.N, _)
theorem idx_14 : ∀ t : Fin cfg0.N, win0_14.index t (0 : Fin 3) = 0 ∧ win0_14.index t (1 : Fin 3) = t.val ∧ win0_14.index t (2 : Fin 3) = 0 :=
  (by decide +kernel : ∀ t : Fin grid0.N, _)
theorem idx_15 : ∀ t : Fin cfg0.N, win0_15.index t (0 : Fin 3) = 0 ∧ win0_15.index t (1 : Fin 3) = t.val ∧ win0_15.index t (2 : Fin 3) = 0 :=
  (by decide +kernel : ∀ t : Fin grid0.N, _)
theorem idx_16 : ∀ t : Fin cfg0.N, win0_16.index t (0 : Fin 3) = 0 ∧ win0_16.index t (1 : Fin 3) = t.val ∧ win0_16.index t (2 : Fin 3) = 0 :=
  (by decide +kernel : ∀ t : Fin grid0.N, _)
theorem idx_17 : ∀ t : Fin cfg0.N, win0_17.index t (0 : Fin 3) = 0 ∧ win0_17.index t (1 : Fin 3) = t.val ∧ win0_17.index t (2 : Fin 3) = 0 :=
  (by decide +kernel : ∀ t : Fin grid0.N, _)
theorem idx_18 : ∀ t : Fin cfg0.N, win0_18.index t (0 : Fin 3) = 0 ∧ win0_18.index t (1 : Fin 3) = t.val ∧ win0_18.index t (2 : Fin 3) = 0 :=
  (by decide +kernel : ∀ t : Fin grid0.N, _)
theorem idx_19 : ∀ t : Fin cfg0.N, win0_19.index t (0 : Fin 3) = 0 ∧ win0_19.index t (1 : Fin 3) = t.val ∧ win0_19.index t (2 : Fin 3) = 0 :=
  (by decide +kernel : ∀ t : Fin grid0.N, _)
theorem idx_20 : ∀ t : Fin cfg0.N, win0_20.index t (0 : Fin 3) = 0 ∧ win0_20.index t (1 : Fin 3) = t.val ∧ win0_20.index t (2 : Fin 3) = 0 :=
  (by decide +kernel : ∀ t : Fin grid0.N, _)
theorem idx_21 : ∀ t : Fin cfg0.N, win0_21.index t (0 : Fin 3) = 0 ∧ win0_21.index t (1 : Fin 3) = t.val ∧ win0_21.index t (2 : Fin 3) = 0 :=
  (by decide +kernel : ∀ t : Fin grid0.N, _)
theorem idx_22 : ∀ t : Fin cfg0.N, win0_22.index t (0 : Fin 3) = 0 ∧ win0_22.index t (1 : Fin 3) = t.val ∧ win0_22.index t (2 : Fin 3) = 0 :=
  (by decide +kernel : ∀ t : Fin grid0.N, _)
theorem idx_23 : ∀ t : Fin cfg0.N, win0_23.index t (0 : Fin 3) = 0 ∧ win0_23.index t (1 : Fin 3) = t.val ∧ win0_23.index t (2 : Fin 3) = 0 :=
  (by decide +kernel : ∀ t : Fin grid0.N, _)
theorem idx_24 : ∀ t : Fin cfg0.N, win0_24.index t (0 : Fin 3) = 0 ∧ win0_24.index t (1 : Fin 3) = t.val ∧ win0_24.index t (2 : Fin 3) = 0 :=
  (by decide +kernel : ∀ t : Fin grid0.N, _)

/-! ## Each input block read at an element -/

theorem emb_0 (t : Fin cfg0.N) (j : S8x16x1024.Idx) :
    ((cfg0.win 0).blk t).view.emb j = ((cfg0.win 24).blk t).view.emb j := by
  obtain ⟨p0, p1, p2⟩ := idx_0 t
  obtain ⟨q0, q1, q2⟩ := idx_24 t
  funext a; apply Fin.ext
  match a with
  | ⟨0, _⟩ => show win0_0.index t (0 : Fin 3) * 8 + 1 * (j 0).val = win0_24.index t (0 : Fin 3) * 8 + 1 * (j 0).val; rw [p0, q0]
  | ⟨1, _⟩ => show win0_0.index t (1 : Fin 3) * 16 + 1 * (j 1).val = win0_24.index t (1 : Fin 3) * 16 + 1 * (j 1).val; rw [p1, q1]
  | ⟨2, _⟩ => show win0_0.index t (2 : Fin 3) * 1024 + 1 * (j 2).val = win0_24.index t (2 : Fin 3) * 1024 + 1 * (j 2).val; rw [p2, q2]

/-- Input window 0's block at point `t`, read at `j`: the window's array at the output block's index of `j`. -/
theorem iblk_0 (c : Dev nD) (t : Fin cfg0.N) (j : S8x16x1024.Idx) :
    iblk m c 0 t j = V m c (Pipeline.arrRef spec0 0) (((cfg0.win 24).blk t).view.emb j) := by
  unfold iblk
  rw [View.read_apply, emb_0]
  exact cast_eq _ _

theorem emb_1 (t : Fin cfg0.N) (j : S8x16x1024.Idx) :
    ((cfg0.win 1).blk t).view.emb j = ((cfg0.win 24).blk t).view.emb j := by
  obtain ⟨p0, p1, p2⟩ := idx_1 t
  obtain ⟨q0, q1, q2⟩ := idx_24 t
  funext a; apply Fin.ext
  match a with
  | ⟨0, _⟩ => show win0_1.index t (0 : Fin 3) * 8 + 1 * (j 0).val = win0_24.index t (0 : Fin 3) * 8 + 1 * (j 0).val; rw [p0, q0]
  | ⟨1, _⟩ => show win0_1.index t (1 : Fin 3) * 16 + 1 * (j 1).val = win0_24.index t (1 : Fin 3) * 16 + 1 * (j 1).val; rw [p1, q1]
  | ⟨2, _⟩ => show win0_1.index t (2 : Fin 3) * 1024 + 1 * (j 2).val = win0_24.index t (2 : Fin 3) * 1024 + 1 * (j 2).val; rw [p2, q2]

/-- Input window 1's block at point `t`, read at `j`: the window's array at the output block's index of `j`. -/
theorem iblk_1 (c : Dev nD) (t : Fin cfg0.N) (j : S8x16x1024.Idx) :
    iblk m c 1 t j = V m c (Pipeline.arrRef spec0 1) (((cfg0.win 24).blk t).view.emb j) := by
  unfold iblk
  rw [View.read_apply, emb_1]
  exact cast_eq _ _

theorem emb_2 (t : Fin cfg0.N) (j : S8x16x1024.Idx) :
    ((cfg0.win 2).blk t).view.emb j = ((cfg0.win 24).blk t).view.emb j := by
  obtain ⟨p0, p1, p2⟩ := idx_2 t
  obtain ⟨q0, q1, q2⟩ := idx_24 t
  funext a; apply Fin.ext
  match a with
  | ⟨0, _⟩ => show win0_2.index t (0 : Fin 3) * 8 + 1 * (j 0).val = win0_24.index t (0 : Fin 3) * 8 + 1 * (j 0).val; rw [p0, q0]
  | ⟨1, _⟩ => show win0_2.index t (1 : Fin 3) * 16 + 1 * (j 1).val = win0_24.index t (1 : Fin 3) * 16 + 1 * (j 1).val; rw [p1, q1]
  | ⟨2, _⟩ => show win0_2.index t (2 : Fin 3) * 1024 + 1 * (j 2).val = win0_24.index t (2 : Fin 3) * 1024 + 1 * (j 2).val; rw [p2, q2]

/-- Input window 2's block at point `t`, read at `j`: the window's array at the output block's index of `j`. -/
theorem iblk_2 (c : Dev nD) (t : Fin cfg0.N) (j : S8x16x1024.Idx) :
    iblk m c 2 t j = V m c (Pipeline.arrRef spec0 2) (((cfg0.win 24).blk t).view.emb j) := by
  unfold iblk
  rw [View.read_apply, emb_2]
  exact cast_eq _ _

theorem emb_3 (t : Fin cfg0.N) (j : S8x16x1024.Idx) :
    ((cfg0.win 3).blk t).view.emb j = ((cfg0.win 24).blk t).view.emb j := by
  obtain ⟨p0, p1, p2⟩ := idx_3 t
  obtain ⟨q0, q1, q2⟩ := idx_24 t
  funext a; apply Fin.ext
  match a with
  | ⟨0, _⟩ => show win0_3.index t (0 : Fin 3) * 8 + 1 * (j 0).val = win0_24.index t (0 : Fin 3) * 8 + 1 * (j 0).val; rw [p0, q0]
  | ⟨1, _⟩ => show win0_3.index t (1 : Fin 3) * 16 + 1 * (j 1).val = win0_24.index t (1 : Fin 3) * 16 + 1 * (j 1).val; rw [p1, q1]
  | ⟨2, _⟩ => show win0_3.index t (2 : Fin 3) * 1024 + 1 * (j 2).val = win0_24.index t (2 : Fin 3) * 1024 + 1 * (j 2).val; rw [p2, q2]

/-- Input window 3's block at point `t`, read at `j`: the window's array at the output block's index of `j`. -/
theorem iblk_3 (c : Dev nD) (t : Fin cfg0.N) (j : S8x16x1024.Idx) :
    iblk m c 3 t j = V m c (Pipeline.arrRef spec0 3) (((cfg0.win 24).blk t).view.emb j) := by
  unfold iblk
  rw [View.read_apply, emb_3]
  exact cast_eq _ _

theorem emb_4 (t : Fin cfg0.N) (j : S8x16x1024.Idx) :
    ((cfg0.win 4).blk t).view.emb j = ((cfg0.win 24).blk t).view.emb j := by
  obtain ⟨p0, p1, p2⟩ := idx_4 t
  obtain ⟨q0, q1, q2⟩ := idx_24 t
  funext a; apply Fin.ext
  match a with
  | ⟨0, _⟩ => show win0_4.index t (0 : Fin 3) * 8 + 1 * (j 0).val = win0_24.index t (0 : Fin 3) * 8 + 1 * (j 0).val; rw [p0, q0]
  | ⟨1, _⟩ => show win0_4.index t (1 : Fin 3) * 16 + 1 * (j 1).val = win0_24.index t (1 : Fin 3) * 16 + 1 * (j 1).val; rw [p1, q1]
  | ⟨2, _⟩ => show win0_4.index t (2 : Fin 3) * 1024 + 1 * (j 2).val = win0_24.index t (2 : Fin 3) * 1024 + 1 * (j 2).val; rw [p2, q2]

/-- Input window 4's block at point `t`, read at `j`: the window's array at the output block's index of `j`. -/
theorem iblk_4 (c : Dev nD) (t : Fin cfg0.N) (j : S8x16x1024.Idx) :
    iblk m c 4 t j = V m c (Pipeline.arrRef spec0 4) (((cfg0.win 24).blk t).view.emb j) := by
  unfold iblk
  rw [View.read_apply, emb_4]
  exact cast_eq _ _

theorem emb_5 (t : Fin cfg0.N) (j : S8x16x1024.Idx) :
    ((cfg0.win 5).blk t).view.emb j = ((cfg0.win 24).blk t).view.emb j := by
  obtain ⟨p0, p1, p2⟩ := idx_5 t
  obtain ⟨q0, q1, q2⟩ := idx_24 t
  funext a; apply Fin.ext
  match a with
  | ⟨0, _⟩ => show win0_5.index t (0 : Fin 3) * 8 + 1 * (j 0).val = win0_24.index t (0 : Fin 3) * 8 + 1 * (j 0).val; rw [p0, q0]
  | ⟨1, _⟩ => show win0_5.index t (1 : Fin 3) * 16 + 1 * (j 1).val = win0_24.index t (1 : Fin 3) * 16 + 1 * (j 1).val; rw [p1, q1]
  | ⟨2, _⟩ => show win0_5.index t (2 : Fin 3) * 1024 + 1 * (j 2).val = win0_24.index t (2 : Fin 3) * 1024 + 1 * (j 2).val; rw [p2, q2]

/-- Input window 5's block at point `t`, read at `j`: the window's array at the output block's index of `j`. -/
theorem iblk_5 (c : Dev nD) (t : Fin cfg0.N) (j : S8x16x1024.Idx) :
    iblk m c 5 t j = V m c (Pipeline.arrRef spec0 5) (((cfg0.win 24).blk t).view.emb j) := by
  unfold iblk
  rw [View.read_apply, emb_5]
  exact cast_eq _ _

theorem emb_6 (t : Fin cfg0.N) (j : S8x16x1024.Idx) :
    ((cfg0.win 6).blk t).view.emb j = ((cfg0.win 24).blk t).view.emb j := by
  obtain ⟨p0, p1, p2⟩ := idx_6 t
  obtain ⟨q0, q1, q2⟩ := idx_24 t
  funext a; apply Fin.ext
  match a with
  | ⟨0, _⟩ => show win0_6.index t (0 : Fin 3) * 8 + 1 * (j 0).val = win0_24.index t (0 : Fin 3) * 8 + 1 * (j 0).val; rw [p0, q0]
  | ⟨1, _⟩ => show win0_6.index t (1 : Fin 3) * 16 + 1 * (j 1).val = win0_24.index t (1 : Fin 3) * 16 + 1 * (j 1).val; rw [p1, q1]
  | ⟨2, _⟩ => show win0_6.index t (2 : Fin 3) * 1024 + 1 * (j 2).val = win0_24.index t (2 : Fin 3) * 1024 + 1 * (j 2).val; rw [p2, q2]

/-- Input window 6's block at point `t`, read at `j`: the window's array at the output block's index of `j`. -/
theorem iblk_6 (c : Dev nD) (t : Fin cfg0.N) (j : S8x16x1024.Idx) :
    iblk m c 6 t j = V m c (Pipeline.arrRef spec0 6) (((cfg0.win 24).blk t).view.emb j) := by
  unfold iblk
  rw [View.read_apply, emb_6]
  exact cast_eq _ _

theorem emb_7 (t : Fin cfg0.N) (j : S8x16x1024.Idx) :
    ((cfg0.win 7).blk t).view.emb j = ((cfg0.win 24).blk t).view.emb j := by
  obtain ⟨p0, p1, p2⟩ := idx_7 t
  obtain ⟨q0, q1, q2⟩ := idx_24 t
  funext a; apply Fin.ext
  match a with
  | ⟨0, _⟩ => show win0_7.index t (0 : Fin 3) * 8 + 1 * (j 0).val = win0_24.index t (0 : Fin 3) * 8 + 1 * (j 0).val; rw [p0, q0]
  | ⟨1, _⟩ => show win0_7.index t (1 : Fin 3) * 16 + 1 * (j 1).val = win0_24.index t (1 : Fin 3) * 16 + 1 * (j 1).val; rw [p1, q1]
  | ⟨2, _⟩ => show win0_7.index t (2 : Fin 3) * 1024 + 1 * (j 2).val = win0_24.index t (2 : Fin 3) * 1024 + 1 * (j 2).val; rw [p2, q2]

/-- Input window 7's block at point `t`, read at `j`: the window's array at the output block's index of `j`. -/
theorem iblk_7 (c : Dev nD) (t : Fin cfg0.N) (j : S8x16x1024.Idx) :
    iblk m c 7 t j = V m c (Pipeline.arrRef spec0 7) (((cfg0.win 24).blk t).view.emb j) := by
  unfold iblk
  rw [View.read_apply, emb_7]
  exact cast_eq _ _

theorem emb_8 (t : Fin cfg0.N) (j : S8x16x1024.Idx) :
    ((cfg0.win 8).blk t).view.emb j = ((cfg0.win 24).blk t).view.emb j := by
  obtain ⟨p0, p1, p2⟩ := idx_8 t
  obtain ⟨q0, q1, q2⟩ := idx_24 t
  funext a; apply Fin.ext
  match a with
  | ⟨0, _⟩ => show win0_8.index t (0 : Fin 3) * 8 + 1 * (j 0).val = win0_24.index t (0 : Fin 3) * 8 + 1 * (j 0).val; rw [p0, q0]
  | ⟨1, _⟩ => show win0_8.index t (1 : Fin 3) * 16 + 1 * (j 1).val = win0_24.index t (1 : Fin 3) * 16 + 1 * (j 1).val; rw [p1, q1]
  | ⟨2, _⟩ => show win0_8.index t (2 : Fin 3) * 1024 + 1 * (j 2).val = win0_24.index t (2 : Fin 3) * 1024 + 1 * (j 2).val; rw [p2, q2]

/-- Input window 8's block at point `t`, read at `j`: the window's array at the output block's index of `j`. -/
theorem iblk_8 (c : Dev nD) (t : Fin cfg0.N) (j : S8x16x1024.Idx) :
    iblk m c 8 t j = V m c (Pipeline.arrRef spec0 8) (((cfg0.win 24).blk t).view.emb j) := by
  unfold iblk
  rw [View.read_apply, emb_8]
  exact cast_eq _ _

theorem emb_9 (t : Fin cfg0.N) (j : S8x16x1024.Idx) :
    ((cfg0.win 9).blk t).view.emb j = ((cfg0.win 24).blk t).view.emb j := by
  obtain ⟨p0, p1, p2⟩ := idx_9 t
  obtain ⟨q0, q1, q2⟩ := idx_24 t
  funext a; apply Fin.ext
  match a with
  | ⟨0, _⟩ => show win0_9.index t (0 : Fin 3) * 8 + 1 * (j 0).val = win0_24.index t (0 : Fin 3) * 8 + 1 * (j 0).val; rw [p0, q0]
  | ⟨1, _⟩ => show win0_9.index t (1 : Fin 3) * 16 + 1 * (j 1).val = win0_24.index t (1 : Fin 3) * 16 + 1 * (j 1).val; rw [p1, q1]
  | ⟨2, _⟩ => show win0_9.index t (2 : Fin 3) * 1024 + 1 * (j 2).val = win0_24.index t (2 : Fin 3) * 1024 + 1 * (j 2).val; rw [p2, q2]

/-- Input window 9's block at point `t`, read at `j`: the window's array at the output block's index of `j`. -/
theorem iblk_9 (c : Dev nD) (t : Fin cfg0.N) (j : S8x16x1024.Idx) :
    iblk m c 9 t j = V m c (Pipeline.arrRef spec0 9) (((cfg0.win 24).blk t).view.emb j) := by
  unfold iblk
  rw [View.read_apply, emb_9]
  exact cast_eq _ _

theorem emb_10 (t : Fin cfg0.N) (j : S8x16x1024.Idx) :
    ((cfg0.win 10).blk t).view.emb j = ((cfg0.win 24).blk t).view.emb j := by
  obtain ⟨p0, p1, p2⟩ := idx_10 t
  obtain ⟨q0, q1, q2⟩ := idx_24 t
  funext a; apply Fin.ext
  match a with
  | ⟨0, _⟩ => show win0_10.index t (0 : Fin 3) * 8 + 1 * (j 0).val = win0_24.index t (0 : Fin 3) * 8 + 1 * (j 0).val; rw [p0, q0]
  | ⟨1, _⟩ => show win0_10.index t (1 : Fin 3) * 16 + 1 * (j 1).val = win0_24.index t (1 : Fin 3) * 16 + 1 * (j 1).val; rw [p1, q1]
  | ⟨2, _⟩ => show win0_10.index t (2 : Fin 3) * 1024 + 1 * (j 2).val = win0_24.index t (2 : Fin 3) * 1024 + 1 * (j 2).val; rw [p2, q2]

/-- Input window 10's block at point `t`, read at `j`: the window's array at the output block's index of `j`. -/
theorem iblk_10 (c : Dev nD) (t : Fin cfg0.N) (j : S8x16x1024.Idx) :
    iblk m c 10 t j = V m c (Pipeline.arrRef spec0 10) (((cfg0.win 24).blk t).view.emb j) := by
  unfold iblk
  rw [View.read_apply, emb_10]
  exact cast_eq _ _

theorem emb_11 (t : Fin cfg0.N) (j : S8x16x1024.Idx) :
    ((cfg0.win 11).blk t).view.emb j = ((cfg0.win 24).blk t).view.emb j := by
  obtain ⟨p0, p1, p2⟩ := idx_11 t
  obtain ⟨q0, q1, q2⟩ := idx_24 t
  funext a; apply Fin.ext
  match a with
  | ⟨0, _⟩ => show win0_11.index t (0 : Fin 3) * 8 + 1 * (j 0).val = win0_24.index t (0 : Fin 3) * 8 + 1 * (j 0).val; rw [p0, q0]
  | ⟨1, _⟩ => show win0_11.index t (1 : Fin 3) * 16 + 1 * (j 1).val = win0_24.index t (1 : Fin 3) * 16 + 1 * (j 1).val; rw [p1, q1]
  | ⟨2, _⟩ => show win0_11.index t (2 : Fin 3) * 1024 + 1 * (j 2).val = win0_24.index t (2 : Fin 3) * 1024 + 1 * (j 2).val; rw [p2, q2]

/-- Input window 11's block at point `t`, read at `j`: the window's array at the output block's index of `j`. -/
theorem iblk_11 (c : Dev nD) (t : Fin cfg0.N) (j : S8x16x1024.Idx) :
    iblk m c 11 t j = V m c (Pipeline.arrRef spec0 11) (((cfg0.win 24).blk t).view.emb j) := by
  unfold iblk
  rw [View.read_apply, emb_11]
  exact cast_eq _ _

theorem emb_12 (t : Fin cfg0.N) (j : S8x16x1024.Idx) :
    ((cfg0.win 12).blk t).view.emb j = ((cfg0.win 24).blk t).view.emb j := by
  obtain ⟨p0, p1, p2⟩ := idx_12 t
  obtain ⟨q0, q1, q2⟩ := idx_24 t
  funext a; apply Fin.ext
  match a with
  | ⟨0, _⟩ => show win0_12.index t (0 : Fin 3) * 8 + 1 * (j 0).val = win0_24.index t (0 : Fin 3) * 8 + 1 * (j 0).val; rw [p0, q0]
  | ⟨1, _⟩ => show win0_12.index t (1 : Fin 3) * 16 + 1 * (j 1).val = win0_24.index t (1 : Fin 3) * 16 + 1 * (j 1).val; rw [p1, q1]
  | ⟨2, _⟩ => show win0_12.index t (2 : Fin 3) * 1024 + 1 * (j 2).val = win0_24.index t (2 : Fin 3) * 1024 + 1 * (j 2).val; rw [p2, q2]

/-- Input window 12's block at point `t`, read at `j`: the window's array at the output block's index of `j`. -/
theorem iblk_12 (c : Dev nD) (t : Fin cfg0.N) (j : S8x16x1024.Idx) :
    iblk m c 12 t j = V m c (Pipeline.arrRef spec0 12) (((cfg0.win 24).blk t).view.emb j) := by
  unfold iblk
  rw [View.read_apply, emb_12]
  exact cast_eq _ _

theorem emb_13 (t : Fin cfg0.N) (j : S8x16x1024.Idx) :
    ((cfg0.win 13).blk t).view.emb j = ((cfg0.win 24).blk t).view.emb j := by
  obtain ⟨p0, p1, p2⟩ := idx_13 t
  obtain ⟨q0, q1, q2⟩ := idx_24 t
  funext a; apply Fin.ext
  match a with
  | ⟨0, _⟩ => show win0_13.index t (0 : Fin 3) * 8 + 1 * (j 0).val = win0_24.index t (0 : Fin 3) * 8 + 1 * (j 0).val; rw [p0, q0]
  | ⟨1, _⟩ => show win0_13.index t (1 : Fin 3) * 16 + 1 * (j 1).val = win0_24.index t (1 : Fin 3) * 16 + 1 * (j 1).val; rw [p1, q1]
  | ⟨2, _⟩ => show win0_13.index t (2 : Fin 3) * 1024 + 1 * (j 2).val = win0_24.index t (2 : Fin 3) * 1024 + 1 * (j 2).val; rw [p2, q2]

/-- Input window 13's block at point `t`, read at `j`: the window's array at the output block's index of `j`. -/
theorem iblk_13 (c : Dev nD) (t : Fin cfg0.N) (j : S8x16x1024.Idx) :
    iblk m c 13 t j = V m c (Pipeline.arrRef spec0 13) (((cfg0.win 24).blk t).view.emb j) := by
  unfold iblk
  rw [View.read_apply, emb_13]
  exact cast_eq _ _

theorem emb_14 (t : Fin cfg0.N) (j : S8x16x1024.Idx) :
    ((cfg0.win 14).blk t).view.emb j = ((cfg0.win 24).blk t).view.emb j := by
  obtain ⟨p0, p1, p2⟩ := idx_14 t
  obtain ⟨q0, q1, q2⟩ := idx_24 t
  funext a; apply Fin.ext
  match a with
  | ⟨0, _⟩ => show win0_14.index t (0 : Fin 3) * 8 + 1 * (j 0).val = win0_24.index t (0 : Fin 3) * 8 + 1 * (j 0).val; rw [p0, q0]
  | ⟨1, _⟩ => show win0_14.index t (1 : Fin 3) * 16 + 1 * (j 1).val = win0_24.index t (1 : Fin 3) * 16 + 1 * (j 1).val; rw [p1, q1]
  | ⟨2, _⟩ => show win0_14.index t (2 : Fin 3) * 1024 + 1 * (j 2).val = win0_24.index t (2 : Fin 3) * 1024 + 1 * (j 2).val; rw [p2, q2]

/-- Input window 14's block at point `t`, read at `j`: the window's array at the output block's index of `j`. -/
theorem iblk_14 (c : Dev nD) (t : Fin cfg0.N) (j : S8x16x1024.Idx) :
    iblk m c 14 t j = V m c (Pipeline.arrRef spec0 14) (((cfg0.win 24).blk t).view.emb j) := by
  unfold iblk
  rw [View.read_apply, emb_14]
  exact cast_eq _ _

theorem emb_15 (t : Fin cfg0.N) (j : S8x16x1024.Idx) :
    ((cfg0.win 15).blk t).view.emb j = ((cfg0.win 24).blk t).view.emb j := by
  obtain ⟨p0, p1, p2⟩ := idx_15 t
  obtain ⟨q0, q1, q2⟩ := idx_24 t
  funext a; apply Fin.ext
  match a with
  | ⟨0, _⟩ => show win0_15.index t (0 : Fin 3) * 8 + 1 * (j 0).val = win0_24.index t (0 : Fin 3) * 8 + 1 * (j 0).val; rw [p0, q0]
  | ⟨1, _⟩ => show win0_15.index t (1 : Fin 3) * 16 + 1 * (j 1).val = win0_24.index t (1 : Fin 3) * 16 + 1 * (j 1).val; rw [p1, q1]
  | ⟨2, _⟩ => show win0_15.index t (2 : Fin 3) * 1024 + 1 * (j 2).val = win0_24.index t (2 : Fin 3) * 1024 + 1 * (j 2).val; rw [p2, q2]

/-- Input window 15's block at point `t`, read at `j`: the window's array at the output block's index of `j`. -/
theorem iblk_15 (c : Dev nD) (t : Fin cfg0.N) (j : S8x16x1024.Idx) :
    iblk m c 15 t j = V m c (Pipeline.arrRef spec0 15) (((cfg0.win 24).blk t).view.emb j) := by
  unfold iblk
  rw [View.read_apply, emb_15]
  exact cast_eq _ _

theorem emb_16 (t : Fin cfg0.N) (j : S8x16x1024.Idx) :
    ((cfg0.win 16).blk t).view.emb j = ((cfg0.win 24).blk t).view.emb j := by
  obtain ⟨p0, p1, p2⟩ := idx_16 t
  obtain ⟨q0, q1, q2⟩ := idx_24 t
  funext a; apply Fin.ext
  match a with
  | ⟨0, _⟩ => show win0_16.index t (0 : Fin 3) * 8 + 1 * (j 0).val = win0_24.index t (0 : Fin 3) * 8 + 1 * (j 0).val; rw [p0, q0]
  | ⟨1, _⟩ => show win0_16.index t (1 : Fin 3) * 16 + 1 * (j 1).val = win0_24.index t (1 : Fin 3) * 16 + 1 * (j 1).val; rw [p1, q1]
  | ⟨2, _⟩ => show win0_16.index t (2 : Fin 3) * 1024 + 1 * (j 2).val = win0_24.index t (2 : Fin 3) * 1024 + 1 * (j 2).val; rw [p2, q2]

/-- Input window 16's block at point `t`, read at `j`: the window's array at the output block's index of `j`. -/
theorem iblk_16 (c : Dev nD) (t : Fin cfg0.N) (j : S8x16x1024.Idx) :
    iblk m c 16 t j = V m c (Pipeline.arrRef spec0 16) (((cfg0.win 24).blk t).view.emb j) := by
  unfold iblk
  rw [View.read_apply, emb_16]
  exact cast_eq _ _

theorem emb_17 (t : Fin cfg0.N) (j : S8x16x1024.Idx) :
    ((cfg0.win 17).blk t).view.emb j = ((cfg0.win 24).blk t).view.emb j := by
  obtain ⟨p0, p1, p2⟩ := idx_17 t
  obtain ⟨q0, q1, q2⟩ := idx_24 t
  funext a; apply Fin.ext
  match a with
  | ⟨0, _⟩ => show win0_17.index t (0 : Fin 3) * 8 + 1 * (j 0).val = win0_24.index t (0 : Fin 3) * 8 + 1 * (j 0).val; rw [p0, q0]
  | ⟨1, _⟩ => show win0_17.index t (1 : Fin 3) * 16 + 1 * (j 1).val = win0_24.index t (1 : Fin 3) * 16 + 1 * (j 1).val; rw [p1, q1]
  | ⟨2, _⟩ => show win0_17.index t (2 : Fin 3) * 1024 + 1 * (j 2).val = win0_24.index t (2 : Fin 3) * 1024 + 1 * (j 2).val; rw [p2, q2]

/-- Input window 17's block at point `t`, read at `j`: the window's array at the output block's index of `j`. -/
theorem iblk_17 (c : Dev nD) (t : Fin cfg0.N) (j : S8x16x1024.Idx) :
    iblk m c 17 t j = V m c (Pipeline.arrRef spec0 17) (((cfg0.win 24).blk t).view.emb j) := by
  unfold iblk
  rw [View.read_apply, emb_17]
  exact cast_eq _ _

theorem emb_18 (t : Fin cfg0.N) (j : S8x16x1024.Idx) :
    ((cfg0.win 18).blk t).view.emb j = ((cfg0.win 24).blk t).view.emb j := by
  obtain ⟨p0, p1, p2⟩ := idx_18 t
  obtain ⟨q0, q1, q2⟩ := idx_24 t
  funext a; apply Fin.ext
  match a with
  | ⟨0, _⟩ => show win0_18.index t (0 : Fin 3) * 8 + 1 * (j 0).val = win0_24.index t (0 : Fin 3) * 8 + 1 * (j 0).val; rw [p0, q0]
  | ⟨1, _⟩ => show win0_18.index t (1 : Fin 3) * 16 + 1 * (j 1).val = win0_24.index t (1 : Fin 3) * 16 + 1 * (j 1).val; rw [p1, q1]
  | ⟨2, _⟩ => show win0_18.index t (2 : Fin 3) * 1024 + 1 * (j 2).val = win0_24.index t (2 : Fin 3) * 1024 + 1 * (j 2).val; rw [p2, q2]

/-- Input window 18's block at point `t`, read at `j`: the window's array at the output block's index of `j`. -/
theorem iblk_18 (c : Dev nD) (t : Fin cfg0.N) (j : S8x16x1024.Idx) :
    iblk m c 18 t j = V m c (Pipeline.arrRef spec0 18) (((cfg0.win 24).blk t).view.emb j) := by
  unfold iblk
  rw [View.read_apply, emb_18]
  exact cast_eq _ _

theorem emb_19 (t : Fin cfg0.N) (j : S8x16x1024.Idx) :
    ((cfg0.win 19).blk t).view.emb j = ((cfg0.win 24).blk t).view.emb j := by
  obtain ⟨p0, p1, p2⟩ := idx_19 t
  obtain ⟨q0, q1, q2⟩ := idx_24 t
  funext a; apply Fin.ext
  match a with
  | ⟨0, _⟩ => show win0_19.index t (0 : Fin 3) * 8 + 1 * (j 0).val = win0_24.index t (0 : Fin 3) * 8 + 1 * (j 0).val; rw [p0, q0]
  | ⟨1, _⟩ => show win0_19.index t (1 : Fin 3) * 16 + 1 * (j 1).val = win0_24.index t (1 : Fin 3) * 16 + 1 * (j 1).val; rw [p1, q1]
  | ⟨2, _⟩ => show win0_19.index t (2 : Fin 3) * 1024 + 1 * (j 2).val = win0_24.index t (2 : Fin 3) * 1024 + 1 * (j 2).val; rw [p2, q2]

/-- Input window 19's block at point `t`, read at `j`: the window's array at the output block's index of `j`. -/
theorem iblk_19 (c : Dev nD) (t : Fin cfg0.N) (j : S8x16x1024.Idx) :
    iblk m c 19 t j = V m c (Pipeline.arrRef spec0 19) (((cfg0.win 24).blk t).view.emb j) := by
  unfold iblk
  rw [View.read_apply, emb_19]
  exact cast_eq _ _

theorem emb_20 (t : Fin cfg0.N) (j : S8x16x1024.Idx) :
    ((cfg0.win 20).blk t).view.emb j = ((cfg0.win 24).blk t).view.emb j := by
  obtain ⟨p0, p1, p2⟩ := idx_20 t
  obtain ⟨q0, q1, q2⟩ := idx_24 t
  funext a; apply Fin.ext
  match a with
  | ⟨0, _⟩ => show win0_20.index t (0 : Fin 3) * 8 + 1 * (j 0).val = win0_24.index t (0 : Fin 3) * 8 + 1 * (j 0).val; rw [p0, q0]
  | ⟨1, _⟩ => show win0_20.index t (1 : Fin 3) * 16 + 1 * (j 1).val = win0_24.index t (1 : Fin 3) * 16 + 1 * (j 1).val; rw [p1, q1]
  | ⟨2, _⟩ => show win0_20.index t (2 : Fin 3) * 1024 + 1 * (j 2).val = win0_24.index t (2 : Fin 3) * 1024 + 1 * (j 2).val; rw [p2, q2]

/-- Input window 20's block at point `t`, read at `j`: the window's array at the output block's index of `j`. -/
theorem iblk_20 (c : Dev nD) (t : Fin cfg0.N) (j : S8x16x1024.Idx) :
    iblk m c 20 t j = V m c (Pipeline.arrRef spec0 20) (((cfg0.win 24).blk t).view.emb j) := by
  unfold iblk
  rw [View.read_apply, emb_20]
  exact cast_eq _ _

theorem emb_21 (t : Fin cfg0.N) (j : S8x16x1024.Idx) :
    ((cfg0.win 21).blk t).view.emb j = ((cfg0.win 24).blk t).view.emb j := by
  obtain ⟨p0, p1, p2⟩ := idx_21 t
  obtain ⟨q0, q1, q2⟩ := idx_24 t
  funext a; apply Fin.ext
  match a with
  | ⟨0, _⟩ => show win0_21.index t (0 : Fin 3) * 8 + 1 * (j 0).val = win0_24.index t (0 : Fin 3) * 8 + 1 * (j 0).val; rw [p0, q0]
  | ⟨1, _⟩ => show win0_21.index t (1 : Fin 3) * 16 + 1 * (j 1).val = win0_24.index t (1 : Fin 3) * 16 + 1 * (j 1).val; rw [p1, q1]
  | ⟨2, _⟩ => show win0_21.index t (2 : Fin 3) * 1024 + 1 * (j 2).val = win0_24.index t (2 : Fin 3) * 1024 + 1 * (j 2).val; rw [p2, q2]

/-- Input window 21's block at point `t`, read at `j`: the window's array at the output block's index of `j`. -/
theorem iblk_21 (c : Dev nD) (t : Fin cfg0.N) (j : S8x16x1024.Idx) :
    iblk m c 21 t j = V m c (Pipeline.arrRef spec0 21) (((cfg0.win 24).blk t).view.emb j) := by
  unfold iblk
  rw [View.read_apply, emb_21]
  exact cast_eq _ _

theorem emb_22 (t : Fin cfg0.N) (j : S8x16x1024.Idx) :
    ((cfg0.win 22).blk t).view.emb j = ((cfg0.win 24).blk t).view.emb j := by
  obtain ⟨p0, p1, p2⟩ := idx_22 t
  obtain ⟨q0, q1, q2⟩ := idx_24 t
  funext a; apply Fin.ext
  match a with
  | ⟨0, _⟩ => show win0_22.index t (0 : Fin 3) * 8 + 1 * (j 0).val = win0_24.index t (0 : Fin 3) * 8 + 1 * (j 0).val; rw [p0, q0]
  | ⟨1, _⟩ => show win0_22.index t (1 : Fin 3) * 16 + 1 * (j 1).val = win0_24.index t (1 : Fin 3) * 16 + 1 * (j 1).val; rw [p1, q1]
  | ⟨2, _⟩ => show win0_22.index t (2 : Fin 3) * 1024 + 1 * (j 2).val = win0_24.index t (2 : Fin 3) * 1024 + 1 * (j 2).val; rw [p2, q2]

/-- Input window 22's block at point `t`, read at `j`: the window's array at the output block's index of `j`. -/
theorem iblk_22 (c : Dev nD) (t : Fin cfg0.N) (j : S8x16x1024.Idx) :
    iblk m c 22 t j = V m c (Pipeline.arrRef spec0 22) (((cfg0.win 24).blk t).view.emb j) := by
  unfold iblk
  rw [View.read_apply, emb_22]
  exact cast_eq _ _

theorem emb_23 (t : Fin cfg0.N) (j : S8x16x1024.Idx) :
    ((cfg0.win 23).blk t).view.emb j = ((cfg0.win 24).blk t).view.emb j := by
  obtain ⟨p0, p1, p2⟩ := idx_23 t
  obtain ⟨q0, q1, q2⟩ := idx_24 t
  funext a; apply Fin.ext
  match a with
  | ⟨0, _⟩ => show win0_23.index t (0 : Fin 3) * 8 + 1 * (j 0).val = win0_24.index t (0 : Fin 3) * 8 + 1 * (j 0).val; rw [p0, q0]
  | ⟨1, _⟩ => show win0_23.index t (1 : Fin 3) * 16 + 1 * (j 1).val = win0_24.index t (1 : Fin 3) * 16 + 1 * (j 1).val; rw [p1, q1]
  | ⟨2, _⟩ => show win0_23.index t (2 : Fin 3) * 1024 + 1 * (j 2).val = win0_24.index t (2 : Fin 3) * 1024 + 1 * (j 2).val; rw [p2, q2]

/-- Input window 23's block at point `t`, read at `j`: the window's array at the output block's index of `j`. -/
theorem iblk_23 (c : Dev nD) (t : Fin cfg0.N) (j : S8x16x1024.Idx) :
    iblk m c 23 t j = V m c (Pipeline.arrRef spec0 23) (((cfg0.win 24).blk t).view.emb j) := by
  unfold iblk
  rw [View.read_apply, emb_23]
  exact cast_eq _ _

/-! ## The result array -/

/-- The blend of the twenty-four staged arrays, element by element. -/
def blended (c : Dev nD) : S8x1024x1024.Idx → EReal :=
  blendOntoAll one
      (V m c (Pipeline.arrRef spec0 0))
      (V m c (Pipeline.arrRef spec0 1))
      (V m c (Pipeline.arrRef spec0 2))
      (V m c (Pipeline.arrRef spec0 3))
      (V m c (Pipeline.arrRef spec0 4))
      (V m c (Pipeline.arrRef spec0 5))
      (V m c (Pipeline.arrRef spec0 6))
      (V m c (Pipeline.arrRef spec0 7))
      (V m c (Pipeline.arrRef spec0 8))
      (V m c (Pipeline.arrRef spec0 9))
      (V m c (Pipeline.arrRef spec0 10))
      (V m c (Pipeline.arrRef spec0 11))
      (V m c (Pipeline.arrRef spec0 12))
      (V m c (Pipeline.arrRef spec0 13))
      (V m c (Pipeline.arrRef spec0 14))
      (V m c (Pipeline.arrRef spec0 15))
      (V m c (Pipeline.arrRef spec0 16))
      (V m c (Pipeline.arrRef spec0 17))
      (V m c (Pipeline.arrRef spec0 18))
      (V m c (Pipeline.arrRef spec0 19))
      (V m c (Pipeline.arrRef spec0 20))
      (V m c (Pipeline.arrRef spec0 21))
      (V m c (Pipeline.arrRef spec0 22))
      (V m c (Pipeline.arrRef spec0 23))

/-- What point `t` writes back is block `t` of the blend. -/
theorem flushed_eq (c : Dev nD) (t : Fin cfg0.N) :
    (dats m 0 c).flushed 24 t = ((cfg0.win 24).blk t).view.read (Elt Ideal) (blended m c) := by
  show (cfg0.win 24).cut (grid0.coords t) ((dats m 0 c).after 24 t) = _
  rw [after0_24]
  unfold out0_24
  rw [View.canon_unit_zero hz]
  simp only [View.ld_unit_zero (S := S8x16x1024) hz]
  funext j
  refine (payload_apply_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) j
    (iblk_0 m c t j) (iblk_1 m c t j) (iblk_2 m c t j) (iblk_3 m c t j) (iblk_4 m c t j) (iblk_5 m c t j) (iblk_6 m c t j) (iblk_7 m c t j) (iblk_8 m c t j) (iblk_9 m c t j) (iblk_10 m c t j) (iblk_11 m c t j) (iblk_12 m c t j) (iblk_13 m c t j) (iblk_14 m c t j) (iblk_15 m c t j) (iblk_16 m c t j) (iblk_17 m c t j) (iblk_18 m c t j) (iblk_19 m c t j) (iblk_20 m c t j) (iblk_21 m c t j) (iblk_22 m c t j) (iblk_23 m c t j)).trans ?_
  rw [View.read_apply]
  refine Eq.trans ?_ (cast_eq _ _).symm
  unfold blended blendOntoAll
  rfl

/-- An index of the result is in point `t`'s block iff each coordinate is in the block's range on its axis. -/
theorem mem_blk (t : Fin cfg0.N) (i : S8x1024x1024.Idx) :
    i ∈ ((cfg0.win 24).blk t).view.set ↔ ∀ a : Fin 3, win0_24.index t a * S8x16x1024.size a ≤ (i a).val ∧ (i a).val < win0_24.index t a * S8x16x1024.size a + S8x16x1024.size a := by
  show i ∈ ((View.whole main_v372).slice (win0_24.rect t)).set ↔ _
  rw [View.set_slice_whole, Rect.mem_set_unit]
  exact Iff.rfl

/-- Every index is in some point's block: row `r` of the second axis is in the block of point `r / 16`. -/
theorem cover (i : S8x1024x1024.Idx) :
    ∃ t : Fin cfg0.N, (cfg0.win 24).flush t = true ∧ i ∈ ((cfg0.win 24).blk t).view.set := by
  have h0 : (i 0).val < 8 := (i 0).isLt
  have h1 : (i 1).val < 1024 := (i 1).isLt
  have h2 : (i 2).val < 1024 := (i 2).isLt
  have hN : cfg0.N = 64 := N_0
  let t : Fin cfg0.N := ⟨(i 1).val / 16, by rw [hN]; omega⟩
  obtain ⟨q0, q1, q2⟩ := idx_24 t
  have ht : t.val = (i 1).val / 16 := rfl
  refine ⟨t, flush0_24 t, ?_⟩
  rw [mem_blk]
  intro a
  match a with
  | ⟨0, _⟩ => show win0_24.index t (0 : Fin 3) * 8 ≤ (i 0).val ∧ (i 0).val < win0_24.index t (0 : Fin 3) * 8 + 8; rw [q0]; omega
  | ⟨1, _⟩ => show win0_24.index t (1 : Fin 3) * 16 ≤ (i 1).val ∧ (i 1).val < win0_24.index t (1 : Fin 3) * 16 + 16; rw [q1, ht]; omega
  | ⟨2, _⟩ => show win0_24.index t (2 : Fin 3) * 1024 ≤ (i 2).val ∧ (i 2).val < win0_24.index t (2 : Fin 3) * 1024 + 1024; rw [q2]; omega

/-- The result array after the run is the blend. -/
theorem final (c : Dev nD) : (dats m 0 c).arrAt 24 cfg0.N = blended m c :=
  (dats m 0 c).arrAt_eq_of_cover 24 (blended m c) (fun t _ => flushed_eq m c t) cover

end Cert.KernelIdeal.BlendValue

end
-- ==== Proof.KernelRun.lean ====
/-
  The kernel program's run, read.

  After the region the program inserts a unit axis into the region's result array (one layout operation); the region's
  result array is the blend of the twenty-four staged arrays.  So every execution ends with the program's result at the
  blend with the unit axis inserted, and with the five argument arrays as they were.
-/
import proofs.«168991_j26474178413071_1_alg».proof.Proof.KernelValue

noncomputable section

open Idealize.ShloMosaic Idealize.ShloMosaic.TcCoe Idealize.SL.Sem Idealize.ShloMosaic.StableHlo
open Idealize.ShloMosaic.Pipeline (Dat)

namespace Cert.KernelIdeal.BlendValue

open Cert.KernelIdeal Cert.KernelIdeal.Gen Cert.KernelIdeal.GenP Cert.Blend

variable (m : (ℓ : Loc nD τ sig) → Buf (Elt Ideal) ℓ) (ρ : Dev nD → PrngReg)

/-- The program's result: the blend, a unit axis inserted after the batch axis. -/
def result (c : Dev nD) : S8x1x1024x1024.Idx → EReal :=
  broadcastInDim S8x1x1024x1024 ![0, 2, 3] bcast_S8x1024x1024_S8x1x1024x1024_0_2_3 (blended m c)

/-- What the one operation after the region leaves in the result buffer. -/
theorem tail_eq (c : Dev nD) :
    Pipeline.afterTail₀ cfgs (dats m) 0 (V0 m) [hostOps1] c main_v373 = result m c := by
  unfold Pipeline.afterTail₀
  show StableHlo.after hostOps1 _ (Proc.devRef .tc main_v373) = _
  after_results
  refine congrArg (broadcastInDim (s := S8x1024x1024) (α := EReal) S8x1x1024x1024 ![0, 2, 3] bcast_S8x1024x1024_S8x1x1024x1024_0_2_3) ?_
  refine Eq.trans (Pipeline.withArrays_arr spec0 launch0.win.arr_inj c _ _ 24) ?_
  exact final m c

/-- Every execution ends with the result at `result` and the arguments unchanged. -/
theorem run : θ_run defs (onTc (τ := τ) (main (F := Ideal))) ⟨m, fun _ => 0, ρ⟩ fun r => ∀ c : Dev nD,
      r.2.mem ((c.tc : Thread nD τ).loc main_v373) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v373 (Pipeline.mem_restRefs_of main_v373 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.BlendValue

end
-- ==== Proof.RefValue.lean ====
/-
  The reference's result, as one function of its twenty-four intermediate values.

  For each of the four levels the reference multiplies every gathered corner by its two bilinear weights in turn
  (weights `w` and `1 - w`), sums the four products, and then sums the four levels left to right; last it inserts a
  unit axis.  Every one of these operations is pointwise, so the sum of the levels is, element by element, the blend
  `blendSumAll` of the sixteen corner arrays and eight weight arrays it was computed from.
-/
import proofs.«168991_j26474178413071_1_alg».proof.Proof.RefReadPatched
import proofs.«168991_j26474178413071_1_alg».proof.Proof.BlendAlgebra
import Idealize.ShloMosaic.PureOps.Ideal

noncomputable section

namespace Cert.ReferenceIdeal.BlendValue

open Cert.ReferenceIdeal Cert.ReferenceIdeal.Gen Cert.ReferenceIdeal.ReadP Idealize.ShloMosaic Cert.Blend

/-- The extended real the word of `1.0` denotes. -/
abbrev one : EReal := Ideal.ofBits .f32 0x3F800000#32

/-- The sum of the four levels is the blend of the reference's corner and weight stages. -/
theorem levels_eq (x0 : (⟨S8x1024x1024x2, .f32⟩ : BufTy).Contents (Elt Ideal)) (x1 : (⟨S1x1x1024x1024, .f32⟩ : BufTy).Contents (Elt Ideal))
    (x2 : (⟨S1x1x512x512, .f32⟩ : BufTy).Contents (Elt Ideal)) (x3 : (⟨S1x1x256x256, .f32⟩ : BufTy).Contents (Elt Ideal))
    (x4 : (⟨S1x1x128x128, .f32⟩ : BufTy).Contents (Elt Ideal)) :
    val_main_v450 (F := Ideal) x0 x1 x2 x3 x4
      = blendSumAll one
      (val_main_v50 (F := Ideal) x0 x1)
      (val_main_v64 (F := Ideal) x0 x1)
      (val_main_v78 (F := Ideal) x0 x1)
      (val_main_v92 (F := Ideal) x0 x1)
      (val_main_v162 (F := Ideal) x0 x2)
      (val_main_v176 (F := Ideal) x0 x2)
      (val_main_v190 (F := Ideal) x0 x2)
      (val_main_v204 (F := Ideal) x0 x2)
      (val_main_v275 (F := Ideal) x0 x3)
      (val_main_v289 (F := Ideal) x0 x3)
      (val_main_v303 (F := Ideal) x0 x3)
      (val_main_v317 (F := Ideal) x0 x3)
      (val_main_v388 (F := Ideal) x0 x4)
      (val_main_v402 (F := Ideal) x0 x4)
      (val_main_v416 (F := Ideal) x0 x4)
      (val_main_v430 (F := Ideal) x0 x4)
      (val_main_v25 (F := Ideal) x0)
      (val_main_v26 (F := Ideal) x0)
      (val_main_v137 (F := Ideal) x0)
      (val_main_v138 (F := Ideal) x0)
      (val_main_v250 (F := Ideal) x0)
      (val_main_v251 (F := Ideal) x0)
      (val_main_v363 (F := Ideal) x0)
      (val_main_v364 (F := Ideal) x0) := by
  funext i
  simp only [val_main_cst_30_apply, val_main_v93_apply, val_main_v94_apply, val_main_v95_apply, val_main_cst_31_apply, val_main_v96_apply, val_main_v97_apply, val_main_v98_apply, val_main_v99_apply, val_main_cst_32_apply, val_main_v100_apply, val_main_v101_apply, val_main_v102_apply, val_main_v103_apply, val_main_cst_33_apply, val_main_v104_apply, val_main_v105_apply, val_main_v106_apply, val_main_v107_apply, val_main_v108_apply, val_main_v109_apply, val_main_v110_apply, val_main_v111_apply, val_main_cst_66_apply, val_main_v205_apply, val_main_v206_apply, val_main_v207_apply, val_main_cst_67_apply, val_main_v208_apply, val_main_v209_apply, val_main_v210_apply, val_main_v211_apply, val_main_cst_68_apply, val_main_v212_apply, val_main_v213_apply, val_main_v214_apply, val_main_v215_apply, val_main_cst_69_apply, val_main_v216_apply, val_main_v217_apply, val_main_v218_apply, val_main_v219_apply, val_main_v220_apply, val_main_v221_apply, val_main_v222_apply, val_main_v223_apply, val_main_v224_apply, val_main_cst_102_apply, val_main_v318_apply, val_main_v319_apply, val_main_v320_apply, val_main_cst_103_apply, val_main_v321_apply, val_main_v322_apply, val_main_v323_apply, val_main_v324_apply, val_main_cst_104_apply, val_main_v325_apply, val_main_v326_apply, val_main_v327_apply, val_main_v328_apply, val_main_cst_105_apply, val_main_v329_apply, val_main_v330_apply, val_main_v331_apply, val_main_v332_apply, val_main_v333_apply, val_main_v334_apply, val_main_v335_apply, val_main_v336_apply, val_main_v337_apply, val_main_cst_138_apply, val_main_v431_apply, val_main_v432_apply, val_main_v433_apply, val_main_cst_139_apply, val_main_v434_apply, val_main_v435_apply, val_main_v436_apply, val_main_v437_apply, val_main_cst_140_apply, val_main_v438_apply, val_main_v439_apply, val_main_v440_apply, val_main_v441_apply, val_main_cst_141_apply, val_main_v442_apply, val_main_v443_apply, val_main_v444_apply, val_main_v445_apply, val_main_v446_apply, val_main_v447_apply, val_main_v448_apply, val_main_v449_apply, val_main_v450_apply]
  rfl

/-- The reference's result: the unit axis inserted into the sum of the levels. -/
theorem result_eq (x0 : (⟨S8x1024x1024x2, .f32⟩ : BufTy).Contents (Elt Ideal)) (x1 : (⟨S1x1x1024x1024, .f32⟩ : BufTy).Contents (Elt Ideal))
    (x2 : (⟨S1x1x512x512, .f32⟩ : BufTy).Contents (Elt Ideal)) (x3 : (⟨S1x1x256x256, .f32⟩ : BufTy).Contents (Elt Ideal))
    (x4 : (⟨S1x1x128x128, .f32⟩ : BufTy).Contents (Elt Ideal)) :
    val_main_v451 (F := Ideal) x0 x1 x2 x3 x4
      = broadcastInDim (s := S8x1024x1024) (α := EReal) S8x1x1024x1024 ![0, 2, 3] bcast_S8x1024x1024_S8x1x1024x1024_0_2_3
          (blendSumAll one
      (val_main_v50 (F := Ideal) x0 x1)
      (val_main_v64 (F := Ideal) x0 x1)
      (val_main_v78 (F := Ideal) x0 x1)
      (val_main_v92 (F := Ideal) x0 x1)
      (val_main_v162 (F := Ideal) x0 x2)
      (val_main_v176 (F := Ideal) x0 x2)
      (val_main_v190 (F := Ideal) x0 x2)
      (val_main_v204 (F := Ideal) x0 x2)
      (val_main_v275 (F := Ideal) x0 x3)
      (val_main_v289 (F := Ideal) x0 x3)
      (val_main_v303 (F := Ideal) x0 x3)
      (val_main_v317 (F := Ideal) x0 x3)
      (val_main_v388 (F := Ideal) x0 x4)
      (val_main_v402 (F := Ideal) x0 x4)
      (val_main_v416 (F := Ideal) x0 x4)
      (val_main_v430 (F := Ideal) x0 x4)
      (val_main_v25 (F := Ideal) x0)
      (val_main_v26 (F := Ideal) x0)
      (val_main_v137 (F := Ideal) x0)
      (val_main_v138 (F := Ideal) x0)
      (val_main_v250 (F := Ideal) x0)
      (val_main_v251 (F := Ideal) x0)
      (val_main_v363 (F := Ideal) x0)
      (val_main_v364 (F := Ideal) x0)) := by
  unfold val_main_v451
  rw [levels_eq]

end Cert.ReferenceIdeal.BlendValue

end
-- ==== Proof.BlendCongr.lean ====
/-
  The blend of twenty-four arrays depends only on the arrays: equal arrays, equal blends — all twenty-four replaced at
  once, each by an array equal to it.
-/
import proofs.«168991_j26474178413071_1_alg».proof.Proof.BlendAlgebra

noncomputable section

namespace Cert.Blend

theorem blendOntoAll_congr {ι : Type} (u : EReal) {a0 a1 a2 a3 a4 a5 a6 a7 a8 a9 a10 a11 a12 a13 a14 a15 a16 a17 a18 a19 a20 a21 a22 a23 b0 b1 b2 b3 b4 b5 b6 b7 b8 b9 b10 b11 b12 b13 b14 b15 b16 b17 b18 b19 b20 b21 b22 b23 : ι → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) :
    blendOntoAll u a0 a1 a2 a3 a4 a5 a6 a7 a8 a9 a10 a11 a12 a13 a14 a15 a16 a17 a18 a19 a20 a21 a22 a23 = blendOntoAll u b0 b1 b2 b3 b4 b5 b6 b7 b8 b9 b10 b11 b12 b13 b14 b15 b16 b17 b18 b19 b20 b21 b22 b23 := by
  subst h0 h1 h2 h3 h4 h5 h6 h7 h8 h9 h10 h11 h12 h13 h14 h15 h16 h17 h18 h19 h20 h21 h22 h23
  rfl

end Cert.Blend

end
-- ==== Proof.StagedLevel1.lean ====
/-
  The arrays the kernel stages for level 1 are the reference's own intermediate values.

  Before its region the kernel program computes, with the same host operations as the reference and from the same
  arguments, the sampling coordinates of level 1 (unnormalise, clip to the border), their integer parts and fractional
  parts, the neighbouring row and column clipped to the last one, and the four gathers of the level's image at those rows
  and columns.  Each of the six arrays it hands to the region — four corner arrays and the two weights — is therefore,
  operation for operation, the value the reference computes at the matching point of its own program; the only
  difference in spelling is that the clip is a called function whose buffers are read through typed references, and
  those transports are removed one at a time.  (The two-piece concatenation of row and column numbers that feeds a gather is
  restated as a plain function of its pieces first, so that the simplifier pass that unrolls the host operations reaches
  the pieces.)
-/
import proofs.«168991_j26474178413071_1_alg».proof.Proof.KernelIdealFramePatched
import proofs.«168991_j26474178413071_1_alg».proof.Proof.RefReadPatched
import proofs.«168991_j26474178413071_1_alg».proof.Proof.LibTypedRefs
import proofs.«168991_j26474178413071_1_alg».proof.Proof.LibConcatPair
import Idealize.ShloMosaic.Lib.StableHlo.Run
import Idealize.ShloMosaic.PureOps.Ideal

noncomputable section

namespace Cert.KernelIdeal.Staged

open Cert.KernelIdeal Cert.KernelIdeal.Gen Cert.KernelIdeal.GenP Idealize.ShloMosaic Idealize.ShloMosaic.TcCoe Idealize.SL.Sem
open Idealize.ShloMosaic.StableHlo Cert.Lib.TypedRefs Cert.Lib.ConcatPair

variable (m : (ℓ : Loc nD τ sig) → Buf (Elt Ideal) ℓ)

set_option maxHeartbeats 100000000 in
/-- Window 0's array (the upper-left corner values gathered from level 1's image) is the reference's stage `val_main_v50` of the same arguments. -/
theorem staged_0 (c : Dev nD) :
    V m c (Pipeline.arrRef spec0 0) = Cert.ReferenceIdeal.ReadP.val_main_v50 (F := Ideal) (m ((c.tc : Thread nD τ).loc main_arg0)) (m ((c.tc : Thread nD τ).loc main_arg1)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 1's array (the upper-right corner values gathered from level 1's image) is the reference's stage `val_main_v64` of the same arguments. -/
theorem staged_1 (c : Dev nD) :
    V m c (Pipeline.arrRef spec0 1) = Cert.ReferenceIdeal.ReadP.val_main_v64 (F := Ideal) (m ((c.tc : Thread nD τ).loc main_arg0)) (m ((c.tc : Thread nD τ).loc main_arg1)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 2's array (the lower-left corner values gathered from level 1's image) is the reference's stage `val_main_v78` of the same arguments. -/
theorem staged_2 (c : Dev nD) :
    V m c (Pipeline.arrRef spec0 2) = Cert.ReferenceIdeal.ReadP.val_main_v78 (F := Ideal) (m ((c.tc : Thread nD τ).loc main_arg0)) (m ((c.tc : Thread nD τ).loc main_arg1)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 3's array (the lower-right corner values gathered from level 1's image) is the reference's stage `val_main_v92` of the same arguments. -/
theorem staged_3 (c : Dev nD) :
    V m c (Pipeline.arrRef spec0 3) = Cert.ReferenceIdeal.ReadP.val_main_v92 (F := Ideal) (m ((c.tc : Thread nD τ).loc main_arg0)) (m ((c.tc : Thread nD τ).loc main_arg1)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 16's array (the horizontal interpolation weight of level 1) is the reference's stage `val_main_v25` of the same arguments. -/
theorem staged_16 (c : Dev nD) :
    V m c (Pipeline.arrRef spec0 16) = Cert.ReferenceIdeal.ReadP.val_main_v25 (F := Ideal) (m ((c.tc : Thread nD τ).loc main_arg0)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 17's array (the vertical interpolation weight of level 1) is the reference's stage `val_main_v26` of the same arguments. -/
theorem staged_17 (c : Dev nD) :
    V m c (Pipeline.arrRef spec0 17) = Cert.ReferenceIdeal.ReadP.val_main_v26 (F := Ideal) (m ((c.tc : Thread nD τ).loc main_arg0)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

end Cert.KernelIdeal.Staged

end
-- ==== Proof.StagedLevel2.lean ====
/-
  The arrays the kernel stages for level 2 are the reference's own intermediate values.

  Before its region the kernel program computes, with the same host operations as the reference and from the same
  arguments, the sampling coordinates of level 2 (unnormalise, clip to the border), their integer parts and fractional
  parts, the neighbouring row and column clipped to the last one, and the four gathers of the level's image at those rows
  and columns.  Each of the six arrays it hands to the region — four corner arrays and the two weights — is therefore,
  operation for operation, the value the reference computes at the matching point of its own program; the only
  difference in spelling is that the clip is a called function whose buffers are read through typed references, and
  those transports are removed one at a time.  (The two-piece concatenation of row and column numbers that feeds a gather is
  restated as a plain function of its pieces first, so that the simplifier pass that unrolls the host operations reaches
  the pieces.)
-/
import proofs.«168991_j26474178413071_1_alg».proof.Proof.KernelIdealFramePatched
import proofs.«168991_j26474178413071_1_alg».proof.Proof.RefReadPatched
import proofs.«168991_j26474178413071_1_alg».proof.Proof.LibTypedRefs
import proofs.«168991_j26474178413071_1_alg».proof.Proof.LibConcatPair
import Idealize.ShloMosaic.Lib.StableHlo.Run
import Idealize.ShloMosaic.PureOps.Ideal

noncomputable section

namespace Cert.KernelIdeal.Staged

open Cert.KernelIdeal Cert.KernelIdeal.Gen Cert.KernelIdeal.GenP Idealize.ShloMosaic Idealize.ShloMosaic.TcCoe Idealize.SL.Sem
open Idealize.ShloMosaic.StableHlo Cert.Lib.TypedRefs Cert.Lib.ConcatPair

variable (m : (ℓ : Loc nD τ sig) → Buf (Elt Ideal) ℓ)

set_option maxHeartbeats 100000000 in
/-- Window 4's array (the upper-left corner values gathered from level 2's image) is the reference's stage `val_main_v162` of the same arguments. -/
theorem staged_4 (c : Dev nD) :
    V m c (Pipeline.arrRef spec0 4) = Cert.ReferenceIdeal.ReadP.val_main_v162 (F := Ideal) (m ((c.tc : Thread nD τ).loc main_arg0)) (m ((c.tc : Thread nD τ).loc main_arg2)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 5's array (the upper-right corner values gathered from level 2's image) is the reference's stage `val_main_v176` of the same arguments. -/
theorem staged_5 (c : Dev nD) :
    V m c (Pipeline.arrRef spec0 5) = Cert.ReferenceIdeal.ReadP.val_main_v176 (F := Ideal) (m ((c.tc : Thread nD τ).loc main_arg0)) (m ((c.tc : Thread nD τ).loc main_arg2)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 6's array (the lower-left corner values gathered from level 2's image) is the reference's stage `val_main_v190` of the same arguments. -/
theorem staged_6 (c : Dev nD) :
    V m c (Pipeline.arrRef spec0 6) = Cert.ReferenceIdeal.ReadP.val_main_v190 (F := Ideal) (m ((c.tc : Thread nD τ).loc main_arg0)) (m ((c.tc : Thread nD τ).loc main_arg2)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 7's array (the lower-right corner values gathered from level 2's image) is the reference's stage `val_main_v204` of the same arguments. -/
theorem staged_7 (c : Dev nD) :
    V m c (Pipeline.arrRef spec0 7) = Cert.ReferenceIdeal.ReadP.val_main_v204 (F := Ideal) (m ((c.tc : Thread nD τ).loc main_arg0)) (m ((c.tc : Thread nD τ).loc main_arg2)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 18's array (the horizontal interpolation weight of level 2) is the reference's stage `val_main_v137` of the same arguments. -/
theorem staged_18 (c : Dev nD) :
    V m c (Pipeline.arrRef spec0 18) = Cert.ReferenceIdeal.ReadP.val_main_v137 (F := Ideal) (m ((c.tc : Thread nD τ).loc main_arg0)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 19's array (the vertical interpolation weight of level 2) is the reference's stage `val_main_v138` of the same arguments. -/
theorem staged_19 (c : Dev nD) :
    V m c (Pipeline.arrRef spec0 19) = Cert.ReferenceIdeal.ReadP.val_main_v138 (F := Ideal) (m ((c.tc : Thread nD τ).loc main_arg0)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

end Cert.KernelIdeal.Staged

end
-- ==== Proof.StagedLevel3.lean ====
/-
  The arrays the kernel stages for level 3 are the reference's own intermediate values.

  Before its region the kernel program computes, with the same host operations as the reference and from the same
  arguments, the sampling coordinates of level 3 (unnormalise, clip to the border), their integer parts and fractional
  parts, the neighbouring row and column clipped to the last one, and the four gathers of the level's image at those rows
  and columns.  Each of the six arrays it hands to the region — four corner arrays and the two weights — is therefore,
  operation for operation, the value the reference computes at the matching point of its own program; the only
  difference in spelling is that the clip is a called function whose buffers are read through typed references, and
  those transports are removed one at a time.  (The two-piece concatenation of row and column numbers that feeds a gather is
  restated as a plain function of its pieces first, so that the simplifier pass that unrolls the host operations reaches
  the pieces.)
-/
import proofs.«168991_j26474178413071_1_alg».proof.Proof.KernelIdealFramePatched
import proofs.«168991_j26474178413071_1_alg».proof.Proof.RefReadPatched
import proofs.«168991_j26474178413071_1_alg».proof.Proof.LibTypedRefs
import proofs.«168991_j26474178413071_1_alg».proof.Proof.LibConcatPair
import Idealize.ShloMosaic.Lib.StableHlo.Run
import Idealize.ShloMosaic.PureOps.Ideal

noncomputable section

namespace Cert.KernelIdeal.Staged

open Cert.KernelIdeal Cert.KernelIdeal.Gen Cert.KernelIdeal.GenP Idealize.ShloMosaic Idealize.ShloMosaic.TcCoe Idealize.SL.Sem
open Idealize.ShloMosaic.StableHlo Cert.Lib.TypedRefs Cert.Lib.ConcatPair

variable (m : (ℓ : Loc nD τ sig) → Buf (Elt Ideal) ℓ)

set_option maxHeartbeats 100000000 in
/-- Window 8's array (the upper-left corner values gathered from level 3's image) is the reference's stage `val_main_v275` of the same arguments. -/
theorem staged_8 (c : Dev nD) :
    V m c (Pipeline.arrRef spec0 8) = Cert.ReferenceIdeal.ReadP.val_main_v275 (F := Ideal) (m ((c.tc : Thread nD τ).loc main_arg0)) (m ((c.tc : Thread nD τ).loc main_arg3)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 9's array (the upper-right corner values gathered from level 3's image) is the reference's stage `val_main_v289` of the same arguments. -/
theorem staged_9 (c : Dev nD) :
    V m c (Pipeline.arrRef spec0 9) = Cert.ReferenceIdeal.ReadP.val_main_v289 (F := Ideal) (m ((c.tc : Thread nD τ).loc main_arg0)) (m ((c.tc : Thread nD τ).loc main_arg3)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 10's array (the lower-left corner values gathered from level 3's image) is the reference's stage `val_main_v303` of the same arguments. -/
theorem staged_10 (c : Dev nD) :
    V m c (Pipeline.arrRef spec0 10) = Cert.ReferenceIdeal.ReadP.val_main_v303 (F := Ideal) (m ((c.tc : Thread nD τ).loc main_arg0)) (m ((c.tc : Thread nD τ).loc main_arg3)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 11's array (the lower-right corner values gathered from level 3's image) is the reference's stage `val_main_v317` of the same arguments. -/
theorem staged_11 (c : Dev nD) :
    V m c (Pipeline.arrRef spec0 11) = Cert.ReferenceIdeal.ReadP.val_main_v317 (F := Ideal) (m ((c.tc : Thread nD τ).loc main_arg0)) (m ((c.tc : Thread nD τ).loc main_arg3)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 20's array (the horizontal interpolation weight of level 3) is the reference's stage `val_main_v250` of the same arguments. -/
theorem staged_20 (c : Dev nD) :
    V m c (Pipeline.arrRef spec0 20) = Cert.ReferenceIdeal.ReadP.val_main_v250 (F := Ideal) (m ((c.tc : Thread nD τ).loc main_arg0)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 21's array (the vertical interpolation weight of level 3) is the reference's stage `val_main_v251` of the same arguments. -/
theorem staged_21 (c : Dev nD) :
    V m c (Pipeline.arrRef spec0 21) = Cert.ReferenceIdeal.ReadP.val_main_v251 (F := Ideal) (m ((c.tc : Thread nD τ).loc main_arg0)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

end Cert.KernelIdeal.Staged

end
-- ==== Proof.StagedLevel4.lean ====
/-
  The arrays the kernel stages for level 4 are the reference's own intermediate values.

  Before its region the kernel program computes, with the same host operations as the reference and from the same
  arguments, the sampling coordinates of level 4 (unnormalise, clip to the border), their integer parts and fractional
  parts, the neighbouring row and column clipped to the last one, and the four gathers of the level's image at those rows
  and columns.  Each of the six arrays it hands to the region — four corner arrays and the two weights — is therefore,
  operation for operation, the value the reference computes at the matching point of its own program; the only
  difference in spelling is that the clip is a called function whose buffers are read through typed references, and
  those transports are removed one at a time.  (The two-piece concatenation of row and column numbers that feeds a gather is
  restated as a plain function of its pieces first, so that the simplifier pass that unrolls the host operations reaches
  the pieces.)
-/
import proofs.«168991_j26474178413071_1_alg».proof.Proof.KernelIdealFramePatched
import proofs.«168991_j26474178413071_1_alg».proof.Proof.RefReadPatched
import proofs.«168991_j26474178413071_1_alg».proof.Proof.LibTypedRefs
import proofs.«168991_j26474178413071_1_alg».proof.Proof.LibConcatPair
import Idealize.ShloMosaic.Lib.StableHlo.Run
import Idealize.ShloMosaic.PureOps.Ideal

noncomputable section

namespace Cert.KernelIdeal.Staged

open Cert.KernelIdeal Cert.KernelIdeal.Gen Cert.KernelIdeal.GenP Idealize.ShloMosaic Idealize.ShloMosaic.TcCoe Idealize.SL.Sem
open Idealize.ShloMosaic.StableHlo Cert.Lib.TypedRefs Cert.Lib.ConcatPair

variable (m : (ℓ : Loc nD τ sig) → Buf (Elt Ideal) ℓ)

set_option maxHeartbeats 100000000 in
/-- Window 12's array (the upper-left corner values gathered from level 4's image) is the reference's stage `val_main_v388` of the same arguments. -/
theorem staged_12 (c : Dev nD) :
    V m c (Pipeline.arrRef spec0 12) = Cert.ReferenceIdeal.ReadP.val_main_v388 (F := Ideal) (m ((c.tc : Thread nD τ).loc main_arg0)) (m ((c.tc : Thread nD τ).loc main_arg4)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 13's array (the upper-right corner values gathered from level 4's image) is the reference's stage `val_main_v402` of the same arguments. -/
theorem staged_13 (c : Dev nD) :
    V m c (Pipeline.arrRef spec0 13) = Cert.ReferenceIdeal.ReadP.val_main_v402 (F := Ideal) (m ((c.tc : Thread nD τ).loc main_arg0)) (m ((c.tc : Thread nD τ).loc main_arg4)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 14's array (the lower-left corner values gathered from level 4's image) is the reference's stage `val_main_v416` of the same arguments. -/
theorem staged_14 (c : Dev nD) :
    V m c (Pipeline.arrRef spec0 14) = Cert.ReferenceIdeal.ReadP.val_main_v416 (F := Ideal) (m ((c.tc : Thread nD τ).loc main_arg0)) (m ((c.tc : Thread nD τ).loc main_arg4)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 15's array (the lower-right corner values gathered from level 4's image) is the reference's stage `val_main_v430` of the same arguments. -/
theorem staged_15 (c : Dev nD) :
    V m c (Pipeline.arrRef spec0 15) = Cert.ReferenceIdeal.ReadP.val_main_v430 (F := Ideal) (m ((c.tc : Thread nD τ).loc main_arg0)) (m ((c.tc : Thread nD τ).loc main_arg4)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 22's array (the horizontal interpolation weight of level 4) is the reference's stage `val_main_v363` of the same arguments. -/
theorem staged_22 (c : Dev nD) :
    V m c (Pipeline.arrRef spec0 22) = Cert.ReferenceIdeal.ReadP.val_main_v363 (F := Ideal) (m ((c.tc : Thread nD τ).loc main_arg0)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

set_option maxHeartbeats 100000000 in
/-- Window 23's array (the vertical interpolation weight of level 4) is the reference's stage `val_main_v364` of the same arguments. -/
theorem staged_23 (c : Dev nD) :
    V m c (Pipeline.arrRef spec0 23) = Cert.ReferenceIdeal.ReadP.val_main_v364 (F := Ideal) (m ((c.tc : Thread nD τ).loc main_arg0)) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair]
  simp only [ofBuf_toBuf]
  repeat (first | rw [toBuf_eq_of_heq _ _ _ HEq.rfl] | rw [ofBuf_eq_of_heq _ _ _ HEq.rfl])
  rfl

end Cert.KernelIdeal.Staged

end
-- ==== Proof.BlendBridge.lean ====
/-
  The kernel's result is the reference's result of the same arguments.

  The kernel's result is the unit axis inserted into the blend of the twenty-four arrays it stages, each level added in
  turn onto zero; each staged array is the reference's own stage (the four level modules); and the reference's result is
  the unit axis inserted into the blend of those stages, each level summed on its own.  The two arrangements of the
  blend are equal by associativity of the sum and the product of extended reals alone, so nothing is asked of the
  arguments: they may hold any extended reals.
-/
import proofs.«168991_j26474178413071_1_alg».proof.Proof.KernelRun
import proofs.«168991_j26474178413071_1_alg».proof.Proof.RefValue
import proofs.«168991_j26474178413071_1_alg».proof.Proof.BlendCongr
import proofs.«168991_j26474178413071_1_alg».proof.Proof.StagedLevel1
import proofs.«168991_j26474178413071_1_alg».proof.Proof.StagedLevel2
import proofs.«168991_j26474178413071_1_alg».proof.Proof.StagedLevel3
import proofs.«168991_j26474178413071_1_alg».proof.Proof.StagedLevel4

noncomputable section

open Idealize.ShloMosaic Idealize.ShloMosaic.TcCoe Idealize.SL.Sem

namespace Cert.KernelIdeal.BlendValue

open Cert.KernelIdeal Cert.KernelIdeal.Gen Cert.KernelIdeal.GenP Cert.Blend Cert.KernelIdeal.Staged

variable (m : (ℓ : Loc nD τ sig) → Buf (Elt Ideal) ℓ)

set_option maxHeartbeats 8000000 in
/-- The blend of the staged arrays, each level added onto zero, is the blend of the reference's stages, each level
    summed on its own. -/
theorem blended_eq (c : Dev nD) :
    blended m c = blendSumAll one
      (Cert.ReferenceIdeal.ReadP.val_main_v50 (F := Ideal) (m ((c.tc : Thread nD τ).loc main_arg0)) (m ((c.tc : Thread nD τ).loc main_arg1)))
      (Cert.ReferenceIdeal.ReadP.val_main_v64 (F := Ideal) (m ((c.tc : Thread nD τ).loc main_arg0)) (m ((c.tc : Thread nD τ).loc main_arg1)))
      (Cert.ReferenceIdeal.ReadP.val_main_v78 (F := Ideal) (m ((c.tc : Thread nD τ).loc main_arg0)) (m ((c.tc : Thread nD τ).loc main_arg1)))
      (Cert.ReferenceIdeal.ReadP.val_main_v92 (F := Ideal) (m ((c.tc : Thread nD τ).loc main_arg0)) (m ((c.tc : Thread nD τ).loc main_arg1)))
      (Cert.ReferenceIdeal.ReadP.val_main_v162 (F := Ideal) (m ((c.tc : Thread nD τ).loc main_arg0)) (m ((c.tc : Thread nD τ).loc main_arg2)))
      (Cert.ReferenceIdeal.ReadP.val_main_v176 (F := Ideal) (m ((c.tc : Thread nD τ).loc main_arg0)) (m ((c.tc : Thread nD τ).loc main_arg2)))
      (Cert.ReferenceIdeal.ReadP.val_main_v190 (F := Ideal) (m ((c.tc : Thread nD τ).loc main_arg0)) (m ((c.tc : Thread nD τ).loc main_arg2)))
      (Cert.ReferenceIdeal.ReadP.val_main_v204 (F := Ideal) (m ((c.tc : Thread nD τ).loc main_arg0)) (m ((c.tc : Thread nD τ).loc main_arg2)))
      (Cert.ReferenceIdeal.ReadP.val_main_v275 (F := Ideal) (m ((c.tc : Thread nD τ).loc main_arg0)) (m ((c.tc : Thread nD τ).loc main_arg3)))
      (Cert.ReferenceIdeal.ReadP.val_main_v289 (F := Ideal) (m ((c.tc : Thread nD τ).loc main_arg0)) (m ((c.tc : Thread nD τ).loc main_arg3)))
      (Cert.ReferenceIdeal.ReadP.val_main_v303 (F := Ideal) (m ((c.tc : Thread nD τ).loc main_arg0)) (m ((c.tc : Thread nD τ).loc main_arg3)))
      (Cert.ReferenceIdeal.ReadP.val_main_v317 (F := Ideal) (m ((c.tc : Thread nD τ).loc main_arg0)) (m ((c.tc : Thread nD τ).loc main_arg3)))
      (Cert.ReferenceIdeal.ReadP.val_main_v388 (F := Ideal) (m ((c.tc : Thread nD τ).loc main_arg0)) (m ((c.tc : Thread nD τ).loc main_arg4)))
      (Cert.ReferenceIdeal.ReadP.val_main_v402 (F := Ideal) (m ((c.tc : Thread nD τ).loc main_arg0)) (m ((c.tc : Thread nD τ).loc main_arg4)))
      (Cert.ReferenceIdeal.ReadP.val_main_v416 (F := Ideal) (m ((c.tc : Thread nD τ).loc main_arg0)) (m ((c.tc : Thread nD τ).loc main_arg4)))
      (Cert.ReferenceIdeal.ReadP.val_main_v430 (F := Ideal) (m ((c.tc : Thread nD τ).loc main_arg0)) (m ((c.tc : Thread nD τ).loc main_arg4)))
      (Cert.ReferenceIdeal.ReadP.val_main_v25 (F := Ideal) (m ((c.tc : Thread nD τ).loc main_arg0)))
      (Cert.ReferenceIdeal.ReadP.val_main_v26 (F := Ideal) (m ((c.tc : Thread nD τ).loc main_arg0)))
      (Cert.ReferenceIdeal.ReadP.val_main_v137 (F := Ideal) (m ((c.tc : Thread nD τ).loc main_arg0)))
      (Cert.ReferenceIdeal.ReadP.val_main_v138 (F := Ideal) (m ((c.tc : Thread nD τ).loc main_arg0)))
      (Cert.ReferenceIdeal.ReadP.val_main_v250 (F := Ideal) (m ((c.tc : Thread nD τ).loc main_arg0)))
      (Cert.ReferenceIdeal.ReadP.val_main_v251 (F := Ideal) (m ((c.tc : Thread nD τ).loc main_arg0)))
      (Cert.ReferenceIdeal.ReadP.val_main_v363 (F := Ideal) (m ((c.tc : Thread nD τ).loc main_arg0)))
      (Cert.ReferenceIdeal.ReadP.val_main_v364 (F := Ideal) (m ((c.tc : Thread nD τ).loc main_arg0))) := by
  unfold blended
  refine (blendOntoAll_congr one (staged_0 m c) (staged_1 m c) (staged_2 m c) (staged_3 m c) (staged_4 m c) (staged_5 m c) (staged_6 m c) (staged_7 m c) (staged_8 m c) (staged_9 m c) (staged_10 m c) (staged_11 m c) (staged_12 m c) (staged_13 m c) (staged_14 m c) (staged_15 m c) (staged_16 m c) (staged_17 m c) (staged_18 m c) (staged_19 m c) (staged_20 m c) (staged_21 m c) (staged_22 m c) (staged_23 m c)).trans ?_
  exact blendOntoAll_eq_blendSumAll one _ _ _ _ _ _ _ _ _ _ _ _ _ _ _ _ _ _ _ _ _ _ _ _

/-- The kernel's result is the reference's last stage of the kernel's own arguments. -/
theorem result_eq_ref (c : Dev nD) :
    result m c = Cert.ReferenceIdeal.ReadP.val_main_v451 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.ReferenceIdeal.BlendValue.result_eq]
  unfold result
  rw [blended_eq m c]

end Cert.KernelIdeal.BlendValue

end
-- ==== Proof.lean ====
/-
  A four-level bilinear image sampler: the kernel against its reference, over the extended reals.

  Both programs read a grid of sampling positions `x : [8, 1024, 1024, 2]` and four square images (1024², 512², 256², 128²).
  For each level they unnormalise the two coordinates, clip them to the image's border, split each into its integer part and
  its fractional part `w`, take the neighbouring row and column (clipped to the last one), and gather the image at the four
  corners; the sample of the level is the bilinear blend  Σ corner · (w or 1 - w) · (w or 1 - w), and the result is the sum
  of the four levels, with a unit axis inserted.

  The two programs share all of the coordinate arithmetic and the gathers, operation for operation.  They differ in where the
  blend is done and in how it is grouped: the kernel hands the sixteen corner arrays and the eight weight arrays to one
  region of 64 grid points (sixteen rows each), which starts a sum at zero and adds each corner times the PRODUCT of its two
  weights, level after level; the reference multiplies each corner by its two weights in turn, sums the four corners of a
  level, and sums the four levels.  On the extended reals the sum and the product are associative and zero is neutral for the
  sum, and that is all the difference asks for: no distributivity, no cancellation, hence no finiteness — the precondition is
  never opened.

  Modules: BlendAlgebra and BlendCongr (the identity between the two groupings), BlendPayload (the region's stored value at
  an element), KernelValue (the region's result array from its 64 blocks), KernelRun (the program's run with the unit axis),
  StagedLevel1 … StagedLevel4 (each staged array is the reference's own stage), RefRun (the reference's run, at its last
  stage), RefValue (the reference's result as a blend of its stages), BlendBridge (the two results are one).
-/
import proofs.«168991_j26474178413071_1_alg».proof.Defs
import proofs.«168991_j26474178413071_1_alg».proof.Proof.Gen.Kernel
import proofs.«168991_j26474178413071_1_alg».proof.Proof.Gen.Kernel.Skeleton
import proofs.«168991_j26474178413071_1_alg».proof.Proof.Gen.Kernel.Launch
import proofs.«168991_j26474178413071_1_alg».proof.Proof.Gen.Kernel.Points
import proofs.«168991_j26474178413071_1_alg».proof.Proof.KernelFramePatched
import proofs.«168991_j26474178413071_1_alg».proof.Proof.Gen.KernelIdeal
import proofs.«168991_j26474178413071_1_alg».proof.Proof.Gen.KernelIdeal.Skeleton
import proofs.«168991_j26474178413071_1_alg».proof.Proof.Gen.KernelIdeal.Launch
import proofs.«168991_j26474178413071_1_alg».proof.Proof.Gen.KernelIdeal.Points
import proofs.«168991_j26474178413071_1_alg».proof.Proof.KernelIdealFramePatched
import proofs.«168991_j26474178413071_1_alg».proof.Proof.Gen.ReferenceIdeal
import proofs.«168991_j26474178413071_1_alg».proof.Proof.RefOpsPatched
import proofs.«168991_j26474178413071_1_alg».proof.Proof.RefReadPatched
import proofs.«168991_j26474178413071_1_alg».proof.Proof.RefRun
import proofs.«168991_j26474178413071_1_alg».proof.Proof.Gen.Pre_finite_inputs
import proofs.«168991_j26474178413071_1_alg».proof.Proof.BlendBridge
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel :=
  fun m ρ _ => Cert.Kernel.GenP.frame m ρ

/-- So does the kernel read over the extended reals. -/
theorem frame_kernelIdeal : Cert.frame_KernelIdeal :=
  fun m ρ _ => Cert.KernelIdeal.GenP.frame m ρ

/-- The reference has no region: its frame is its run with the result dropped. -/
theorem frame_reference : Cert.frame_ReferenceIdeal :=
  fun m ρ _ => (θ_run Cert.ReferenceIdeal.defs _ _).mono (fun _ h c => (h c).2)
    (Cert.ReferenceIdeal.RefRun.run m ρ)

/-- From memories that agree on the five arguments both programs end with the same result: the kernel's is the
    reference's last stage of the kernel's arguments (`result_eq_ref`), and the reference's is that stage of its own. -/
theorem algebraic : Cert.algebraic_KernelIdeal_ReferenceIdeal := by
  intro m ρ m' ρ' _ hagree
  refine ⟨fun c => Cert.KernelIdeal.BlendValue.result m c, Cert.KernelIdeal.BlendValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2]
  exact (Cert.KernelIdeal.BlendValue.result_eq_ref m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
